-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_v84) = v1 c
          ∧ r.2.mem ((c.tc : Thread Cert.ReferenceIdeal.nD Cert.ReferenceIdeal.τ).loc Cert.ReferenceIdeal.main_v87) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S4096 : Shape := ⟨1, ![4096]⟩
abbrev S4096x4096 : Shape := ⟨2, ![4096, 4096]⟩
abbrev S2048x4096 : Shape := ⟨2, ![2048, 4096]⟩
abbrev S2048 : Shape := ⟨1, ![2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S4096 : S_.BroadcastsInDim S4096 (![] : Fin 0 → Fin S4096.rank)
  reducesTo_S4096_S_d0 : S4096.ReducesTo [0] S_
  bcast_S_S4096x4096 : S_.BroadcastsInDim S4096x4096 (![] : Fin 0 → Fin S4096x4096.rank)
  reducesTo_S4096x4096_S_d0_1 : S4096x4096.ReducesTo [0, 1] S_
  bcast_S_S2048x4096 : S_.BroadcastsInDim S2048x4096 (![] : Fin 0 → Fin S2048x4096.rank)
  reducesTo_S2048x4096_S_d0_1 : S2048x4096.ReducesTo [0, 1] S_
  bcast_S_S2048 : S_.BroadcastsInDim S2048 (![] : Fin 0 → Fin S2048.rank)
  reducesTo_S2048_S_d0 : S2048.ReducesTo [0] S_

variable [Facts]

def fn_part7 {F : FTy → Type} [FloatOps F] (main_v118 : IVec S_ 1) (main_v119 : FVec F S4096x2048 .f32) : IVec S_ 1 :=
  let main_cst_46 : FVec F S_ .f32 := constant S_ .f32 0x7F800000#32
  let main_v120 : FVec F S4096x2048 .f32 := broadcastInDim S4096x2048 ![] bcast_S_S4096x2048 main_cst_46
  let main_v121 : IVec S4096x2048 1 := cmpf .olt main_v119 main_v120
  let main_c_47 : IVec S_ 1 := constantI S_ 1 1#1
  let main_v122 : IVec S_ 1 := (fun x v => Host.reduce IntOp.andi x v reducesTo_S4096x2048_S_d0_1 h_S_) main_v121 main_c_47
  let main_v123 : IVec S_ 1 := andi main_v118 main_v122
  main_v123

def fn_part6 {F : FTy → Type} [FloatOps F] (main_arg21 : FVec F S2048 .f32) (main_arg22 : FVec F S4096x2048 .f32) (main_arg23 : FVec F S4096x2048 .f32) (main_arg24 : FVec F S4096x2048 .f32) (main_v98 : IVec S_ 1) (main_v101 : IVec S2048x4096 1) (main_c_39 : IVec S_ 1) : IVec S_ 1 :=
  let main_v102 : IVec S_ 1 := (fun x v => Host.reduce IntOp.andi x v reducesTo_S2048x4096_S_d0_1 h_S_) main_v101 main_c_39
  let main_v103 : IVec S_ 1 := andi main_v98 main_v102
  let main_v104 : FVec F S2048 .f32 := Host.absf main_arg21
  let main_cst_40 : FVec F S_ .f32 := constant S_ .f32 0x7F800000#32
  let main_v105 : FVec F S2048 .f32 := broadcastInDim S2048 ![] bcast_S_S2048 main_cst_40
  let main_v106 : IVec S2048 1 := cmpf .olt main_v104 main_v105
  let main_c_41 : IVec S_ 1 := constantI S_ 1 1#1
  let main_v107 : IVec S_ 1 := (fun x v => Host.reduce IntOp.andi x v reducesTo_S2048_S_d0 h_S_) main_v106 main_c_41
  let main_v108 : IVec S_ 1 := andi main_v103 main_v107
  let main_v109 : FVec F S4096x2048 .f32 := Host.absf main_arg22
  let main_cst_42 : FVec F S_ .f32 := constant S_ .f32 0x7F800000#32
  let main_v110 : FVec F S4096x2048 .f32 := broadcastInDim S4096x2048 ![] bcast_S_S4096x2048 main_cst_42
  let main_v111 : IVec S4096x2048 1 := cmpf .olt main_v109 main_v110
  let main_c_43 : IVec S_ 1 := constantI S_ 1 1#1
  let main_v112 : IVec S_ 1 := (fun x v => Host.reduce IntOp.andi x v reducesTo_S4096x2048_S_d0_1 h_S_) main_v111 main_c_43
  let main_v113 : IVec S_ 1 := andi main_v108 main_v112
  let main_v114 : FVec F S4096x2048 .f32 := Host.absf main_arg23
  let main_cst_44 : FVec F S_ .f32 := constant S_ .f32 0x7F800000#32
  let main_v115 : FVec F S4096x2048 .f32 := broadcastInDim S4096x2048 ![] bcast_S_S4096x2048 main_cst_44
  let main_v116 : IVec S4096x2048 1 := cmpf .olt main_v114 main_v115
  let main_c_45 : IVec S_ 1 := constantI S_ 1 1#1
  let main_v117 : IVec S_ 1 := (fun x v => Host.reduce IntOp.andi x v reducesTo_S4096x2048_S_d0_1 h_S_) main_v116 main_c_45
  let main_v118 : IVec S_ 1 := andi main_v113 main_v117
  let main_v119 : FVec F S4096x2048 .f32 := Host.absf main_arg24
  fn_part7 (F := F) main_v118 main_v119

def fn_part5 {F : FTy → Type} [FloatOps F] (main_arg18 : FVec F S4096x4096 .f32) (main_arg19 : FVec F S4096x4096 .f32) (main_arg20 : FVec F S2048x4096 .f32) (main_arg21 : FVec F S2048 .f32) (main_arg22 : FVec F S4096x2048 .f32) (main_arg23 : FVec F S4096x2048 .f32) (main_arg24 : FVec F S4096x2048 .f32) (main_v83 : IVec S_ 1) (main_v84 : FVec F S4096x4096 .f32) (main_cst_32 : FVec F S_ .f32) : IVec S_ 1 :=
  let main_v85 : FVec F S4096x4096 .f32 := broadcastInDim S4096x4096 ![] bcast_S_S4096x4096 main_cst_32
  let main_v86 : IVec S4096x4096 1 := cmpf .olt main_v84 main_v85
  let main_c_33 : IVec S_ 1 := constantI S_ 1 1#1
  let main_v87 : IVec S_ 1 := (fun x v => Host.reduce IntOp.andi x v reducesTo_S4096x4096_S_d0_1 h_S_) main_v86 main_c_33
  let main_v88 : IVec S_ 1 := andi main_v83 main_v87
  let main_v89 : FVec F S4096x4096 .f32 := Host.absf main_arg18
  let main_cst_34 : FVec F S_ .f32 := constant S_ .f32 0x7F800000#32
  let main_v90 : FVec F S4096x4096 .f32 := broadcastInDim S4096x4096 ![] bcast_S_S4096x4096 main_cst_34
  let main_v91 : IVec S4096x4096 1 := cmpf .olt main_v89 main_v90
  let main_c_35 : IVec S_ 1 := constantI S_ 1 1#1
  let main_v92 : IVec S_ 1 := (fun x v => Host.reduce IntOp.andi x v reducesTo_S4096x4096_S_d0_1 h_S_) main_v91 main_c_35
  let main_v93 : IVec S_ 1 := andi main_v88 main_v92
  let main_v94 : FVec F S4096x4096 .f32 := Host.absf main_arg19
  let main_cst_36 : FVec F S_ .f32 := constant S_ .f32 0x7F800000#32
  let main_v95 : FVec F S4096x4096 .f32 := broadcastInDim S4096x4096 ![] bcast_S_S4096x4096 main_cst_36
  let main_v96 : IVec S4096x4096 1 := cmpf .olt main_v94 main_v95
  let main_c_37 : IVec S_ 1 := constantI S_ 1 1#1
  let main_v97 : IVec S_ 1 := (fun x v => Host.reduce IntOp.andi x v reducesTo_S4096x4096_S_d0_1 h_S_) main_v96 main_c_37
  let main_v98 : IVec S_ 1 := andi main_v93 main_v97
  let main_v99 : FVec F S2048x4096 .f32 := Host.absf main_arg20
  let main_cst_38 : FVec F S_ .f32 := constant S_ .f32 0x7F800000#32
  let main_v100 : FVec F S2048x4096 .f32 := broadcastInDim S2048x4096 ![] bcast_S_S2048x4096 main_cst_38
  let main_v101 : IVec S2048x4096 1 := cmpf .olt main_v99 main_v100
  let main_c_39 : IVec S_ 1 := constantI S_ 1 1#1
  fn_part6 (F := F) main_arg21 main_arg22 main_arg23 main_arg24 main_v98 main_v101 main_c_39

def fn_part4 {F : FTy → Type} [FloatOps F] (main_arg14 : FVec F S4096 .f32) (main_arg15 : FVec F S4096x4096 .f32) (main_arg16 : FVec F S4096 .f32) (main_arg17 : FVec F S4096x4096 .f32) (main_arg18 : FVec F S4096x4096 .f32) (main_arg19 : FVec F S4096x4096 .f32) (main_arg20 : FVec F S2048x4096 .f32) (main_arg21 : FVec F S2048 .f32) (main_arg22 : FVec F S4096x2048 .f32) (main_arg23 : FVec F S4096x2048 .f32) (main_arg24 : FVec F S4096x2048 .f32) (main_v63 : IVec S_ 1) (main_v67 : IVec S_ 1) : IVec S_ 1 :=
  let main_v68 : IVec S_ 1 := andi main_v63 main_v67
  let main_v69 : FVec F S4096 .f32 := Host.absf main_arg14
  let main_cst_26 : FVec F S_ .f32 := constant S_ .f32 0x7F800000#32
  let main_v70 : FVec F S4096 .f32 := broadcastInDim S4096 ![] bcast_S_S4096 main_cst_26
  let main_v71 : IVec S4096 1 := cmpf .olt main_v69 main_v70
  let main_c_27 : IVec S_ 1 := constantI S_ 1 1#1
  let main_v72 : IVec S_ 1 := (fun x v => Host.reduce IntOp.andi x v reducesTo_S4096_S_d0 h_S_) main_v71 main_c_27
  let main_v73 : IVec S_ 1 := andi main_v68 main_v72
  let main_v74 : FVec F S4096x4096 .f32 := Host.absf main_arg15
  let main_cst_28 : FVec F S_ .f32 := constant S_ .f32 0x7F800000#32
  let main_v75 : FVec F S4096x4096 .f32 := broadcastInDim S4096x4096 ![] bcast_S_S4096x4096 main_cst_28
  let main_v76 : IVec S4096x4096 1 := cmpf .olt main_v74 main_v75
  let main_c_29 : IVec S_ 1 := constantI S_ 1 1#1
  let main_v77 : IVec S_ 1 := (fun x v => Host.reduce IntOp.andi x v reducesTo_S4096x4096_S_d0_1 h_S_) main_v76 main_c_29
  let main_v78 : IVec S_ 1 := andi main_v73 main_v77
  let main_v79 : FVec F S4096 .f32 := Host.absf main_arg16
  let main_cst_30 : FVec F S_ .f32 := constant S_ .f32 0x7F800000#32
  let main_v80 : FVec F S4096 .f32 := broadcastInDim S4096 ![] bcast_S_S4096 main_cst_30
  let main_v81 : IVec S4096 1 := cmpf .olt main_v79 main_v80
  let main_c_31 : IVec S_ 1 := constantI S_ 1 1#1
  let main_v82 : IVec S_ 1 := (fun x v => Host.reduce IntOp.andi x v reducesTo_S4096_S_d0 h_S_) main_v81 main_c_31
  let main_v83 : IVec S_ 1 := andi main_v78 main_v82
  let main_v84 : FVec F S4096x4096 .f32 := Host.absf main_arg17
  let main_cst_32 : FVec F S_ .f32 := constant S_ .f32 0x7F800000#32
  fn_part5 (F := F) main_arg18 main_arg19 main_arg20 main_arg21 main_arg22 main_arg23 main_arg24 main_v83 main_v84 main_cst_32

def fn_part3 {F : FTy → Type} [FloatOps F] (main_arg11 : FVec F S4096x4096 .f32) (main_arg12 : FVec F S4096x4096 .f32) (main_arg13 : FVec F S4096x4096 .f32) (main_arg14 : FVec F S4096 .f32) (main_arg15 : FVec F S4096x4096 .f32) (main_arg16 : FVec F S4096 .f32) (main_arg17 : FVec F S4096x4096 .f32) (main_arg18 : FVec F S4096x4096 .f32) (main_arg19 : FVec F S4096x4096 .f32) (main_arg20 : FVec F S2048x4096 .f32) (main_arg21 : FVec F S2048 .f32) (main_arg22 : FVec F S4096x2048 .f32) (main_arg23 : FVec F S4096x2048 .f32) (main_arg24 : FVec F S4096x2048 .f32) (main_v48 : IVec S_ 1) (main_v49 : FVec F S4096x4096 .f32) (main_v50 : FVec F S4096x4096 .f32) : IVec S_ 1 :=
  let main_v51 : IVec S4096x4096 1 := cmpf .olt main_v49 main_v50
  let main_c_19 : IVec S_ 1 := constantI S_ 1 1#1
  let main_v52 : IVec S_ 1 := (fun x v => Host.reduce IntOp.andi x v reducesTo_S4096x4096_S_d0_1 h_S_) main_v51 main_c_19
  let main_v53 : IVec S_ 1 := andi main_v48 main_v52
  let main_v54 : FVec F S4096x4096 .f32 := Host.absf main_arg11
  let main_cst_20 : FVec F S_ .f32 := constant S_ .f32 0x7F800000#32
  let main_v55 : FVec F S4096x4096 .f32 := broadcastInDim S4096x4096 ![] bcast_S_S4096x4096 main_cst_20
  let main_v56 : IVec S4096x4096 1 := cmpf .olt main_v54 main_v55
  let main_c_21 : IVec S_ 1 := constantI S_ 1 1#1
  let main_v57 : IVec S_ 1 := (fun x v => Host.reduce IntOp.andi x v reducesTo_S4096x4096_S_d0_1 h_S_) main_v56 main_c_21
  let main_v58 : IVec S_ 1 := andi main_v53 main_v57
  let main_v59 : FVec F S4096x4096 .f32 := Host.absf main_arg12
  let main_cst_22 : FVec F S_ .f32 := constant S_ .f32 0x7F800000#32
  let main_v60 : FVec F S4096x4096 .f32 := broadcastInDim S4096x4096 ![] bcast_S_S4096x4096 main_cst_22
  let main_v61 : IVec S4096x4096 1 := cmpf .olt main_v59 main_v60
  let main_c_23 : IVec S_ 1 := constantI S_ 1 1#1
  let main_v62 : IVec S_ 1 := (fun x v => Host.reduce IntOp.andi x v reducesTo_S4096x4096_S_d0_1 h_S_) main_v61 main_c_23
  let main_v63 : IVec S_ 1 := andi main_v58 main_v62
  let main_v64 : FVec F S4096x4096 .f32 := Host.absf main_arg13
  let main_cst_24 : FVec F S_ .f32 := constant S_ .f32 0x7F800000#32
  let main_v65 : FVec F S4096x4096 .f32 := broadcastInDim S4096x4096 ![] bcast_S_S4096x4096 main_cst_24
  let main_v66 : IVec S4096x4096 1 := cmpf .olt main_v64 main_v65
  let main_c_25 : IVec S_ 1 := constantI S_ 1 1#1
  let main_v67 : IVec S_ 1 := (fun x v => Host.reduce IntOp.andi x v reducesTo_S4096x4096_S_d0_1 h_S_) main_v66 main_c_25
  fn_part4 (F := F) main_arg14 main_arg15 main_arg16 main_arg17 main_arg18 main_arg19 main_arg20 main_arg21 main_arg22 main_arg23 main_arg24 main_v63 main_v67

def fn_part2 {F : FTy → Type} [FloatOps F] (main_arg7 : FVec F S4096 .f32) (main_arg8 : FVec F S4096x4096 .f32) (main_arg9 : FVec F S4096 .f32) (main_arg10 : FVec F S4096x4096 .f32) (main_arg11 : FVec F S4096x4096 .f32) (main_arg12 : FVec F S4096x4096 .f32) (main_arg13 : FVec F S4096x4096 .f32) (main_arg14 : FVec F S4096 .f32) (main_arg15 : FVec F S4096x4096 .f32) (main_arg16 : FVec F S4096 .f32) (main_arg17 : FVec F S4096x4096 .f32) (main_arg18 : FVec F S4096x4096 .f32) (main_arg19 : FVec F S4096x4096 .f32) (main_arg20 : FVec F S2048x4096 .f32) (main_arg21 : FVec F S2048 .f32) (main_arg22 : FVec F S4096x2048 .f32) (main_arg23 : FVec F S4096x2048 .f32) (main_arg24 : FVec F S4096x2048 .f32) (main_v33 : IVec S_ 1) : IVec S_ 1 :=
  let main_v34 : FVec F S4096 .f32 := Host.absf main_arg7
  let main_cst_12 : FVec F S_ .f32 := constant S_ .f32 0x7F800000#32
  let main_v35 : FVec F S4096 .f32 := broadcastInDim S4096 ![] bcast_S_S4096 main_cst_12
  let main_v36 : IVec S4096 1 := cmpf .olt main_v34 main_v35
  let main_c_13 : IVec S_ 1 := constantI S_ 1 1#1
  let main_v37 : IVec S_ 1 := (fun x v => Host.reduce IntOp.andi x v reducesTo_S4096_S_d0 h_S_) main_v36 main_c_13
  let main_v38 : IVec S_ 1 := andi main_v33 main_v37
  let main_v39 : FVec F S4096x4096 .f32 := Host.absf main_arg8
  let main_cst_14 : FVec F S_ .f32 := constant S_ .f32 0x7F800000#32
  let main_v40 : FVec F S4096x4096 .f32 := broadcastInDim S4096x4096 ![] bcast_S_S4096x4096 main_cst_14
  let main_v41 : IVec S4096x4096 1 := cmpf .olt main_v39 main_v40
  let main_c_15 : IVec S_ 1 := constantI S_ 1 1#1
  let main_v42 : IVec S_ 1 := (fun x v => Host.reduce IntOp.andi x v reducesTo_S4096x4096_S_d0_1 h_S_) main_v41 main_c_15
  let main_v43 : IVec S_ 1 := andi main_v38 main_v42
  let main_v44 : FVec F S4096 .f32 := Host.absf main_arg9
  let main_cst_16 : FVec F S_ .f32 := constant S_ .f32 0x7F800000#32
  let main_v45 : FVec F S4096 .f32 := broadcastInDim S4096 ![] bcast_S_S4096 main_cst_16
  let main_v46 : IVec S4096 1 := cmpf .olt main_v44 main_v45
  let main_c_17 : IVec S_ 1 := constantI S_ 1 1#1
  let main_v47 : IVec S_ 1 := (fun x v => Host.reduce IntOp.andi x v reducesTo_S4096_S_d0 h_S_) main_v46 main_c_17
  let main_v48 : IVec S_ 1 := andi main_v43 main_v47
  let main_v49 : FVec F S4096x4096 .f32 := Host.absf main_arg10
  let main_cst_18 : FVec F S_ .f32 := constant S_ .f32 0x7F800000#32
  let main_v50 : FVec F S4096x4096 .f32 := broadcastInDim S4096x4096 ![] bcast_S_S4096x4096 main_cst_18
  fn_part3 (F := F) main_arg11 main_arg12 main_arg13 main_arg14 main_arg15 main_arg16 main_arg17 main_arg18 main_arg19 main_arg20 main_arg21 main_arg22 main_arg23 main_arg24 main_v48 main_v49 main_v50

def fn_part1 {F : FTy → Type} [FloatOps F] (main_arg4 : FVec F S4096x4096 .f32) (main_arg5 : FVec F S4096x4096 .f32) (main_arg6 : FVec F S4096x4096 .f32) (main_arg7 : FVec F S4096 .f32) (main_arg8 : FVec F S4096x4096 .f32) (main_arg9 : FVec F S4096 .f32) (main_arg10 : FVec F S4096x4096 .f32) (main_arg11 : FVec F S4096x4096 .f32) (main_arg12 : FVec F S4096x4096 .f32) (main_arg13 : FVec F S4096x4096 .f32) (main_arg14 : FVec F S4096 .f32) (main_arg15 : FVec F S4096x4096 .f32) (main_arg16 : FVec F S4096 .f32) (main_arg17 : FVec F S4096x4096 .f32) (main_arg18 : FVec F S4096x4096 .f32) (main_arg19 : FVec F S4096x4096 .f32) (main_arg20 : FVec F S2048x4096 .f32) (main_arg21 : FVec F S2048 .f32) (main_arg22 : FVec F S4096x2048 .f32) (main_arg23 : FVec F S4096x2048 .f32) (main_arg24 : FVec F S4096x2048 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S4096x4096 .f32 := Host.absf main_arg4
  let main_cst_6 : FVec F S_ .f32 := constant S_ .f32 0x7F800000#32
  let main_v20 : FVec F S4096x4096 .f32 := broadcastInDim S4096x4096 ![] bcast_S_S4096x4096 main_cst_6
  let main_v21 : IVec S4096x4096 1 := cmpf .olt main_v19 main_v20
  let main_c_7 : IVec S_ 1 := constantI S_ 1 1#1
  let main_v22 : IVec S_ 1 := (fun x v => Host.reduce IntOp.andi x v reducesTo_S4096x4096_S_d0_1 h_S_) main_v21 main_c_7
  let main_v23 : IVec S_ 1 := andi main_v18 main_v22
  let main_v24 : FVec F S4096x4096 .f32 := Host.absf main_arg5
  let main_cst_8 : FVec F S_ .f32 := constant S_ .f32 0x7F800000#32
  let main_v25 : FVec F S4096x4096 .f32 := broadcastInDim S4096x4096 ![] bcast_S_S4096x4096 main_cst_8
  let main_v26 : IVec S4096x4096 1 := cmpf .olt main_v24 main_v25
  let main_c_9 : IVec S_ 1 := constantI S_ 1 1#1
  let main_v27 : IVec S_ 1 := (fun x v => Host.reduce IntOp.andi x v reducesTo_S4096x4096_S_d0_1 h_S_) main_v26 main_c_9
  let main_v28 : IVec S_ 1 := andi main_v23 main_v27
  let main_v29 : FVec F S4096x4096 .f32 := Host.absf main_arg6
  let main_cst_10 : FVec F S_ .f32 := constant S_ .f32 0x7F800000#32
  let main_v30 : FVec F S4096x4096 .f32 := broadcastInDim S4096x4096 ![] bcast_S_S4096x4096 main_cst_10
  let main_v31 : IVec S4096x4096 1 := cmpf .olt main_v29 main_v30
  let main_c_11 : IVec S_ 1 := constantI S_ 1 1#1
  let main_v32 : IVec S_ 1 := (fun x v => Host.reduce IntOp.andi x v reducesTo_S4096x4096_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_v33

def fn {F : FTy → Type} [FloatOps F] (main_arg0 : FVec F S4096x2048 .f32) (main_arg1 : FVec F S4096x2048 .f32) (main_arg2 : FVec F S4096 .f32) (main_arg3 : FVec F S4096x4096 .f32) (main_arg4 : FVec F S4096x4096 .f32) (main_arg5 : FVec F S4096x4096 .f32) (main_arg6 : FVec F S4096x4096 .f32) (main_arg7 : FVec F S4096 .f32) (main_arg8 : FVec F S4096x4096 .f32) (main_arg9 : FVec F S4096 .f32) (main_arg10 : FVec F S4096x4096 .f32) (main_arg11 : FVec F S4096x4096 .f32) (main_arg12 : FVec F S4096x4096 .f32) (main_arg13 : FVec F S4096x4096 .f32) (main_arg14 : FVec F S4096 .f32) (main_arg15 : FVec F S4096x4096 .f32) (main_arg16 : FVec F S4096 .f32) (main_arg17 : FVec F S4096x4096 .f32) (main_arg18 : FVec F S4096x4096 .f32) (main_arg19 : FVec F S4096x4096 .f32) (main_arg20 : FVec F S2048x4096 .f32) (main_arg21 : FVec F S2048 .f32) (main_arg22 : FVec F S4096x2048 .f32) (main_arg23 : FVec F S4096x2048 .f32) (main_arg24 : FVec F S4096x2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_v13 main_v16
-- ==== Kernel.lean ====
abbrev S4096x2048 : Shape := ⟨2, ![4096, 2048]⟩
abbrev S4096 : Shape := ⟨1, ![4096]⟩
abbrev S4096x4096 : Shape := ⟨2, ![4096, 4096]⟩
abbrev S2048x4096 : Shape := ⟨2, ![2048, 4096]⟩
abbrev S2048 : Shape := ⟨1, ![2048]⟩
abbrev S128x4096 : Shape := ⟨2, ![128, 4096]⟩
abbrev S1x2048 : Shape := ⟨2, ![1, 2048]⟩
abbrev S512x1024 : Shape := ⟨2, ![512, 1024]⟩
abbrev S1x512 : Shape := ⟨2, ![1, 512]⟩
abbrev S512x512 : Shape := ⟨2, ![512, 512]⟩

abbrev nBuf : Space → Nat
  | .hbm => 31
  | .vmem => 27
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096, .f32⟩
  | .hbm, ⟨8, _⟩ => ⟨S4096x4096, .f32⟩
  | .hbm, ⟨9, _⟩ => ⟨S4096, .f32⟩
  | .hbm, ⟨10, _⟩ => ⟨S4096x4096, .f32⟩
  | .hbm, ⟨11, _⟩ => ⟨S4096x4096, .f32⟩
  | .hbm, ⟨12, _⟩ => ⟨S4096x4096, .f32⟩
  | .hbm, ⟨13, _⟩ => ⟨S4096x4096, .f32⟩
  | .hbm, ⟨14, _⟩ => ⟨S4096, .f32⟩
  | .hbm, ⟨15, _⟩ => ⟨S4096x4096, .f32⟩
  | .hbm, ⟨16, _⟩ => ⟨S4096, .f32⟩
  | .hbm, ⟨17, _⟩ => ⟨S4096x4096, .f32⟩
  | .hbm, ⟨18, _⟩ => ⟨S4096x4096, .f32⟩
  | .hbm, ⟨19, _⟩ => ⟨S4096x4096, .f32⟩
  | .hbm, ⟨20, _⟩ => ⟨S2048x4096, .f32⟩
  | .hbm, ⟨21, _⟩ => ⟨S2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x4096, .bf16⟩
  | .hbm, ⟨26, _⟩ => ⟨S2048x4096, .bf16⟩
  | .hbm, ⟨27, _⟩ => ⟨S1x2048, .f32⟩
  | .hbm, ⟨28, _⟩ => ⟨S4096x2048, .f32⟩
  | .hbm, ⟨29, _⟩ => ⟨S4096x2048, .f32⟩
  | .hbm, ⟨30, _⟩ => ⟨S4096x2048, .f32⟩
  | .local _ .vmem, ⟨0, _⟩ => ⟨S128x4096, .f32⟩
  | .local _ .vmem, ⟨1, _⟩ => ⟨S128x4096, .f32⟩
  | .local _ .vmem, ⟨2, _⟩ => ⟨S128x4096, .f32⟩
  | .local _ .vmem, ⟨3, _⟩ => ⟨S128x4096, .f32⟩
  | .local _ .vmem, ⟨4, _⟩ => ⟨S128x4096, .f32⟩
  | .local _ .vmem, ⟨5, _⟩ => ⟨S128x4096, .f32⟩
  | .local _ .vmem, ⟨6, _⟩ => ⟨S128x4096, .bf16⟩
  | .local _ .vmem, ⟨7, _⟩ => ⟨S128x4096, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S1x512, .f32⟩
  | .local _ .vmem, ⟨13, _⟩ => ⟨S1x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x512, .f32⟩
  | .local _ .vmem, ⟨19, _⟩ => ⟨S512x512, .f32⟩
  | .local _ .vmem, ⟨20, _⟩ => ⟨S512x512, .f32⟩
  | .local _ .vmem, ⟨21, _⟩ => ⟨S512x512, .f32⟩
  | .local _ .vmem, ⟨22, _⟩ => ⟨S512x512, .f32⟩
  | .local _ .vmem, ⟨23, _⟩ => ⟨S512x512, .f32⟩
  | .local _ .vmem, ⟨24, _⟩ => ⟨S512x512, .f32⟩
  | .local _ .vmem, ⟨25, _⟩ => ⟨S512x512, .f32⟩
  | .local _ .vmem, ⟨26, _⟩ => ⟨S512x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3_0 : Ref sig .tc := ⟨.hbm, 28, rfl⟩
abbrev main_v3_1 : Ref sig .tc := ⟨.hbm, 29, rfl⟩
abbrev main_v3_2 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc1_stg6_1 : Ref sig .tc := ⟨.vmem, 21, rfl⟩
abbrev cc1_stg7_0 : Ref sig .tc := ⟨.vmem, 22, rfl⟩
abbrev cc1_stg7_1 : Ref sig .tc := ⟨.vmem, 23, rfl⟩
abbrev cc1_stg8_0 : Ref sig .tc := ⟨.vmem, 24, rfl⟩
abbrev cc1_stg8_1 : Ref sig .tc := ⟨.vmem, 25, rfl⟩
abbrev cc1_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem5_1 : DmaSem sig := 19
abbrev cc1_sem6_0 : DmaSem sig := 20
abbrev cc1_sem6_1 : DmaSem sig := 21
abbrev cc1_sem7_0 : DmaSem sig := 22
abbrev cc1_sem7_1 : DmaSem sig := 23
abbrev cc1_sem8_0 : DmaSem sig := 24
abbrev cc1_sem8_1 : DmaSem sig := 25

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨3, ![8, 4, 4], ![false, false, false]⟩

def k1_cond2 (i : grid1.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_6 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_7 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_8 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S512x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev stage1_4 : Fin 2 → Memref sig .tc .vmem S512x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

abbrev stage1_5 : Fin 2 → Memref sig .tc .vmem S512x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, false]

abbrev stage1_6 : Fin 2 → Memref sig .tc .vmem S512x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true, false]

abbrev stage1_7 : Fin 2 → Memref sig .tc .vmem S512x512 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true, false]

abbrev stage1_8 : Fin 2 → Memref sig .tc .vmem S512x512 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true, false]

class Facts₀ : Prop where
  inb_S128x4096_S128x4096_0_0 : ∀ a, (![0, 0] : Fin 2 → Nat) a + S128x4096.size a ≤ S128x4096.size a
  h_S128x4096 : 0 < S128x4096.numel
  natLt_1_32 : 1 < 32
  bitsLt_bf16_f32 : FTy.bits .bf16 < FTy.bits .f32
  packedbf16_S128x4096_S128x4096_0_0 : (Rect.unit (s := S128x4096) ![0, 0] S128x4096.size inb_S128x4096_S128x4096_0_0).PackedRows (EltTy.packing .bf16)
  shapeCasts_S2048_S1x2048 : S2048.ShapeCasts S1x2048
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  dot_S512x1024_S512x1024_S512x512_1_1_0_0_n_n_wf : DotDims.WF S512x1024 S512x1024 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x4096.size a ≤ S4096x4096.size a
  hwx0_0 : ∀ i : grid0.Coords, EltTy.bits .f32 = 32 ∨ (Rect.block (s := S4096x4096) S128x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x4096.size a ≤ S4096x4096.size a
  hwx0_1 : ∀ i : grid0.Coords, EltTy.bits .f32 = 32 ∨ (Rect.block (s := S4096x4096) S128x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x4096.size a ≤ S4096x4096.size a
  hwx0_2 : ∀ i : grid0.Coords, EltTy.bits .f32 = 32 ∨ (Rect.block (s := S4096x4096) S128x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x4096.size a ≤ S4096x4096.size a
  hwx0_3 : ∀ i : grid0.Coords, EltTy.bits .bf16 = 32 ∨ (Rect.block (s := S4096x4096) S128x4096.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S4096x4096.size a
  hwx1_0 : ∀ i : grid1.Coords, EltTy.bits .bf16 = 32 ∨ (Rect.block (s := S4096x4096) S512x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x1024.size a ≤ S2048x4096.size a
  hwx1_1 : ∀ i : grid1.Coords, EltTy.bits .bf16 = 32 ∨ (Rect.block (s := S2048x4096) S512x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x2048.size a
  hwx1_2 : ∀ i : grid1.Coords, EltTy.bits .f32 = 32 ∨ (Rect.block (s := S1x2048) S1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x512.size a ≤ S4096x2048.size a
  hwx1_3 : ∀ i : grid1.Coords, EltTy.bits .f32 = 32 ∨ (Rect.block (s := S4096x2048) S512x512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x512.size a ≤ S4096x2048.size a
  hwx1_4 : ∀ i : grid1.Coords, EltTy.bits .f32 = 32 ∨ (Rect.block (s := S4096x2048) S512x512.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x512.size a ≤ S4096x2048.size a
  hwx1_5 : ∀ i : grid1.Coords, EltTy.bits .f32 = 32 ∨ (Rect.block (s := S4096x2048) S512x512.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S512x512.size a ≤ S4096x2048.size a
  hwx1_6 : ∀ i : grid1.Coords, EltTy.bits .f32 = 32 ∨ (Rect.block (s := S4096x2048) S512x512.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S512x512.size a ≤ S4096x2048.size a
  hwx1_7 : ∀ i : grid1.Coords, EltTy.bits .f32 = 32 ∨ (Rect.block (s := S4096x2048) S512x512.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S512x512.size a ≤ S4096x2048.size a
  hwx1_8 : ∀ i : grid1.Coords, EltTy.bits .f32 = 32 ∨ (Rect.block (s := S4096x2048) S512x512.size (cc1_transform_8 i) (hinb1_8 i)).WholeWords (EltTy.packing .f32)

variable [Facts₀]

def dot_S512x1024_S512x1024_S512x512_1_1_0_0_n_n : DotDims S512x1024 S512x1024 S512x512 where
  lhsContracting := [1]
  rhsContracting := [1]
  lhsNonContracting := [0]
  rhsNonContracting := [0]
  lhsBatch := []
  rhsBatch := []
  wf := dot_S512x1024_S512x1024_S512x512_1_1_0_0_n_n_wf

abbrev win0_0 : Pipeline.Window sig grid0 :=
  Pipeline.Window.ofSpec (Memref.whole main_arg17) S128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg18) S128x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg19) S128x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S128x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v0) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S512x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg22) S512x512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg23) S512x512.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_arg24) S512x512.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v3_0) S512x512.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v3_1) S512x512.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v3_2) S512x512.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev idle1 : Fin 9 → grid1.Coords → Bool := fun | 0 => fun _ => false | 1 => fun _ => false | 2 => fun _ => false | 3 => fun _ => false | 4 => fun _ => false | 5 => fun _ => false | 6 => fun i => !(k1_cond2 i == 1#1) | 7 => fun i => !(k1_cond2 i == 1#1) | 8 => fun i => !(k1_cond2 i == 1#1) | ⟨_ + 9, h⟩ => absurd h (Nat.not_lt.2 (Nat.le_add_left _ _))

class Facts : Prop extends Facts₀ where

variable [Facts]
-- ==== ReferenceIdeal.lean ====
abbrev S4096x2048 : Shape := ⟨2, ![4096, 2048]⟩
abbrev S4096 : Shape := ⟨1, ![4096]⟩
abbrev S4096x4096 : Shape := ⟨2, ![4096, 4096]⟩
abbrev S2048x4096 : Shape := ⟨2, ![2048, 4096]⟩
abbrev S2048 : Shape := ⟨1, ![2048]⟩
abbrev S_ : Shape := ⟨0, ![]⟩
abbrev S1x4096 : Shape := ⟨2, ![1, 4096]⟩
abbrev S1x2048 : Shape := ⟨2, ![1, 2048]⟩

abbrev nBuf : Space → Nat
  | .hbm => 133
  | .vmem => 0
  | .smem => 0
  | _ => 0

abbrev hbmTy0_0 (i : Nat) : BufTy := match i % 128 with
  | 0 => ⟨S4096x2048, .f32⟩
  | 1 => ⟨S4096x2048, .f32⟩
  | 2 => ⟨S4096, .f32⟩
  | 3 => ⟨S4096x4096, .f32⟩
  | 4 => ⟨S4096x4096, .f32⟩
  | 5 => ⟨S4096x4096, .f32⟩
  | 6 => ⟨S4096x4096, .f32⟩
  | 7 => ⟨S4096, .f32⟩
  | 8 => ⟨S4096x4096, .f32⟩
  | 9 => ⟨S4096, .f32⟩
  | 10 => ⟨S4096x4096, .f32⟩
  | 11 => ⟨S4096x4096, .f32⟩
  | 12 => ⟨S4096x4096, .f32⟩
  | 13 => ⟨S4096x4096, .f32⟩
  | 14 => ⟨S4096, .f32⟩
  | 15 => ⟨S4096x4096, .f32⟩
  | 16 => ⟨S4096, .f32⟩
  | 17 => ⟨S4096x4096, .f32⟩
  | 18 => ⟨S4096x4096, .f32⟩
  | 19 => ⟨S4096x4096, .f32⟩
  | 20 => ⟨S2048x4096, .f32⟩
  | 21 => ⟨S2048, .f32⟩
  | 22 => ⟨S4096x2048, .f32⟩
  | 23 => ⟨S4096x2048, .f32⟩
  | 24 => ⟨S4096x2048, .f32⟩
  | 25 => ⟨S_, .f32⟩
  | 26 => ⟨S4096x4096, .f32⟩
  | 27 => ⟨S4096x4096, .f32⟩
  | 28 => ⟨S_, .f32⟩
  | 29 => ⟨S4096x4096, .f32⟩
  | 30 => ⟨S4096x4096, .f32⟩
  | 31 => ⟨S4096x4096, .f32⟩
  | 32 => ⟨S4096x4096, .f32⟩
  | 33 => ⟨S_, .f32⟩
  | 34 => ⟨S4096x4096, .f32⟩
  | 35 => ⟨S4096x4096, .f32⟩
  | 36 => ⟨S2048x4096, .f32⟩
  | 37 => ⟨S4096x4096, .f32⟩
  | 38 => ⟨S1x4096, .f32⟩
  | 39 => ⟨S4096x4096, .f32⟩
  | 40 => ⟨S4096x4096, .f32⟩
  | 41 => ⟨S_, .f32⟩
  | 42 => ⟨S4096x4096, .f32⟩
  | 43 => ⟨S4096x4096, .f32⟩
  | 44 => ⟨S4096x4096, .f32⟩
  | 45 => ⟨S_, .f32⟩
  | 46 => ⟨S4096x4096, .f32⟩
  | 47 => ⟨S4096x4096, .i1⟩
  | 48 => ⟨S4096x4096, .f32⟩
  | 49 => ⟨S_, .f32⟩
  | 50 => ⟨S4096x4096, .f32⟩
  | 51 => ⟨S4096x4096, .f32⟩
  | 52 => ⟨S_, .f32⟩
  | 53 => ⟨S4096x4096, .f32⟩
  | 54 => ⟨S4096x4096, .f32⟩
  | 55 => ⟨S4096x4096, .f32⟩
  | 56 => ⟨S4096x4096, .f32⟩
  | 57 => ⟨S_, .f32⟩
  | 58 => ⟨S4096x4096, .f32⟩
  | 59 => ⟨S4096x4096, .f32⟩
  | 60 => ⟨S4096x4096, .f32⟩
  | 61 => ⟨S4096x4096, .f32⟩
  | 62 => ⟨S1x4096, .f32⟩
  | 63 => ⟨S4096x4096, .f32⟩
  | 64 => ⟨S4096x4096, .f32⟩
  | 65 => ⟨S4096x4096, .f32⟩
  | 66 => ⟨S4096x4096, .f32⟩
  | 67 => ⟨S4096x4096, .f32⟩
  | 68 => ⟨S1x4096, .f32⟩
  | 69 => ⟨S4096x4096, .f32⟩
  | 70 => ⟨S4096x4096, .f32⟩
  | 71 => ⟨S_, .f32⟩
  | 72 => ⟨S4096x4096, .f32⟩
  | 73 => ⟨S4096x4096, .f32⟩
  | 74 => ⟨S4096x4096, .f32⟩
  | 75 => ⟨S_, .f32⟩
  | 76 => ⟨S4096x4096, .f32⟩
  | 77 => ⟨S4096x4096, .i1⟩
  | 78 => ⟨S4096x4096, .f32⟩
  | 79 => ⟨S_, .f32⟩
  | 80 => ⟨S4096x4096, .f32⟩
  | 81 => ⟨S4096x4096, .f32⟩
  | 82 => ⟨S_, .f32⟩
  | 83 => ⟨S4096x4096, .f32⟩
  | 84 => ⟨S4096x4096, .f32⟩
  | 85 => ⟨S4096x4096, .f32⟩
  | 86 => ⟨S4096x4096, .f32⟩
  | 87 => ⟨S_, .f32⟩
  | 88 => ⟨S4096x4096, .f32⟩
  | 89 => ⟨S4096x4096, .f32⟩
  | 90 => ⟨S4096x4096, .f32⟩
  | 91 => ⟨S4096x4096, .f32⟩
  | 92 => ⟨S1x4096, .f32⟩
  | 93 => ⟨S4096x4096, .f32⟩
  | 94 => ⟨S4096x4096, .f32⟩
  | 95 => ⟨S4096x4096, .f32⟩
  | 96 => ⟨S4096x4096, .f32⟩
  | 97 => ⟨S4096x4096, .f32⟩
  | 98 => ⟨S1x4096, .f32⟩
  | 99 => ⟨S4096x4096, .f32⟩
  | 100 => ⟨S4096x4096, .f32⟩
  | 101 => ⟨S_, .f32⟩
  | 102 => ⟨S4096x4096, .f32⟩
  | 103 => ⟨S4096x4096, .f32⟩
  | 104 => ⟨S4096x4096, .f32⟩
  | 105 => ⟨S_, .f32⟩
  | 106 => ⟨S4096x4096, .f32⟩
  | 107 => ⟨S4096x4096, .i1⟩
  | 108 => ⟨S4096x4096, .f32⟩
  | 109 => ⟨S_, .f32⟩
  | 110 => ⟨S4096x2048, .f32⟩
  | 111 => ⟨S4096x2048, .f32⟩
  | 112 => ⟨S_, .f32⟩
  | 113 => ⟨S4096x2048, .f32⟩
  | 114 => ⟨S4096x2048, .f32⟩
  | 115 => ⟨S4096x2048, .f32⟩
  | 116 => ⟨S4096x2048, .f32⟩
  | 117 => ⟨S_, .f32⟩
  | 118 => ⟨S4096x2048, .f32⟩
  | 119 => ⟨S4096x2048, .f32⟩
  | 120 => ⟨S4096x2048, .f32⟩
  | 121 => ⟨S4096x2048, .f32⟩
  | 122 => ⟨S1x2048, .f32⟩
  | 123 => ⟨S4096x2048, .f32⟩
  | 124 => ⟨S4096x2048, .f32⟩
  | 125 => ⟨S_, .f32⟩
  | 126 => ⟨S4096x2048, .f32⟩
  | 127 => ⟨S4096x2048, .f32⟩
  | _ => ⟨S4096x2048, .f32⟩

abbrev hbmTy0_1 (i : Nat) : BufTy := match i % 128 with
  | 0 => ⟨S4096x2048, .f32⟩
  | 1 => ⟨S_, .f32⟩
  | 2 => ⟨S4096x2048, .f32⟩
  | 3 => ⟨S4096x2048, .i1⟩
  | 4 => ⟨S4096x2048, .f32⟩
  | _ => ⟨S4096x2048, .f32⟩

abbrev hbmTy (i : Nat) : BufTy := match i / 128 with
  | 0 => hbmTy0_0 i
  | 1 => hbmTy0_1 i
  | _ => ⟨S4096x2048, .f32⟩

abbrev bufTy : (tb : Table) → Fin (tcTables nBuf tb) → BufTy
  | .hbm, ⟨i, _⟩ => hbmTy i
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_cst : Ref sig .tc := ⟨.hbm, 25, rfl⟩
abbrev main_v0 : Ref sig .tc := ⟨.hbm, 26, rfl⟩
abbrev main_v1 : Ref sig .tc := ⟨.hbm, 27, rfl⟩
abbrev main_cst_0 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_cst_1 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_cst_2 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_cst_3 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_cst_4 : Ref sig .tc := ⟨.hbm, 49, rfl⟩
abbrev main_v19 : Ref sig .tc := ⟨.hbm, 50, rfl⟩
abbrev main_v20 : Ref sig .tc := ⟨.hbm, 51, rfl⟩
abbrev main_cst_5 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_cst_6 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_cst_7 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_cst_8 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_cst_9 : Ref sig .tc := ⟨.hbm, 79, rfl⟩
abbrev main_v44 : Ref sig .tc := ⟨.hbm, 80, rfl⟩
abbrev main_v45 : Ref sig .tc := ⟨.hbm, 81, rfl⟩
abbrev main_cst_10 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_cst_11 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_cst_12 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_cst_13 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_cst_14 : Ref sig .tc := ⟨.hbm, 109, rfl⟩
abbrev main_v69 : Ref sig .tc := ⟨.hbm, 110, rfl⟩
abbrev main_v70 : Ref sig .tc := ⟨.hbm, 111, rfl⟩
abbrev main_cst_15 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_cst_16 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_cst_17 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_cst_18 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  transposes_S4096x2048_S2048x4096_1_0 : S4096x2048.Transposes [1, 0] S2048x4096
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  transposes_S4096x4096_S4096x4096_1_0 : S4096x4096.Transposes [1, 0] S4096x4096
  bcast_S_S4096x2048 : S_.BroadcastsInDim S4096x2048 (![] : Fin 0 → Fin S4096x2048.rank)
  transposes_S2048x4096_S4096x2048_1_0 : S2048x4096.Transposes [1, 0] S4096x2048
  bcast_S2048_S1x2048_1 : S2048.BroadcastsInDim S1x2048 (![1] : Fin 1 → Fin S1x2048.rank)
  bcast_S1x2048_S4096x2048_0_1 : S1x2048.BroadcastsInDim S4096x2048 (![0, 1] : Fin 2 → Fin S4096x2048.rank)
  dot_S4096x2048_S2048x4096_S4096x4096_1_0_0_1_n_n_wf : DotDims.WF S4096x2048 S2048x4096 S4096x4096 [1] [0] [0] [1] [] []
  dot_S4096x4096_S4096x4096_S4096x4096_1_0_0_1_n_n_wf : DotDims.WF S4096x4096 S4096x4096 S4096x4096 [1] [0] [0] [1] [] []
  dot_S4096x4096_S4096x2048_S4096x2048_1_0_0_1_n_n_wf : DotDims.WF S4096x4096 S4096x2048 S4096x2048 [1] [0] [0] [1] [] []

variable [Facts₀]

def dot_S4096x2048_S2048x4096_S4096x4096_1_0_0_1_n_n : DotDims S4096x2048 S2048x4096 S4096x4096 where
  lhsContracting := [1]
  rhsContracting := [0]
  lhsNonContracting := [0]
  rhsNonContracting := [1]
  lhsBatch := []
  rhsBatch := []
  wf := dot_S4096x2048_S2048x4096_S4096x4096_1_0_0_1_n_n_wf
def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf
def dot_S4096x4096_S4096x2048_S4096x2048_1_0_0_1_n_n : DotDims S4096x4096 S4096x2048 S4096x2048 where
  lhsContracting := [1]
  rhsContracting := [0]
  lhsNonContracting := [0]
  rhsNonContracting := [1]
  lhsBatch := []
  rhsBatch := []
  wf := dot_S4096x4096_S4096x2048_S4096x2048_1_0_0_1_n_n_wf

class Facts : Prop extends Facts₀ where

variable [Facts]
-- ==== Proof.Spec.lean ====
/-
  The layer's arithmetic on the extended reals, with no program in sight.

  One time step of a leaky integrate-and-fire layer: the membrane value of a cell is
  `0.9 * u + 2 * i - s`, the cell fires when that value is positive, and the synaptic current
  decays by `0.85` and gains `0.15` times the affine image of the previous layer's spikes.
  The constants are kept as the 32-bit patterns both programs print, so the same word on
  both sides is never evaluated; only the zero word's value is ever used.

  `GU`, `GS`, `GI` are the three result arrays as functions of the argument arrays, index by
  index, over literal shapes. `chunk4` is the one algebraic law the comparison needs: a sum
  over 4096 terms accumulated in four consecutive runs of 1024, starting from zero, is the sum.
-/
import Idealize.ShloMosaic.PureOps.Ideal
import Idealize.ShloMosaic.PureOps.Ideal.Laws
import Idealize.ShloMosaic.Lib.ValueIdx

noncomputable section

open scoped BigOperators

namespace Cert.Lif

open Idealize.ShloMosaic Idealize.ShloMosaic.ValueIdx

/-! ## Pointwise -/

/-- The membrane value: `(0.9 * u + 2 * i) - s`, in the programs' order of operations. -/
def memb (u i s : EReal) : EReal :=
  (Ideal.ofBits .f32 0x3F666666#32 * u + Ideal.ofBits .f32 0x40000000#32 * i) - s

/-- A one-bit word as the extended real `0` or `1` (the word read unsigned). -/
def bit01 (b : BitVec 1) : EReal := ((b.toNat : ℝ) : EReal)

/-- Widening the bit to 32 bits without sign and reading the word signed gives the same `0` or `1`. -/
theorem bit01_signed (b : BitVec 1) : (((b.setWidth 32).toInt : ℝ) : EReal) = bit01 b := by
  have h : (b.setWidth 32).toInt = (b.toNat : ℤ) := by
    rcases BitVec.eq_zero_or_eq_one b with h | h <;> subst h <;> decide
  rw [h, bit01, Int.cast_natCast]

/-- The two conversions of a comparison bit the programs use are one function at the ideal instance:
    unsigned-to-float of the bit, and signed-to-float of the bit zero-extended to 32 bits. -/
theorem uitofp_eq_sitofp_extui (b : BitVec 1) :
    FloatOps.uitofp (F := Ideal) .f32 b = FloatOps.sitofp (F := Ideal) .f32 (b.setWidth 32) :=
  (bit01_signed b).symm

/-- The spike: `1` when the membrane value is positive, else `0`. -/
def spk (u i s : EReal) : EReal :=
  bit01 (Ideal.cmp .ogt (memb u i s) (Ideal.ofBits .f32 0x00000000#32))

/-- The synaptic current: `0.85 * i + 0.15 * lin`. -/
def cur (i lin : EReal) : EReal :=
  Ideal.ofBits .f32 0x3F59999A#32 * i + Ideal.ofBits .f32 0x3E19999A#32 * lin

/-! ## The three results, index by index -/

/-- The new membrane values of the layer. -/
def GU (U3 I3 S3 : (⟨2, ![4096, 2048]⟩ : Shape).Idx → EReal) : (⟨2, ![4096, 2048]⟩ : Shape).Idx → EReal :=
  fun j => memb (U3 j) (I3 j) (S3 j)

/-- The new spikes of the layer. -/
def GS (U3 I3 S3 : (⟨2, ![4096, 2048]⟩ : Shape).Idx → EReal) : (⟨2, ![4096, 2048]⟩ : Shape).Idx → EReal :=
  fun j => spk (U3 j) (I3 j) (S3 j)

/-- The affine image, at row `r` and column `j`, of the previous layer's spikes. -/
def lin (U2 I2 S2 : (⟨2, ![4096, 4096]⟩ : Shape).Idx → EReal) (W3 : (⟨2, ![2048, 4096]⟩ : Shape).Idx → EReal)
    (b3 : (⟨1, ![2048]⟩ : Shape).Idx → EReal) (r : Fin 4096) (j : Fin 2048) : EReal :=
  (∑ k : Fin 4096, spk (U2 (ix2 r k)) (I2 (ix2 r k)) (S2 (ix2 r k)) * W3 (ix2 j k)) + b3 (ix1 j)

/-- The new synaptic currents of the layer. -/
def GI (U2 I2 S2 : (⟨2, ![4096, 4096]⟩ : Shape).Idx → EReal) (W3 : (⟨2, ![2048, 4096]⟩ : Shape).Idx → EReal)
    (b3 : (⟨1, ![2048]⟩ : Shape).Idx → EReal) (I3 : (⟨2, ![4096, 2048]⟩ : Shape).Idx → EReal) :
    (⟨2, ![4096, 2048]⟩ : Shape).Idx → EReal :=
  fun i => cur (I3 i) (lin U2 I2 S2 W3 b3 ⟨(i 0).val, idx2_lt0 i⟩ ⟨(i 1).val, idx2_lt1 i⟩)

theorem GU_apply (U3 I3 S3 : (⟨2, ![4096, 2048]⟩ : Shape).Idx → EReal) (r : Fin 4096) (j : Fin 2048) :
    GU U3 I3 S3 (ix2 r j) = memb (U3 (ix2 r j)) (I3 (ix2 r j)) (S3 (ix2 r j)) := rfl

theorem GS_apply (U3 I3 S3 : (⟨2, ![4096, 2048]⟩ : Shape).Idx → EReal) (r : Fin 4096) (j : Fin 2048) :
    GS U3 I3 S3 (ix2 r j) = spk (U3 (ix2 r j)) (I3 (ix2 r j)) (S3 (ix2 r j)) := rfl

theorem GI_apply (U2 I2 S2 : (⟨2, ![4096, 4096]⟩ : Shape).Idx → EReal) (W3 : (⟨2, ![2048, 4096]⟩ : Shape).Idx → EReal)
    (b3 : (⟨1, ![2048]⟩ : Shape).Idx → EReal) (I3 : (⟨2, ![4096, 2048]⟩ : Shape).Idx → EReal) (r : Fin 4096) (j : Fin 2048) :
    GI U2 I2 S2 W3 b3 I3 (ix2 r j)
      = cur (I3 (ix2 r j))
          ((∑ k : Fin 4096, spk (U2 (ix2 r k)) (I2 (ix2 r k)) (S2 (ix2 r k)) * W3 (ix2 j k)) + b3 (ix1 j)) := rfl

/-! ## Four runs of 1024 make the sum over 4096 -/

/-- A sum of 4096 terms accumulated from zero in four consecutive runs of 1024 is the sum (the extended reals are
    an additive commutative monoid: no finiteness is needed). -/
theorem chunk4 (f : Fin 4096 → EReal) :
    ((((0 : EReal) + ∑ k : Fin 1024, f ⟨k.val, by have := k.isLt; omega⟩)
        + ∑ k : Fin 1024, f ⟨1024 + k.val, by have := k.isLt; omega⟩)
        + ∑ k : Fin 1024, f ⟨2048 + k.val, by have := k.isLt; omega⟩)
        + ∑ k : Fin 1024, f ⟨3072 + k.val, by have := k.isLt; omega⟩
      = ∑ k : Fin 4096, f k := by
  let g : ℕ → EReal := fun n => if h : n < 4096 then f ⟨n, h⟩ else 0
  have hg : ∀ (n : ℕ) (h : n < 4096), f ⟨n, h⟩ = g n := fun n h => by
    show f ⟨n, h⟩ = if h' : n < 4096 then f ⟨n, h'⟩ else 0
    rw [dif_pos h]
  have run : ∀ c : ℕ, ∀ hc : ∀ k : Fin 1024, c + k.val < 4096,
      ∑ k : Fin 1024, f ⟨c + k.val, hc k⟩ = ∑ k ∈ Finset.range 1024, g (c + k) := by
    intro c hc
    rw [← Fin.sum_univ_eq_sum_range (fun k => g (c + k)) 1024]
    exact Finset.sum_congr rfl fun k _ => hg _ _
  have h0 : ∑ k : Fin 1024, f ⟨k.val, by have := k.isLt; omega⟩ = ∑ k ∈ Finset.range 1024, g k := by
    rw [← Fin.sum_univ_eq_sum_range g 1024]
    exact Finset.sum_congr rfl fun k _ => hg _ _
  have hT : ∑ k : Fin 4096, f k = ∑ n ∈ Finset.range 4096, g n := by
    rw [← Fin.sum_univ_eq_sum_range g 4096]
    exact Finset.sum_congr rfl fun k _ => hg _ _
  have s3 : ∑ n ∈ Finset.range 4096, g n = ∑ n ∈ Finset.range 3072, g n + ∑ k ∈ Finset.range 1024, g (3072 + k) :=
    Finset.sum_range_add g 3072 1024
  have s2 : ∑ n ∈ Finset.range 3072, g n = ∑ n ∈ Finset.range 2048, g n + ∑ k ∈ Finset.range 1024, g (2048 + k) :=
    Finset.sum_range_add g 2048 1024
  have s1 : ∑ n ∈ Finset.range 2048, g n = ∑ n ∈ Finset.range 1024, g n + ∑ k ∈ Finset.range 1024, g (1024 + k) :=
    Finset.sum_range_add g 1024 1024
  rw [h0, run 1024, run 2048, run 3072, hT, s3, s2, s1, zero_add]

end Cert.Lif

end
-- ==== Proof.RefSpec.lean ====
/-
  The reference program's three results are the specification's functions of its argument arrays.

  The reference computes the membrane values and the spikes of the layer pointwise, and the currents
  through one product of the previous layer's spike array with the transposed weights over all 4096
  inputs, plus the bias broadcast along the rows. Read index by index these are `GU`, `GS` and `GI`.
-/
import proofs.«166087_j40707700031715_2_alg».proof.Proof.Gen.ReferenceIdeal.Read
import proofs.«166087_j40707700031715_2_alg».proof.Proof.Spec

noncomputable section

open scoped BigOperators

namespace Cert.Lif

open Idealize.ShloMosaic Idealize.ShloMosaic.ValueIdx Cert.ReferenceIdeal Cert.ReferenceIdeal.Gen Cert.ReferenceIdeal.Read

/-- The reference's new membrane values are `GU` of its arguments: three pointwise operations on the arrays. -/
theorem ref_membrane (x22 x23 x24 : (⟨S4096x2048, .f32⟩ : BufTy).Contents (Elt Ideal)) :
    val_main_v74 (F := Ideal) x22 x23 x24 = GU x22 x23 x24 := by
  funext i
  rw [val_main_v74_apply, val_main_v73_apply, val_main_v70_apply, val_main_v72_apply, val_main_v69_apply,
    val_main_v71_apply, val_main_cst_14_apply, val_main_cst_15_apply]
  simp only [Ideal.subf_def, Ideal.addf_def, Ideal.mulf_def, Ideal.ofBits_def]
  rfl

/-- The reference's new spikes are `GS` of its arguments: the comparison of the membrane value with zero, its bit
    read unsigned. -/
theorem ref_spike (x22 x23 x24 : (⟨S4096x2048, .f32⟩ : BufTy).Contents (Elt Ideal)) :
    val_main_v87 (F := Ideal) x22 x23 x24 = GS x22 x23 x24 := by
  funext i
  rw [val_main_v87_apply, val_main_v86_apply, val_main_v74_apply, val_main_v73_apply, val_main_v70_apply,
    val_main_v72_apply, val_main_v69_apply, val_main_v71_apply, val_main_cst_14_apply, val_main_cst_15_apply,
    val_main_v85_apply, val_main_cst_18_apply]
  simp only [Ideal.subf_def, Ideal.addf_def, Ideal.mulf_def, Ideal.ofBits_def, Ideal.cmpf_def]
  rfl

/-- The product's left operand is read at the result's row and the contraction position. -/
theorem lidx_eq (i : S4096x2048.Idx) (k : Fin 4096) :
    lidx_main_v78 i k = ix2 (⟨(i 0).val, idx2_lt0 i⟩ : Fin 4096) k :=
  funext fun a => Fin.ext (by match a with | ⟨0, _⟩ => rfl | ⟨1, _⟩ => rfl)

/-- The transposed weights, read where the product reads them, are the weights at the result's column and the
    contraction position. -/
theorem widx_eq (i : S4096x2048.Idx) (k : Fin 4096) :
    idx_main_v77 (ridx_main_v78 i k) = ix2 (⟨(i 1).val, idx2_lt1 i⟩ : Fin 2048) k :=
  funext fun a => Fin.ext (by match a with | ⟨0, _⟩ => rfl | ⟨1, _⟩ => rfl)

/-- The bias, broadcast to a row and then down the rows, is read at the result's column. -/
theorem bidx_eq (i : S4096x2048.Idx) :
    idx_main_v79 (idx_main_v80 i) = ix1 (⟨(i 1).val, idx2_lt1 i⟩ : Fin 2048) :=
  funext fun a => Fin.ext (by match a with | ⟨0, _⟩ => rfl)

/-- The reference's new currents are `GI` of its arguments: the product over all 4096 inputs of the previous
    layer's spikes with the weights, plus the bias, mixed with the old current. -/
theorem ref_current (x17 x18 x19 : (⟨S4096x4096, .f32⟩ : BufTy).Contents (Elt Ideal))
    (x20 : (⟨S2048x4096, .f32⟩ : BufTy).Contents (Elt Ideal)) (x21 : (⟨S2048, .f32⟩ : BufTy).Contents (Elt Ideal))
    (x23 : (⟨S4096x2048, .f32⟩ : BufTy).Contents (Elt Ideal)) :
    val_main_v84 (F := Ideal) x17 x18 x19 x20 x21 x23 = GI x17 x18 x19 x20 x21 x23 := by
  funext i
  rw [val_main_v84_apply, val_main_v76_apply, val_main_v75_apply, val_main_cst_16_apply, val_main_v83_apply,
    val_main_v82_apply, val_main_cst_17_apply, val_main_v81_apply, val_main_v78_apply, val_main_v80_apply,
    val_main_v79_apply, bidx_eq]
  simp only [val_main_v68_apply, val_main_v67_apply, val_main_v49_apply, val_main_v48_apply, val_main_v45_apply,
    val_main_v47_apply, val_main_v44_apply, val_main_v46_apply, val_main_cst_9_apply, val_main_cst_10_apply,
    val_main_v66_apply, val_main_cst_13_apply, val_main_v77_apply, lidx_eq, widx_eq,
    Ideal.subf_def, Ideal.addf_def, Ideal.mulf_def, Ideal.ofBits_def, Ideal.cmpf_def]
  rfl

end Cert.Lif

end
-- ==== Proof.Bodies.lean ====
/-
  The two kernel bodies as triples over arbitrary whole memrefs, at any float instance.

  The spike body loads its three f32 blocks whole, and stores, whole, the bf16 block
  [0.9·u + 2·i − s > 0]. The dense body carries an accumulator across the last grid axis: at the
  first point of that axis it zeroes the accumulator; at every point it adds the product of its two
  bf16 blocks (contracted along their second axes) to it; at the last point it stores the three
  result blocks. Each access goes through the unit rectangle of the buffer's own sizes at zero
  offsets, so a load reads the whole contents and a store leaves exactly its value; each triple
  therefore states the buffers' final contents as the printed values themselves.
-/
import proofs.«166087_j40707700031715_2_alg».proof.Proof.Gen.KernelIdeal.Launch
import proofs.«166087_j40707700031715_2_alg».proof.Proof.Gen.KernelIdeal.Skeleton
import proofs.«166087_j40707700031715_2_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Whole-buffer accesses

Every access of the two bodies goes through the unit-stride rectangle of the buffer's own sizes at
zero offsets. A load through it reads the buffer's contents; the last store through it leaves its
value, whatever the buffer held and whatever was stored before; and a load after such a store
reads the stored value. -/

section Whole

variable {sig' : RefSig} {κ : Kind} {sp : Space} {S : Shape} {e : EltTy} {Val : EltTy → Type}

/-- The zero offsets of a rank-2 buffer, as the programs spell them. -/
theorem off2_zero : (![0, 0] : Fin 2 → Nat) = fun _ => 0 := by
  funext a; fin_cases a <;> rfl

/-- A load of the whole buffer reads what the buffer holds. -/
theorem readAt_whole (v : View sig' κ sp S e) (f : v.ty.Contents Val) {off : Fin S.rank → Nat} (hz : off = fun _ => 0)
    (inb : ∀ a, off a + S.size a ≤ S.size a) :
    v.readAt Val (Rect.unit off S.size inb).toLoadRect f = v.read Val f :=
  (View.readAt_eq_ld v f (Rect.unit off S.size inb)).trans (View.ld_unit_zero hz inb _)

/-- After a store of the whole buffer it holds the stored value, whatever was stored before. -/
theorem read_store_whole [∀ e, Nonempty (Val e)] (v : View sig' κ sp S e) (f : v.ty.Contents Val) {off : Fin S.rank → Nat}
    (hz : off = fun _ => 0) (inb : ∀ a, off a + S.size a ≤ S.size a) (w : S.Idx → Val e) (L : List (View.Piece Val S e)) :
    v.read Val (v.writes Val f ((⟨Rect.unit off S.size inb, w⟩ : View.Piece Val S e) :: L)) = w :=
  (View.read_writes_eq_canon v f _
      (fun y => ⟨_, List.mem_cons_self, View.mem_set_unit_zero hz inb y⟩)).trans
    (View.canon_cons_unit_zero hz inb w L)

/-- A load of the whole buffer after such a store reads the stored value. -/
theorem readCov_whole [∀ e, Nonempty (Val e)] (v : View sig' κ sp S e) {off : Fin S.rank → Nat}
    (hz : off = fun _ => 0) (inb : ∀ a, off a + S.size a ≤ S.size a) (w : S.Idx → Val e) (L : List (View.Piece Val S e)) :
    v.readCov ((⟨Rect.unit off S.size inb, w⟩ : View.Piece Val S e) :: L) (Rect.unit off S.size inb).toLoadRect = w :=
  (View.readCov_eq_canon_ld v _ (Rect.unit off S.size inb)
      (fun y => ⟨_, List.mem_cons_self, View.mem_set_unit_zero hz inb y⟩)).trans
    ((congrArg (fun X => View.ld X (Rect.unit off S.size inb)) (View.canon_cons_unit_zero hz inb w L)).trans
      (View.ld_unit_zero hz inb w))

end Whole

/-- The spike body: the three inputs at their contents in and out; the output, at anything, ends
    at the printed value of the three inputs. -/
theorem spike_body (c : Dev nD) (E : Set ℕ) (i : grid0.Coords)
    (arg1 : Memref sig .tc .vmem S128x4096 .f32) (h1 : arg1.IsWhole) (arg2 : Memref sig .tc .vmem S128x4096 .f32) (h2 : arg2.IsWhole)
    (arg3 : Memref sig .tc .vmem S128x4096 .f32) (h3 : arg3.IsWhole) (arg4 : Memref sig .tc .vmem S128x4096 .bf16) (h4 : arg4.IsWhole)
    (x0 x1 x2 : Vec F S128x4096 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (k0_pay1 x0 x1 x2)) -∗ K ⟨⟩))
      ⊢ wp frame (wpE (defs₀ (F := F)) Variants.none c none) E (cc0__spike_kernel i arg1 h1 arg2 h2 arg3 h3 arg4 h4) K := by
  simp only [cc0__spike_kernel_eq_skeleton]; unfold cc0__spike_kernel_skel
  unfold owns
  iintro ⟨⟨%f0, %hf0, H0⟩, ⟨%f1, %hf1, H1⟩, ⟨%f2, %hf2, H2⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H4
  ipureintro
  rw [read_store_whole _ _ off2_zero]
  repeat (first | rw [readCov_whole _ off2_zero] | rw [readAt_whole _ _ off2_zero])

/-! ## The dense body's two branch conditions

Both are words computed from the last grid coordinate `k = i 2`, which ranges over four values: the
first holds exactly at `k = 0`, the second exactly at `k = 3`. -/

/-- The condition of the zeroing branch, as the body computes it from the last coordinate. -/
abbrev condFirst (i : grid1.Coords) : Prop :=
  Scalar.cmpi .ne (Scalar.extui (Scalar.cmpi .eq (BitVec.ofNat 32 (i 2).val) 0#32)) 0#32 = 1#1

/-- The condition of the storing branch. -/
abbrev condLast (i : grid1.Coords) : Prop := k1_cond2 i = 1#1

theorem first_word : ∀ k : Fin 4,
    (Scalar.cmpi .ne (Scalar.extui (Scalar.cmpi .eq (BitVec.ofNat 32 k.val) 0#32)) 0#32 = 1#1) ↔ k.val = 0 := by decide

theorem last_word : ∀ k : Fin 4,
    (Scalar.cmpi .ne (Scalar.extui (Scalar.cmpi .eq (BitVec.ofNat 32 k.val) 3#32)) 0#32 = 1#1) ↔ k.val = 3 := by decide

theorem condFirst_iff (i : grid1.Coords) : condFirst i ↔ (i 2).val = 0 := first_word (i 2)

theorem condLast_iff (i : grid1.Coords) : condLast i ↔ (i 2).val = 3 := last_word (i 2)

/-- The dense body at a middle point of the last axis: the accumulator gains the blocks' product;
    nothing else moves. -/
theorem dense_mid (c : Dev nD) (E : Set ℕ) (i : grid1.Coords)
    (arg3 : Memref sig .tc .vmem S512x1024 .bf16) (h3 : arg3.IsWhole) (arg4 : Memref sig .tc .vmem S512x1024 .bf16) (h4 : arg4.IsWhole)
    (arg5 : Memref sig .tc .vmem S1x512 .f32) (h5 : arg5.IsWhole)
    (arg6 : Memref sig .tc .vmem S512x512 .f32) (h6 : arg6.IsWhole) (arg7 : Memref sig .tc .vmem S512x512 .f32) (h7 : arg7.IsWhole)
    (arg8 : Memref sig .tc .vmem S512x512 .f32) (h8 : arg8.IsWhole)
    (arg9 : Memref sig .tc .vmem S512x512 .f32) (h9 : arg9.IsWhole) (arg10 : Memref sig .tc .vmem S512x512 .f32) (h10 : arg10.IsWhole)
    (arg11 : Memref sig .tc .vmem S512x512 .f32) (h11 : arg11.IsWhole) (arg12 : Memref sig .tc .vmem S512x512 .f32) (h12 : arg12.IsWhole)
    (hk0 : (i 2).val ≠ 0) (hk3 : (i 2).val ≠ 3)
    (a w : Vec F S512x1024 .bf16) (b : Vec F S1x512 .f32) (u ii s : Vec F S512x512 .f32) (y9 y10 y11 acc : Vec F S512x512 .f32) (K : PUnit → sProp 𝕄) :
    iprop(owns (c : Thread nD τ) arg3 fullShare a ∗ owns (c : Thread nD τ) arg4 fullShare w ∗ owns (c : Thread nD τ) arg5 fullShare b
        ∗ owns (c : Thread nD τ) arg6 fullShare u ∗ owns (c : Thread nD τ) arg7 fullShare ii ∗ owns (c : Thread nD τ) arg8 fullShare s
        ∗ owns (c : Thread nD τ) arg9 fullShare y9 ∗ owns (c : Thread nD τ) arg10 fullShare y10 ∗ owns (c : Thread nD τ) arg11 fullShare y11
        ∗ owns (c : Thread nD τ) arg12 fullShare acc
        ∗ (iprop(owns (c : Thread nD τ) arg3 fullShare a ∗ owns (c : Thread nD τ) arg4 fullShare w ∗ owns (c : Thread nD τ) arg5 fullShare b
        ∗ owns (c : Thread nD τ) arg6 fullShare u ∗ owns (c : Thread nD τ) arg7 fullShare ii ∗ owns (c : Thread nD τ) arg8 fullShare s
            ∗ owns (c : Thread nD τ) arg9 fullShare y9 ∗ owns (c : Thread nD τ) arg10 fullShare y10 ∗ owns (c : Thread nD τ) arg11 fullShare y11
            ∗ owns (c : Thread nD τ) arg12 fullShare (k1_pay2 a w acc)) -∗ K ⟨⟩))
      ⊢ wp frame (wpE (defs₀ (F := F)) Variants.none c none) E (cc1__dense_kernel i arg3 h3 arg4 h4 arg5 h5 arg6 h6 arg7 h7 arg8 h8 arg9 h9 arg10 h10 arg11 h11 arg12 h12) K := by
  have hc0 : ¬condFirst i := fun h => hk0 ((condFirst_iff i).mp h)
  have hc1 : ¬condLast i := fun h => hk3 ((condLast_iff i).mp h)
  simp only [cc1__dense_kernel_eq_skeleton]; unfold cc1__dense_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  subst hf3; subst hf4; subst hf5; subst hf6; subst hf7; subst hf8; subst hf9; subst hf10; subst hf11; subst hf12
  sl_exec (disch := first | exact hc0 | exact hc1)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  iexists _; isplitr
  swap; · iexact H12
  ipureintro
  rw [read_store_whole _ _ off2_zero]
  repeat (first | rw [readCov_whole _ off2_zero] | rw [readAt_whole _ _ off2_zero])

/-- The dense body at the last point of the last axis: the accumulator gains the blocks' product,
    and the three outputs, at anything, end at their printed values. -/
theorem dense_last (c : Dev nD) (E : Set ℕ) (i : grid1.Coords)
    (arg3 : Memref sig .tc .vmem S512x1024 .bf16) (h3 : arg3.IsWhole) (arg4 : Memref sig .tc .vmem S512x1024 .bf16) (h4 : arg4.IsWhole)
    (arg5 : Memref sig .tc .vmem S1x512 .f32) (h5 : arg5.IsWhole)
    (arg6 : Memref sig .tc .vmem S512x512 .f32) (h6 : arg6.IsWhole) (arg7 : Memref sig .tc .vmem S512x512 .f32) (h7 : arg7.IsWhole)
    (arg8 : Memref sig .tc .vmem S512x512 .f32) (h8 : arg8.IsWhole)
    (arg9 : Memref sig .tc .vmem S512x512 .f32) (h9 : arg9.IsWhole) (arg10 : Memref sig .tc .vmem S512x512 .f32) (h10 : arg10.IsWhole)
    (arg11 : Memref sig .tc .vmem S512x512 .f32) (h11 : arg11.IsWhole) (arg12 : Memref sig .tc .vmem S512x512 .f32) (h12 : arg12.IsWhole)
    (hk : (i 2).val = 3)
    (a w : Vec F S512x1024 .bf16) (b : Vec F S1x512 .f32) (u ii s : Vec F S512x512 .f32) (acc : Vec F S512x512 .f32) (K : PUnit → sProp 𝕄) :
    iprop(owns (c : Thread nD τ) arg3 fullShare a ∗ owns (c : Thread nD τ) arg4 fullShare w ∗ owns (c : Thread nD τ) arg5 fullShare b
        ∗ owns (c : Thread nD τ) arg6 fullShare u ∗ owns (c : Thread nD τ) arg7 fullShare ii ∗ owns (c : Thread nD τ) arg8 fullShare s
        ∗ (∃ d, owns (c : Thread nD τ) arg9 fullShare d) ∗ (∃ d, owns (c : Thread nD τ) arg10 fullShare d) ∗ (∃ d, owns (c : Thread nD τ) arg11 fullShare d)
        ∗ owns (c : Thread nD τ) arg12 fullShare acc
        ∗ (iprop(owns (c : Thread nD τ) arg3 fullShare a ∗ owns (c : Thread nD τ) arg4 fullShare w ∗ owns (c : Thread nD τ) arg5 fullShare b
        ∗ owns (c : Thread nD τ) arg6 fullShare u ∗ owns (c : Thread nD τ) arg7 fullShare ii ∗ owns (c : Thread nD τ) arg8 fullShare s
            ∗ owns (c : Thread nD τ) arg9 fullShare (k1_pay3 u ii s) ∗ owns (c : Thread nD τ) arg10 fullShare (k1_pay4 (k1_pay2 a w acc) b ii) ∗ owns (c : Thread nD τ) arg11 fullShare (k1_pay5 u ii s)
            ∗ owns (c : Thread nD τ) arg12 fullShare (k1_pay2 a w acc)) -∗ K ⟨⟩))
      ⊢ wp frame (wpE (defs₀ (F := F)) Variants.none c none) E (cc1__dense_kernel i arg3 h3 arg4 h4 arg5 h5 arg6 h6 arg7 h7 arg8 h8 arg9 h9 arg10 h10 arg11 h11 arg12 h12) K := by
  have hc0 : ¬condFirst i := fun h => by have := (condFirst_iff i).mp h; omega
  have hc1 : condLast i := (condLast_iff i).mpr hk
  simp only [cc1__dense_kernel_eq_skeleton]; unfold cc1__dense_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%f12, %hf12, H12⟩, Hk⟩
  subst hf3; subst hf4; subst hf5; subst hf6; subst hf7; subst hf8; subst hf12
  sl_exec (disch := first | exact hc0 | exact hc1)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    try sl_unfold_run_names
    rw [read_store_whole _ _ off2_zero]
    repeat (first | rw [readCov_whole _ off2_zero] | rw [readAt_whole _ _ off2_zero])
  isplitl [H10]
  · iexists _; isplitr
    swap; · iexact H10
    ipureintro
    try sl_unfold_run_names
    rw [read_store_whole _ _ off2_zero]
    repeat (first | rw [readCov_whole _ off2_zero] | rw [readAt_whole _ _ off2_zero])
  isplitl [H11]
  · iexists _; isplitr
    swap; · iexact H11
    ipureintro
    try sl_unfold_run_names
    rw [read_store_whole _ _ off2_zero]
    repeat (first | rw [readCov_whole _ off2_zero] | rw [readAt_whole _ _ off2_zero])
  iexists _; isplitr
  swap; · iexact H12
  ipureintro
  try sl_unfold_run_names
  rw [read_store_whole _ _ off2_zero]
  repeat (first | rw [readCov_whole _ off2_zero] | rw [readAt_whole _ _ off2_zero])

/-- The dense body at the first point of the last axis: the accumulator, at anything, is zeroed
    and then gains the blocks' product; nothing else moves. -/
theorem dense_first (c : Dev nD) (E : Set ℕ) (i : grid1.Coords)
    (arg3 : Memref sig .tc .vmem S512x1024 .bf16) (h3 : arg3.IsWhole) (arg4 : Memref sig .tc .vmem S512x1024 .bf16) (h4 : arg4.IsWhole)
    (arg5 : Memref sig .tc .vmem S1x512 .f32) (h5 : arg5.IsWhole)
    (arg6 : Memref sig .tc .vmem S512x512 .f32) (h6 : arg6.IsWhole) (arg7 : Memref sig .tc .vmem S512x512 .f32) (h7 : arg7.IsWhole)
    (arg8 : Memref sig .tc .vmem S512x512 .f32) (h8 : arg8.IsWhole)
    (arg9 : Memref sig .tc .vmem S512x512 .f32) (h9 : arg9.IsWhole) (arg10 : Memref sig .tc .vmem S512x512 .f32) (h10 : arg10.IsWhole)
    (arg11 : Memref sig .tc .vmem S512x512 .f32) (h11 : arg11.IsWhole) (arg12 : Memref sig .tc .vmem S512x512 .f32) (h12 : arg12.IsWhole)
    (hk : (i 2).val = 0)
    (a w : Vec F S512x1024 .bf16) (b : Vec F S1x512 .f32) (u ii s : Vec F S512x512 .f32) (y9 y10 y11 : Vec F S512x512 .f32) (K : PUnit → sProp 𝕄) :
    iprop(owns (c : Thread nD τ) arg3 fullShare a ∗ owns (c : Thread nD τ) arg4 fullShare w ∗ owns (c : Thread nD τ) arg5 fullShare b
        ∗ owns (c : Thread nD τ) arg6 fullShare u ∗ owns (c : Thread nD τ) arg7 fullShare ii ∗ owns (c : Thread nD τ) arg8 fullShare s
        ∗ owns (c : Thread nD τ) arg9 fullShare y9 ∗ owns (c : Thread nD τ) arg10 fullShare y10 ∗ owns (c : Thread nD τ) arg11 fullShare y11
        ∗ (∃ d, owns (c : Thread nD τ) arg12 fullShare d)
        ∗ (iprop(owns (c : Thread nD τ) arg3 fullShare a ∗ owns (c : Thread nD τ) arg4 fullShare w ∗ owns (c : Thread nD τ) arg5 fullShare b
        ∗ owns (c : Thread nD τ) arg6 fullShare u ∗ owns (c : Thread nD τ) arg7 fullShare ii ∗ owns (c : Thread nD τ) arg8 fullShare s
            ∗ owns (c : Thread nD τ) arg9 fullShare y9 ∗ owns (c : Thread nD τ) arg10 fullShare y10 ∗ owns (c : Thread nD τ) arg11 fullShare y11
            ∗ owns (c : Thread nD τ) arg12 fullShare (k1_pay2 a w (k1_pay1 (F := F)))) -∗ K ⟨⟩))
      ⊢ wp frame (wpE (defs₀ (F := F)) Variants.none c none) E (cc1__dense_kernel i arg3 h3 arg4 h4 arg5 h5 arg6 h6 arg7 h7 arg8 h8 arg9 h9 arg10 h10 arg11 h11 arg12 h12) K := by
  have hc0 : condFirst i := (condFirst_iff i).mpr hk
  have hc1 : ¬condLast i := fun h => by have := (condLast_iff i).mp h; omega
  simp only [cc1__dense_kernel_eq_skeleton]; unfold cc1__dense_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, Hk⟩
  subst hf3; subst hf4; subst hf5; subst hf6; subst hf7; subst hf8; subst hf9; subst hf10; subst hf11
  sl_exec (disch := first | exact hc0 | exact hc1)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  iexists _; isplitr
  swap; · iexact H12
  ipureintro
  try sl_unfold_run_names
  rw [read_store_whole _ _ off2_zero]
  repeat (first | rw [readCov_whole _ off2_zero] | rw [readAt_whole _ _ off2_zero])

end Cert.KernelIdeal.Body

end
-- ==== Proof.SpikeRegion.lean ====
/-
  The first kernel region: the spike kernel on a grid of 32 points, one block of 128 rows of the
  three state arrays per point. At point t the body reads the three blocks and writes the block of
  spikes [0.9·U + 2·I − S > 0]; nothing is carried from one point to the next. This module states
  what each staging buffer holds after the body at each point, as a function of the arrays the region
  finds on entry (a parameter V), and discharges the per-point obligation of the pipeline from the
  body's own triple.
-/
import proofs.«166087_j40707700031715_2_alg».proof.Proof.Gen.KernelIdeal.Launch
import proofs.«166087_j40707700031715_2_alg».proof.Proof.Gen.KernelIdeal.Skeleton
import proofs.«166087_j40707700031715_2_alg».proof.Proof.Gen.KernelIdeal.Points
import proofs.«166087_j40707700031715_2_alg».proof.Proof.Bodies
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Spike

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Block t of window w's array, as the region finds the array on entry. -/
def blockAt (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

/-- After the body at point t: the three inputs still hold their blocks, the output holds the spikes
    of those three blocks. The invariant is the scoped rest and the generator register, untouched. -/
def dat (c : Dev nD) : Dat τ (Elt F) Unit ℕ (UR sig nD τ) ℕ cfg0 c where
  A w := V c (Pipeline.arrRef spec0 w)
  after w t := match w with
    | ⟨0, _⟩ => blockAt V c 0 t
    | ⟨1, _⟩ => blockAt V c 1 t
    | ⟨2, _⟩ => blockAt V c 2 t
    | ⟨3, _⟩ => k0_pay1 (blockAt V c 0 t) (blockAt V c 1 t) (blockAt V c 2 t)
  Φ _ := Pipeline.ΦA spec0 c
  q _ := fullShare
  owed _ := 0

theorem dat_A (c : Dev nD) (w : Fin cfg0.W) : (dat V c).A w = V c (Pipeline.arrRef spec0 w) := by
  dsimp only [dat]

theorem after_0 (c : Dev nD) (t : Fin cfg0.N) : (dat V c).after 0 t = blockAt V c 0 t := by dsimp only [dat]
theorem after_1 (c : Dev nD) (t : Fin cfg0.N) : (dat V c).after 1 t = blockAt V c 1 t := by dsimp only [dat]
theorem after_2 (c : Dev nD) (t : Fin cfg0.N) : (dat V c).after 2 t = blockAt V c 2 t := by dsimp only [dat]
theorem after_3 (c : Dev nD) (t : Fin cfg0.N) :
    (dat V c).after 3 t = k0_pay1 (blockAt V c 0 t) (blockAt V c 1 t) (blockAt V c 2 t) := by dsimp only [dat]

/-- An input's staging buffer holds the input's block when the body runs: every input is fetched at
    every point and the body leaves it in place. -/
theorem before_0 (c : Dev nD) (t : Fin cfg0.N) (d) : (dat V c).before 0 t d = blockAt V c 0 t :=
  ((dat V c).before_in_eq_fetched 0 rfl (fun _ => rfl) (fun _ _ _ => rfl)
    (fun t => by rw [after_0]; unfold Dat.blockOf blockAt; rw [dat_A]; try rfl) t d).trans
    (by unfold Dat.fetched Dat.blockOf blockAt; rw [dat_A]; try rfl)
theorem before_1 (c : Dev nD) (t : Fin cfg0.N) (d) : (dat V c).before 1 t d = blockAt V c 1 t :=
  ((dat V c).before_in_eq_fetched 1 rfl (fun _ => rfl) (fun _ _ _ => rfl)
    (fun t => by rw [after_1]; unfold Dat.blockOf blockAt; rw [dat_A]; try rfl) t d).trans
    (by unfold Dat.fetched Dat.blockOf blockAt; rw [dat_A]; try rfl)
theorem before_2 (c : Dev nD) (t : Fin cfg0.N) (d) : (dat V c).before 2 t d = blockAt V c 2 t :=
  ((dat V c).before_in_eq_fetched 2 rfl (fun _ => rfl) (fun _ _ _ => rfl)
    (fun t => by rw [after_2]; unfold Dat.blockOf blockAt; rw [dat_A]; try rfl) t d).trans
    (by unfold Dat.fetched Dat.blockOf blockAt; rw [dat_A]; try rfl)

/-- The body at point t, from the staging buffers at what the pipeline hands it to what it must leave. -/
theorem at_point (c : Dev nD) (t : Fin cfg0.N) :
    iprop((dat V c).Φ t.castSucc ∗ (dat V c).owesAt () t.castSucc
      ∗ (∃ d, owns (c : Thread nD τ) (st0_0 t) fullShare ((dat V c).before 0 t d))
      ∗ (∃ d, owns (c : Thread nD τ) (st0_1 t) fullShare ((dat V c).before 1 t d))
      ∗ (∃ d, owns (c : Thread nD τ) (st0_2 t) fullShare ((dat V c).before 2 t d))
      ∗ (∃ d, owns (c : Thread nD τ) (st0_3 t) fullShare ((dat V c).before 3 t d)))
    ⊢ wp frame (wpE (defs₀ (F := F)) Variants.none c none) Set.univ (bodyAt0 t) (fun _ =>
        (iprop((dat V c).Φ t.succ ∗ (dat V c).owesAt () t.succ
          ∗ owns (c : Thread nD τ) (st0_0 t) fullShare ((dat V c).after 0 t)
          ∗ owns (c : Thread nD τ) (st0_1 t) fullShare ((dat V c).after 1 t)
          ∗ owns (c : Thread nD τ) (st0_2 t) fullShare ((dat V c).after 2 t)
          ∗ owns (c : Thread nD τ) (st0_3 t) fullShare ((dat V c).after 3 t)) : sProp 𝕄)) := by
  unfold bodyAt0
  simp only [before_0, before_1, before_2]
  rw [show (dat V c).Φ t.succ = (dat V c).Φ t.castSucc from rfl,
    show (dat V c).owesAt () t.succ = (dat V c).owesAt () t.castSucc from rfl,
    after_0, after_1, after_2, after_3]
  iintro ⟨HΦ, Ho, ⟨%d0, H0⟩, ⟨%d1, H1⟩, ⟨%d2, H2⟩, ⟨%d3, H3⟩⟩
  iapply (Body.spike_body c Set.univ _ _ _ _ _ _ _ _ _ (blockAt V c 0 t) (blockAt V c 1 t) (blockAt V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's per-point obligation for the first region. -/
theorem obligation (c : Dev nD) : BodyObligation (dat (F := F) V c) (defs₀ (F := F)) Variants.none () Set.univ := fun t => by
  rw [bigSep_W0, bigSep_W0]
  exact at_point V c t

end Cert.KernelIdeal.Spike

end
-- ==== Proof.DenseRegion.lean ====
/-
  The second kernel region: the dense layer on a grid of 8 × 4 × 4 points (row block, column block,
  chunk of the contracted axis). A scratch accumulator is carried along the innermost axis: at chunk 0
  it is reset to zero, at every chunk the product of the point's two blocks is added to it, and at
  chunk 3 the three output blocks are stored — the membrane update of the state blocks, the current
  update of the accumulated product plus the bias row, and the spikes of the new membrane. At the
  other chunks the output buffers are left exactly as found. This module names what the accumulator
  and every staging buffer hold after the body at each point, as a function of the arrays the region
  finds on entry (a parameter V), and discharges the pipeline's per-point obligation from the body's
  three triples (first chunk, middle chunks, last chunk).
-/
import proofs.«166087_j40707700031715_2_alg».proof.Proof.Gen.KernelIdeal.Launch
import proofs.«166087_j40707700031715_2_alg».proof.Proof.Gen.KernelIdeal.Skeleton
import proofs.«166087_j40707700031715_2_alg».proof.Proof.Gen.KernelIdeal.Points
import proofs.«166087_j40707700031715_2_alg».proof.Proof.Bodies
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Dense

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Block t of window w's array, as the region finds the array on entry. -/
def blockAt (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

/-! ## The schedule: the chunk coordinate of a point, and where the outputs are idle -/

/-- The innermost coordinate of point t is t mod 4. -/
theorem chunk_of : ∀ t : Fin cfg1.N, ((grid1.coords t) 2).val = t.val % 4 :=
  (by decide +kernel : ∀ t : Fin grid1.N, ((grid1.coords t) 2).val = t.val % 4)

theorem idle_6 : ∀ t : Fin cfg1.N, t.val % 4 ≠ 3 → cfg1.idle 6 (grid1.coords t) = true :=
  (by decide +kernel : ∀ t : Fin grid1.N, t.val % 4 ≠ 3 → idle1 6 (grid1.coords t) = true)
theorem idle_7 : ∀ t : Fin cfg1.N, t.val % 4 ≠ 3 → cfg1.idle 7 (grid1.coords t) = true :=
  (by decide +kernel : ∀ t : Fin grid1.N, t.val % 4 ≠ 3 → idle1 7 (grid1.coords t) = true)
theorem idle_8 : ∀ t : Fin cfg1.N, t.val % 4 ≠ 3 → cfg1.idle 8 (grid1.coords t) = true :=
  (by decide +kernel : ∀ t : Fin grid1.N, t.val % 4 ≠ 3 → idle1 8 (grid1.coords t) = true)
theorem live_6 : ∀ t : Fin cfg1.N, t.val % 4 = 3 → cfg1.idle 6 (grid1.coords t) = false :=
  (by decide +kernel : ∀ t : Fin grid1.N, t.val % 4 = 3 → idle1 6 (grid1.coords t) = false)
theorem live_7 : ∀ t : Fin cfg1.N, t.val % 4 = 3 → cfg1.idle 7 (grid1.coords t) = false :=
  (by decide +kernel : ∀ t : Fin grid1.N, t.val % 4 = 3 → idle1 7 (grid1.coords t) = false)
theorem live_8 : ∀ t : Fin cfg1.N, t.val % 4 = 3 → cfg1.idle 8 (grid1.coords t) = false :=
  (by decide +kernel : ∀ t : Fin grid1.N, t.val % 4 = 3 → idle1 8 (grid1.coords t) = false)
theorem keep_6 (t : Fin cfg1.N) (h : t.val % 4 ≠ 3) : (cfg1.win 6).flush t = false :=
  Bool.eq_false_iff.mpr fun e => h ((flush1_6 t).mp e)
theorem keep_7 (t : Fin cfg1.N) (h : t.val % 4 ≠ 3) : (cfg1.win 7).flush t = false :=
  Bool.eq_false_iff.mpr fun e => h ((flush1_7 t).mp e)
theorem keep_8 (t : Fin cfg1.N) (h : t.val % 4 ≠ 3) : (cfg1.win 8).flush t = false :=
  Bool.eq_false_iff.mpr fun e => h ((flush1_8 t).mp e)

/-! ## The accumulator -/

/-- The scratch accumulator as a memref. -/
abbrev accM : Memref sig .tc .vmem S512x512 .f32 := Memref.whole cc1_scratch0

/-- What the accumulator holds after the body at point n: at a first chunk the product of the
    point's blocks added to zero, otherwise added to what the point before left. -/
def accAt (c : Dev nD) : (n : ℕ) → n < cfg1.N → Vec F S512x512 .f32
  | 0, h => k1_pay2 (blockAt V c 0 ⟨0, h⟩) (blockAt V c 1 ⟨0, h⟩) (k1_pay1 (F := F))
  | n + 1, h =>
    if (n + 1) % 4 = 0 then k1_pay2 (blockAt V c 0 ⟨n + 1, h⟩) (blockAt V c 1 ⟨n + 1, h⟩) (k1_pay1 (F := F))
    else k1_pay2 (blockAt V c 0 ⟨n + 1, h⟩) (blockAt V c 1 ⟨n + 1, h⟩) (accAt c n (Nat.lt_of_succ_lt h))

theorem accAt_first (c : Dev nD) (t : Fin cfg1.N) (h : t.val % 4 = 0) :
    accAt V c t.val t.isLt = k1_pay2 (blockAt V c 0 t) (blockAt V c 1 t) (k1_pay1 (F := F)) := by
  obtain ⟨n, hn⟩ := t
  cases n with
  | zero => rfl
  | succ n => exact if_pos h

theorem accAt_next (c : Dev nD) (t : Fin cfg1.N) (h : t.val % 4 ≠ 0) :
    accAt V c t.val t.isLt = k1_pay2 (blockAt V c 0 t) (blockAt V c 1 t)
      (accAt V c (t.val - 1) (Nat.lt_of_le_of_lt (Nat.sub_le _ _) t.isLt)) := by
  obtain ⟨n, hn⟩ := t
  cases n with
  | zero => exact absurd (Nat.zero_mod _) h
  | succ n => exact if_neg h

/-- The scoped buffers the dense kernel never touches (the first region's staging buffers), each whole
    at some contents, beside a statement S about the accumulator. -/
def scopedWith (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ S)

/-- What the region's invariant is before the first point: the scoped rest at anything and the
    generator register at some state. -/
theorem PhiA_eq (c : Dev nD) :
    (Pipeline.ΦA spec1 c : sProp 𝕄) = iprop(scopedWith c iprop(∃ d, owns (c : Thread nD τ) accM fullShare d) ∗ (∃ r, prngReg c r)) := by
  unfold Pipeline.ΦA scopedWith; rw [scopedRest1_eq]; simp only [accM, owns_whole]; try rfl

/-- The invariant before point n: before the first point the scoped rest at anything; afterwards the
    accumulator at what the point before left. -/
def accInv (c : Dev nD) : (n : ℕ) → n ≤ cfg1.N → sProp 𝕄
  | 0, _ => Pipeline.ΦA spec1 c
  | n + 1, hn => iprop(scopedWith c (owns (c : Thread nD τ) accM fullShare (accAt V c n hn)) ∗ (∃ r, prngReg c r))

theorem accInv_zero (c : Dev nD) (n : ℕ) (h : n ≤ cfg1.N) (hz : n = 0) : accInv V c n h = Pipeline.ΦA spec1 c := by
  subst hz; rfl
theorem accInv_succ (c : Dev nD) (n : ℕ) (hn : n < cfg1.N) :
    accInv V c (n + 1) hn = iprop(scopedWith c (owns (c : Thread nD τ) accM fullShare (accAt V c n hn)) ∗ (∃ r, prngReg c r)) := rfl
theorem accInv_pos (c : Dev nD) (n : ℕ) (h : n ≤ cfg1.N) (hz : n ≠ 0) :
    accInv V c n h = iprop(scopedWith c (owns (c : Thread nD τ) accM fullShare (accAt V c (n - 1) (by omega))) ∗ (∃ r, prngReg c r)) := by
  cases n with
  | zero => exact absurd rfl hz
  | succ n => rfl

/-! ## The proof data -/

/-- After the body at point t: the six inputs still hold their blocks; the three outputs hold the
    membrane update, the current update over the accumulator, and the spikes (consulted only at the
    last chunk, where they are stored). -/
def dat (c : Dev nD) : Dat τ (Elt F) Unit ℕ (UR sig nD τ) ℕ cfg1 c where
  A w := V c (Pipeline.arrRef spec1 w)
  after w t := match w with
    | ⟨0, _⟩ => blockAt V c 0 t
    | ⟨1, _⟩ => blockAt V c 1 t
    | ⟨2, _⟩ => blockAt V c 2 t
    | ⟨3, _⟩ => blockAt V c 3 t
    | ⟨4, _⟩ => blockAt V c 4 t
    | ⟨5, _⟩ => blockAt V c 5 t
    | ⟨6, _⟩ => k1_pay3 (blockAt V c 3 t) (blockAt V c 4 t) (blockAt V c 5 t)
    | ⟨7, _⟩ => k1_pay4 (accAt V c t.val t.isLt) (blockAt V c 2 t) (blockAt V c 4 t)
    | ⟨8, _⟩ => k1_pay5 (blockAt V c 3 t) (blockAt V c 4 t) (blockAt V c 5 t)
  Φ t := accInv V c t.val (Nat.le_of_lt_succ t.isLt)
  q _ := fullShare
  owed _ := 0

theorem dat_A (c : Dev nD) (w : Fin cfg1.W) : (dat V c).A w = V c (Pipeline.arrRef spec1 w) := by
  dsimp only [dat]
theorem after_0 (c : Dev nD) (t : Fin cfg1.N) : (dat V c).after 0 t = blockAt V c 0 t := by dsimp only [dat]
theorem after_1 (c : Dev nD) (t : Fin cfg1.N) : (dat V c).after 1 t = blockAt V c 1 t := by dsimp only [dat]
theorem after_2 (c : Dev nD) (t : Fin cfg1.N) : (dat V c).after 2 t = blockAt V c 2 t := by dsimp only [dat]
theorem after_3 (c : Dev nD) (t : Fin cfg1.N) : (dat V c).after 3 t = blockAt V c 3 t := by dsimp only [dat]
theorem after_4 (c : Dev nD) (t : Fin cfg1.N) : (dat V c).after 4 t = blockAt V c 4 t := by dsimp only [dat]
theorem after_5 (c : Dev nD) (t : Fin cfg1.N) : (dat V c).after 5 t = blockAt V c 5 t := by dsimp only [dat]
theorem after_6 (c : Dev nD) (t : Fin cfg1.N) : (dat V c).after 6 t = k1_pay3 (blockAt V c 3 t) (blockAt V c 4 t) (blockAt V c 5 t) := by dsimp only [dat]
theorem after_7 (c : Dev nD) (t : Fin cfg1.N) : (dat V c).after 7 t = k1_pay4 (accAt V c t.val t.isLt) (blockAt V c 2 t) (blockAt V c 4 t) := by dsimp only [dat]
theorem after_8 (c : Dev nD) (t : Fin cfg1.N) : (dat V c).after 8 t = k1_pay5 (blockAt V c 3 t) (blockAt V c 4 t) (blockAt V c 5 t) := by dsimp only [dat]

theorem Phi_castSucc (c : Dev nD) (t : Fin cfg1.N) :
    (dat V c).Φ t.castSucc = accInv V c t.val (Nat.le_of_lt t.isLt) := by
  dsimp only [dat]; simp only [Fin.coe_castSucc]

/-- An input's staging buffer holds the input's block when the body runs, fetched at that point or
    not: where it is not fetched its block index has not moved and the body left it in place. -/
theorem before_0 (c : Dev nD) (t : Fin cfg1.N) (d) : (dat V c).before 0 t d = blockAt V c 0 t :=
  ((dat V c).before_in_eq_fetched 0 rfl (fun _ => rfl) (fun _ _ _ => rfl)
    (fun t => by rw [after_0]; unfold Dat.blockOf blockAt; rw [dat_A]; try rfl) t d).trans
    (by unfold Dat.fetched Dat.blockOf blockAt; rw [dat_A]; try rfl)
theorem before_1 (c : Dev nD) (t : Fin cfg1.N) (d) : (dat V c).before 1 t d = blockAt V c 1 t :=
  ((dat V c).before_in_eq_fetched 1 rfl (fun _ => rfl) (fun _ _ _ => rfl)
    (fun t => by rw [after_1]; unfold Dat.blockOf blockAt; rw [dat_A]; try rfl) t d).trans
    (by unfold Dat.fetched Dat.blockOf blockAt; rw [dat_A]; try rfl)
theorem before_2 (c : Dev nD) (t : Fin cfg1.N) (d) : (dat V c).before 2 t d = blockAt V c 2 t :=
  ((dat V c).before_in_eq_fetched 2 rfl (fun _ => rfl) (fun _ _ _ => rfl)
    (fun t => by rw [after_2]; unfold Dat.blockOf blockAt; rw [dat_A]; try rfl) t d).trans
    (by unfold Dat.fetched Dat.blockOf blockAt; rw [dat_A]; try rfl)
theorem before_3 (c : Dev nD) (t : Fin cfg1.N) (d) : (dat V c).before 3 t d = blockAt V c 3 t :=
  ((dat V c).before_in_eq_fetched 3 rfl (fun _ => rfl) (fun _ _ _ => rfl)
    (fun t => by rw [after_3]; unfold Dat.blockOf blockAt; rw [dat_A]; try rfl) t d).trans
    (by unfold Dat.fetched Dat.blockOf blockAt; rw [dat_A]; try rfl)
theorem before_4 (c : Dev nD) (t : Fin cfg1.N) (d) : (dat V c).before 4 t d = blockAt V c 4 t :=
  ((dat V c).before_in_eq_fetched 4 rfl (fun _ => rfl) (fun _ _ _ => rfl)
    (fun t => by rw [after_4]; unfold Dat.blockOf blockAt; rw [dat_A]; try rfl) t d).trans
    (by unfold Dat.fetched Dat.blockOf blockAt; rw [dat_A]; try rfl)
theorem before_5 (c : Dev nD) (t : Fin cfg1.N) (d) : (dat V c).before 5 t d = blockAt V c 5 t :=
  ((dat V c).before_in_eq_fetched 5 rfl (fun _ => rfl) (fun _ _ _ => rfl)
    (fun t => by rw [after_5]; unfold Dat.blockOf blockAt; rw [dat_A]; try rfl) t d).trans
    (by unfold Dat.fetched Dat.blockOf blockAt; rw [dat_A]; try rfl)

/-! ## The body at a point -/

theorem leaves_0 (c : Dev nD) (t : Fin cfg1.N) :
    (dat V c).leavesExact 0 t = owns (c : Thread nD τ) (st1_0 t) fullShare (blockAt V c 0 t) := by
  unfold Dat.leavesExact; rw [show cfg1.idle 0 (cfg1.grid.coords t) = false from rfl, after_0]
theorem leaves_1 (c : Dev nD) (t : Fin cfg1.N) :
    (dat V c).leavesExact 1 t = owns (c : Thread nD τ) (st1_1 t) fullShare (blockAt V c 1 t) := by
  unfold Dat.leavesExact; rw [show cfg1.idle 1 (cfg1.grid.coords t) = false from rfl, after_1]
theorem leaves_2 (c : Dev nD) (t : Fin cfg1.N) :
    (dat V c).leavesExact 2 t = owns (c : Thread nD τ) (st1_2 t) fullShare (blockAt V c 2 t) := by
  unfold Dat.leavesExact; rw [show cfg1.idle 2 (cfg1.grid.coords t) = false from rfl, after_2]
theorem leaves_3 (c : Dev nD) (t : Fin cfg1.N) :
    (dat V c).leavesExact 3 t = owns (c : Thread nD τ) (st1_3 t) fullShare (blockAt V c 3 t) := by
  unfold Dat.leavesExact; rw [show cfg1.idle 3 (cfg1.grid.coords t) = false from rfl, after_3]
theorem leaves_4 (c : Dev nD) (t : Fin cfg1.N) :
    (dat V c).leavesExact 4 t = owns (c : Thread nD τ) (st1_4 t) fullShare (blockAt V c 4 t) := by
  unfold Dat.leavesExact; rw [show cfg1.idle 4 (cfg1.grid.coords t) = false from rfl, after_4]
theorem leaves_5 (c : Dev nD) (t : Fin cfg1.N) :
    (dat V c).leavesExact 5 t = owns (c : Thread nD τ) (st1_5 t) fullShare (blockAt V c 5 t) := by
  unfold Dat.leavesExact; rw [show cfg1.idle 5 (cfg1.grid.coords t) = false from rfl, after_5]
theorem leaves_6_last (c : Dev nD) (t : Fin cfg1.N) (h3 : t.val % 4 = 3) :
    (dat V c).leavesExact 6 t = owns (c : Thread nD τ) (st1_6 t) fullShare ((dat V c).after 6 t) := by
  unfold Dat.leavesExact; rw [live_6 t h3]
theorem leaves_7_last (c : Dev nD) (t : Fin cfg1.N) (h3 : t.val % 4 = 3) :
    (dat V c).leavesExact 7 t = owns (c : Thread nD τ) (st1_7 t) fullShare ((dat V c).after 7 t) := by
  unfold Dat.leavesExact; rw [live_7 t h3]
theorem leaves_8_last (c : Dev nD) (t : Fin cfg1.N) (h3 : t.val % 4 = 3) :
    (dat V c).leavesExact 8 t = owns (c : Thread nD τ) (st1_8 t) fullShare ((dat V c).after 8 t) := by
  unfold Dat.leavesExact; rw [live_8 t h3]

set_option maxHeartbeats 4000000 in
/-- The body at point t, from what the pipeline hands it to what it must leave: the chunk coordinate
    says which of the body's three triples applies; the invariant hands over the accumulator at what
    the point before left (at anything before the first point) and takes it back at this point's. -/
theorem at_point (c : Dev nD) (t : Fin cfg1.N) :
    iprop((dat V c).Φ t.castSucc ∗ (dat V c).owesAt () t.castSucc
      ∗ (∃ d, owns (c : Thread nD τ) (st1_0 t) fullShare ((dat V c).before 0 t d))
      ∗ (∃ d, owns (c : Thread nD τ) (st1_1 t) fullShare ((dat V c).before 1 t d))
      ∗ (∃ d, owns (c : Thread nD τ) (st1_2 t) fullShare ((dat V c).before 2 t d))
      ∗ (∃ d, owns (c : Thread nD τ) (st1_3 t) fullShare ((dat V c).before 3 t d))
      ∗ (∃ d, owns (c : Thread nD τ) (st1_4 t) fullShare ((dat V c).before 4 t d))
      ∗ (∃ d, owns (c : Thread nD τ) (st1_5 t) fullShare ((dat V c).before 5 t d))
      ∗ (∃ d, owns (c : Thread nD τ) (st1_6 t) fullShare ((dat V c).before 6 t d))
      ∗ (∃ d, owns (c : Thread nD τ) (st1_7 t) fullShare ((dat V c).before 7 t d))
      ∗ (∃ d, owns (c : Thread nD τ) (st1_8 t) fullShare ((dat V c).before 8 t d)))
    ⊢ wp frame (wpE (defs₀ (F := F)) Variants.none c none) Set.univ (bodyAt1 t) (fun _ =>
        (iprop((dat V c).Φ t.succ ∗ (dat V c).owesAt () t.succ
          ∗ (dat V c).leavesExact 0 t
          ∗ (dat V c).leavesExact 1 t
          ∗ (dat V c).leavesExact 2 t
          ∗ (dat V c).leavesExact 3 t
          ∗ (dat V c).leavesExact 4 t
          ∗ (dat V c).leavesExact 5 t
          ∗ (dat V c).leavesExact 6 t
          ∗ (dat V c).leavesExact 7 t
          ∗ (dat V c).leavesExact 8 t) : sProp 𝕄)) := by
  unfold bodyAt1
  simp only [before_0, before_1, before_2, before_3, before_4, before_5]
  rw [show (dat V c).owesAt () t.succ = (dat V c).owesAt () t.castSucc from rfl]
  rw [show (dat V c).Φ t.succ = accInv V c (t.val + 1) t.isLt from rfl, accInv_succ]
  rw [leaves_0, leaves_1, leaves_2, leaves_3, leaves_4, leaves_5]
  have hN : t.val < 128 := lt_of_lt_of_eq t.isLt (show cfg1.N = 128 from N_1)
  have hk := chunk_of t
  by_cases h0 : t.val % 4 = 0
  · have h3 : t.val % 4 ≠ 3 := by omega
    rw [Dat.leavesExact_idle (dat V c) 6 t (idle_6 t h3) (keep_6 t h3), Dat.leavesExact_idle (dat V c) 7 t (idle_7 t h3) (keep_7 t h3), Dat.leavesExact_idle (dat V c) 8 t (idle_8 t h3) (keep_8 t h3)]
    rw [accAt_first V c t h0]
    by_cases hz : t.val = 0
    · rw [Phi_castSucc, accInv_zero V c _ _ hz, PhiA_eq]; unfold scopedWith
      iintro ⟨⟨⟨G0, G1, G2, G3, G4, G5, G6, G7, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (Body.dense_first c Set.univ (grid1.coords t) _ _ _ _ _ _ _ _ _ _ _ _ _ _ _ _ _ _ _ _ (by rw [hk]; exact h0) (blockAt V c 0 t) (blockAt V c 1 t) (blockAt V c 2 t) (blockAt V c 3 t) (blockAt V c 4 t) (blockAt V c 5 t) _ _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS]; · iexact HS
      iintro ⟨H0, H1, H2, H3, H4, H5, H6, H7, H8, HS⟩
      isplitl [G0 G1 G2 G3 G4 G5 G6 G7 HS Hg]
      · isplitl [G0 G1 G2 G3 G4 G5 G6 G7 HS]
        · isplitl [G0]; · iexact G0
          isplitl [G1]; · iexact G1
          isplitl [G2]; · iexact G2
          isplitl [G3]; · iexact G3
          isplitl [G4]; · iexact G4
          isplitl [G5]; · iexact G5
          isplitl [G6]; · iexact G6
          isplitl [G7]; · iexact G7
          iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      iexists _; iexact H8
    · rw [Phi_castSucc, accInv_pos V c _ _ hz]; unfold scopedWith
      iintro ⟨⟨⟨G0, G1, G2, G3, G4, G5, G6, G7, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (Body.dense_first c Set.univ (grid1.coords t) _ _ _ _ _ _ _ _ _ _ _ _ _ _ _ _ _ _ _ _ (by rw [hk]; exact h0) (blockAt V c 0 t) (blockAt V c 1 t) (blockAt V c 2 t) (blockAt V c 3 t) (blockAt V c 4 t) (blockAt V c 5 t) _ _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS]; · iexists _; iexact HS
      iintro ⟨H0, H1, H2, H3, H4, H5, H6, H7, H8, HS⟩
      isplitl [G0 G1 G2 G3 G4 G5 G6 G7 HS Hg]
      · isplitl [G0 G1 G2 G3 G4 G5 G6 G7 HS]
        · isplitl [G0]; · iexact G0
          isplitl [G1]; · iexact G1
          isplitl [G2]; · iexact G2
          isplitl [G3]; · iexact G3
          isplitl [G4]; · iexact G4
          isplitl [G5]; · iexact G5
          isplitl [G6]; · iexact G6
          isplitl [G7]; · iexact G7
          iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      iexists _; iexact H8
  · have hz : t.val ≠ 0 := fun e => h0 (by rw [e])
    by_cases h3 : t.val % 4 = 3
    · rw [leaves_6_last V c t h3, leaves_7_last V c t h3, leaves_8_last V c t h3, after_6, after_7, after_8]
      rw [accAt_next V c t h0]
      rw [Phi_castSucc, accInv_pos V c _ _ hz]; unfold scopedWith
      iintro ⟨⟨⟨G0, G1, G2, G3, G4, G5, G6, G7, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (Body.dense_last c Set.univ (grid1.coords t) _ _ _ _ _ _ _ _ _ _ _ _ _ _ _ _ _ _ _ _ (by rw [hk]; exact h3) (blockAt V c 0 t) (blockAt V c 1 t) (blockAt V c 2 t) (blockAt V c 3 t) (blockAt V c 4 t) (blockAt V c 5 t) (accAt V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [HS]; · iexact HS
      iintro ⟨H0, H1, H2, H3, H4, H5, H6, H7, H8, HS⟩
      isplitl [G0 G1 G2 G3 G4 G5 G6 G7 HS Hg]
      · isplitl [G0 G1 G2 G3 G4 G5 G6 G7 HS]
        · isplitl [G0]; · iexact G0
          isplitl [G1]; · iexact G1
          isplitl [G2]; · iexact G2
          isplitl [G3]; · iexact G3
          isplitl [G4]; · iexact G4
          isplitl [G5]; · iexact G5
          isplitl [G6]; · iexact G6
          isplitl [G7]; · iexact G7
          iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · rw [Dat.leavesExact_idle (dat V c) 6 t (idle_6 t h3) (keep_6 t h3), Dat.leavesExact_idle (dat V c) 7 t (idle_7 t h3) (keep_7 t h3), Dat.leavesExact_idle (dat V c) 8 t (idle_8 t h3) (keep_8 t h3)]
      rw [accAt_next V c t h0]
      rw [Phi_castSucc, accInv_pos V c _ _ hz]; unfold scopedWith
      iintro ⟨⟨⟨G0, G1, G2, G3, G4, G5, G6, G7, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (Body.dense_mid c Set.univ (grid1.coords t) _ _ _ _ _ _ _ _ _ _ _ _ _ _ _ _ _ _ _ _ (by rw [hk]; exact h0) (by rw [hk]; exact h3) (blockAt V c 0 t) (blockAt V c 1 t) (blockAt V c 2 t) (blockAt V c 3 t) (blockAt V c 4 t) (blockAt V c 5 t) _ _ _ (accAt V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS]; · iexact HS
      iintro ⟨H0, H1, H2, H3, H4, H5, H6, H7, H8, HS⟩
      isplitl [G0 G1 G2 G3 G4 G5 G6 G7 HS Hg]
      · isplitl [G0 G1 G2 G3 G4 G5 G6 G7 HS]
        · isplitl [G0]; · iexact G0
          isplitl [G1]; · iexact G1
          isplitl [G2]; · iexact G2
          isplitl [G3]; · iexact G3
          isplitl [G4]; · iexact G4
          isplitl [G5]; · iexact G5
          isplitl [G6]; · iexact G6
          isplitl [G7]; · iexact G7
          iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      iexists _; iexact H8

/-- The pipeline's per-point obligation for the second region. -/
theorem obligation (c : Dev nD) : BodyObligation (dat (F := F) V c) (defs₀ (F := F)) Variants.none () Set.univ := fun t => by
  rw [bigSep_W1, bigSep_W1]
  exact at_point V c t

/-- What the launch hands the region is the invariant before the first point. -/
theorem inv_in (c : Dev nD) : Pipeline.ΦA spec1 c ⊢ (dat V c).Φ 0 := by
  rw [show (dat V c).Φ 0 = accInv V c 0 (Nat.zero_le _) from rfl, accInv_zero V c 0 _ rfl]
  try exact Idealize.SL.BI.Entails.refl _

/-- After the last point the invariant gives the scoped rest back, the accumulator's contents forgotten. -/
theorem inv_out (c : Dev nD) : (dat V c).Φ (Fin.last cfg1.N) ⊢ Pipeline.ΦA spec1 c := by
  rw [show (dat V c).Φ (Fin.last cfg1.N) = accInv V c (Fin.last cfg1.N).val (Nat.le_of_lt_succ (Fin.last cfg1.N).isLt) from rfl,
    accInv_pos V c _ _ (by rw [Fin.val_last]; have : cfg1.N = 128 := N_1; omega), PhiA_eq]
  unfold scopedWith
  iintro ⟨⟨G0, G1, G2, G3, G4, G5, G6, G7, HS⟩, Hg⟩
  isplitl [G0 G1 G2 G3 G4 G5 G6 G7 HS]
  · isplitl [G0]; · iexact G0
    isplitl [G1]; · iexact G1
    isplitl [G2]; · iexact G2
    isplitl [G3]; · iexact G3
    isplitl [G4]; · iexact G4
    isplitl [G5]; · iexact G5
    isplitl [G6]; · iexact G6
    isplitl [G7]; · iexact G7
    iexists _; iexact HS
  iexact Hg

end Cert.KernelIdeal.Dense

end
-- ==== Proof.MainRun.lean ====
/-
  The kernel's whole run. @main is three items in order: the spike region, two host operations (the
  weights rounded to bf16, the bias reshaped to a row), and the dense region. This module names the
  contents of every unscoped buffer at each boundary between items — the launch memory; then the first
  region's arrays at what its write-backs leave; then the two host operations applied; then the second
  region's arrays at what its write-backs leave —, gives each region as a segment between two such
  boundaries, and launches the list: every weakly fair execution terminates, nothing faults, and every
  unscoped buffer ends at the last boundary's contents. Each argument array is then read back through
  the boundaries to its launch contents: no item writes one.
-/
import proofs.«166087_j40707700031715_2_alg».proof.Proof.Gen.KernelIdeal.Launch
import proofs.«166087_j40707700031715_2_alg».proof.Proof.Gen.KernelIdeal.Skeleton
import proofs.«166087_j40707700031715_2_alg».proof.Proof.Gen.KernelIdeal.Points
import proofs.«166087_j40707700031715_2_alg».proof.Proof.SpikeRegion
import proofs.«166087_j40707700031715_2_alg».proof.Proof.DenseRegion
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the boundaries -/

/-- At launch. -/
abbrev atLaunch : Dev nD → Valuation τ sig (Elt F) := fun c b => (s₀ m ρ).mem ((c : Dev nD), b)
/-- The same, read at the TensorCore's references: what the spike region finds. -/
abbrev enterSpike : (c : Dev nD) → (b : Ref sig .tc) → Buf (Elt F) ((c : Thread nD τ).loc b) := fun c b => atLaunch m ρ c b
/-- After the spike region: its arrays at what the pipeline leaves, every other buffer as before. -/
def afterSpike (c : Dev nD) : Valuation τ sig (Elt F) :=
  Pipeline.withArrays spec0 c (atLaunch m ρ c) fun w => (Spike.dat (enterSpike m ρ) c).arrAt w cfg0.N
theorem afterSpike_arr (c : Dev nD) (w : Fin cfg0.W) :
    afterSpike m ρ c (Proc.devRef .tc (Pipeline.arrRef spec0 w)) = (Spike.dat (enterSpike m ρ) c).arrAt w cfg0.N := by
  unfold afterSpike; exact Pipeline.withArrays_arr spec0 launch0.win.arr_inj c _ _ w
theorem afterSpike_of_ne (c : Dev nD) (b : Ref sig .tc) (hb : ∀ w, Pipeline.arrRef spec0 w ≠ b) :
    afterSpike m ρ c (Proc.devRef .tc b) = atLaunch m ρ c (Proc.devRef .tc b) := by
  unfold afterSpike; exact Pipeline.withArrays_of_ne spec0 c _ _ b hb
abbrev leaveSpike : (c : Dev nD) → (b : Ref sig .tc) → Buf (Elt F) ((c : Thread nD τ).loc b) := fun c b => afterSpike m ρ c b
theorem leaveSpike_arr' (c : Dev nD) (w : Fin cfg0.W) :
    (Spike.dat (enterSpike m ρ) c).arrAt w cfg0.N = leaveSpike m ρ c (Pipeline.arrRef spec0 w) := (afterSpike_arr m ρ c w).symm
theorem leaveSpike_rest (c : Dev nD) : ∀ b, b ∉ Finset.univ.image (Pipeline.arrRef spec0) → leaveSpike m ρ c b = enterSpike m ρ c b :=
  fun b hb => afterSpike_of_ne m ρ c b fun w e => hb (Finset.mem_image.mpr ⟨w, Finset.mem_univ _, e⟩)

/-- After the two host operations: what the dense region finds. -/
abbrev beforeDense : Dev nD → Valuation τ sig (Elt F) := fun c => StableHlo.after hostOps1 (afterSpike m ρ c)
abbrev enterDense : (c : Dev nD) → (b : Ref sig .tc) → Buf (Elt F) ((c : Thread nD τ).loc b) := fun c b => beforeDense m ρ c b

theorem hostOps1_allocs_none : (hostOps1 : List (HloOp τ sig (Elt F))).Forall fun op => op.fresh = ∅ := by
  simp only [List.Forall]; repeat' constructor
/-- The two host operations write only their own results. -/
theorem hostOps1_write : (hostOps1 : List (HloOp τ sig (Elt F))).Forall fun op => op.writes ⊆ (([main_v1, main_v2] : List (Ref sig .tc)).map (Proc.devRef (τ := τ) .tc)).toFinset := by
  simp only [List.Forall]
  exact ⟨by simp only [StableHlo.unary_writes, StableHlo.reshape_writes, Finset.singleton_subset_iff, List.mem_toFinset]; exact List.mem_map_of_mem (by decide),
    by simp only [StableHlo.unary_writes, StableHlo.reshape_writes, Finset.singleton_subset_iff, List.mem_toFinset]; exact List.mem_map_of_mem (by decide)⟩
theorem beforeDense_of (c : Dev nD) (r : Ref sig .tc) (h : r ∉ ([main_v1, main_v2] : List (Ref sig .tc))) :
    beforeDense m ρ c (Proc.devRef .tc r) = afterSpike m ρ c (Proc.devRef .tc r) :=
  StableHlo.after_of_writes_sub hostOps1 _ (hostOps1_write) h

/-- After the dense region: its arrays at what the pipeline leaves, every other buffer as before. -/
def atEnd (c : Dev nD) : Valuation τ sig (Elt F) :=
  Pipeline.withArrays spec1 c (beforeDense m ρ c) fun w => (Dense.dat (enterDense m ρ) c).arrAt w cfg1.N
theorem atEnd_arr (c : Dev nD) (w : Fin cfg1.W) :
    atEnd m ρ c (Proc.devRef .tc (Pipeline.arrRef spec1 w)) = (Dense.dat (enterDense m ρ) c).arrAt w cfg1.N := by
  unfold atEnd; exact Pipeline.withArrays_arr spec1 launch1.win.arr_inj c _ _ w
theorem atEnd_of_ne (c : Dev nD) (b : Ref sig .tc) (hb : ∀ w, Pipeline.arrRef spec1 w ≠ b) :
    atEnd m ρ c (Proc.devRef .tc b) = beforeDense m ρ c (Proc.devRef .tc b) := by
  unfold atEnd; exact Pipeline.withArrays_of_ne spec1 c _ _ b hb
abbrev leaveDense : (c : Dev nD) → (b : Ref sig .tc) → Buf (Elt F) ((c : Thread nD τ).loc b) := fun c b => atEnd m ρ c b
theorem leaveDense_arr' (c : Dev nD) (w : Fin cfg1.W) :
    (Dense.dat (enterDense m ρ) c).arrAt w cfg1.N = leaveDense m ρ c (Pipeline.arrRef spec1 w) := (atEnd_arr m ρ c w).symm
theorem leaveDense_rest (c : Dev nD) : ∀ b, b ∉ Finset.univ.image (Pipeline.arrRef spec1) → leaveDense m ρ c b = enterDense m ρ c b :=
  fun b hb => atEnd_of_ne m ρ c b fun w e => hb (Finset.mem_image.mpr ⟨w, Finset.mem_univ _, e⟩)

/-! ## No item writes an argument -/

theorem atEnd_arg0 (c : Dev nD) : atEnd m ρ c (Proc.devRef .tc main_arg0) = m ((c : Thread nD τ).loc main_arg0) :=
  calc atEnd m ρ c (Proc.devRef .tc main_arg0)
    _ = beforeDense m ρ c (Proc.devRef .tc main_arg0) := atEnd_of_ne m ρ c main_arg0 (by decide)
    _ = afterSpike m ρ c (Proc.devRef .tc main_arg0) := beforeDense_of m ρ c main_arg0 (by decide)
    _ = atLaunch m ρ c (Proc.devRef .tc main_arg0) := afterSpike_of_ne m ρ c main_arg0 (by decide)
    _ = m ((c : Thread nD τ).loc main_arg0) := rfl
theorem atEnd_arg1 (c : Dev nD) : atEnd m ρ c (Proc.devRef .tc main_arg1) = m ((c : Thread nD τ).loc main_arg1) :=
  calc atEnd m ρ c (Proc.devRef .tc main_arg1)
    _ = beforeDense m ρ c (Proc.devRef .tc main_arg1) := atEnd_of_ne m ρ c main_arg1 (by decide)
    _ = afterSpike m ρ c (Proc.devRef .tc main_arg1) := beforeDense_of m ρ c main_arg1 (by decide)
    _ = atLaunch m ρ c (Proc.devRef .tc main_arg1) := afterSpike_of_ne m ρ c main_arg1 (by decide)
    _ = m ((c : Thread nD τ).loc main_arg1) := rfl
theorem atEnd_arg2 (c : Dev nD) : atEnd m ρ c (Proc.devRef .tc main_arg2) = m ((c : Thread nD τ).loc main_arg2) :=
  calc atEnd m ρ c (Proc.devRef .tc main_arg2)
    _ = beforeDense m ρ c (Proc.devRef .tc main_arg2) := atEnd_of_ne m ρ c main_arg2 (by decide)
    _ = afterSpike m ρ c (Proc.devRef .tc main_arg2) := beforeDense_of m ρ c main_arg2 (by decide)
    _ = atLaunch m ρ c (Proc.devRef .tc main_arg2) := afterSpike_of_ne m ρ c main_arg2 (by decide)
    _ = m ((c : Thread nD τ).loc main_arg2) := rfl
theorem atEnd_arg3 (c : Dev nD) : atEnd m ρ c (Proc.devRef .tc main_arg3) = m ((c : Thread nD τ).loc main_arg3) :=
  calc atEnd m ρ c (Proc.devRef .tc main_arg3)
    _ = beforeDense m ρ c (Proc.devRef .tc main_arg3) := atEnd_of_ne m ρ c main_arg3 (by decide)
    _ = afterSpike m ρ c (Proc.devRef .tc main_arg3) := beforeDense_of m ρ c main_arg3 (by decide)
    _ = atLaunch m ρ c (Proc.devRef .tc main_arg3) := afterSpike_of_ne m ρ c main_arg3 (by decide)
    _ = m ((c : Thread nD τ).loc main_arg3) := rfl
theorem atEnd_arg4 (c : Dev nD) : atEnd m ρ c (Proc.devRef .tc main_arg4) = m ((c : Thread nD τ).loc main_arg4) :=
  calc atEnd m ρ c (Proc.devRef .tc main_arg4)
    _ = beforeDense m ρ c (Proc.devRef .tc main_arg4) := atEnd_of_ne m ρ c main_arg4 (by decide)
    _ = afterSpike m ρ c (Proc.devRef .tc main_arg4) := beforeDense_of m ρ c main_arg4 (by decide)
    _ = atLaunch m ρ c (Proc.devRef .tc main_arg4) := afterSpike_of_ne m ρ c main_arg4 (by decide)
    _ = m ((c : Thread nD τ).loc main_arg4) := rfl
theorem atEnd_arg5 (c : Dev nD) : atEnd m ρ c (Proc.devRef .tc main_arg5) = m ((c : Thread nD τ).loc main_arg5) :=
  calc atEnd m ρ c (Proc.devRef .tc main_arg5)
    _ = beforeDense m ρ c (Proc.devRef .tc main_arg5) := atEnd_of_ne m ρ c main_arg5 (by decide)
    _ = afterSpike m ρ c (Proc.devRef .tc main_arg5) := beforeDense_of m ρ c main_arg5 (by decide)
    _ = atLaunch m ρ c (Proc.devRef .tc main_arg5) := afterSpike_of_ne m ρ c main_arg5 (by decide)
    _ = m ((c : Thread nD τ).loc main_arg5) := rfl
theorem atEnd_arg6 (c : Dev nD) : atEnd m ρ c (Proc.devRef .tc main_arg6) = m ((c : Thread nD τ).loc main_arg6) :=
  calc atEnd m ρ c (Proc.devRef .tc main_arg6)
    _ = beforeDense m ρ c (Proc.devRef .tc main_arg6) := atEnd_of_ne m ρ c main_arg6 (by decide)
    _ = afterSpike m ρ c (Proc.devRef .tc main_arg6) := beforeDense_of m ρ c main_arg6 (by decide)
    _ = atLaunch m ρ c (Proc.devRef .tc main_arg6) := afterSpike_of_ne m ρ c main_arg6 (by decide)
    _ = m ((c : Thread nD τ).loc main_arg6) := rfl
theorem atEnd_arg7 (c : Dev nD) : atEnd m ρ c (Proc.devRef .tc main_arg7) = m ((c : Thread nD τ).loc main_arg7) :=
  calc atEnd m ρ c (Proc.devRef .tc main_arg7)
    _ = beforeDense m ρ c (Proc.devRef .tc main_arg7) := atEnd_of_ne m ρ c main_arg7 (by decide)
    _ = afterSpike m ρ c (Proc.devRef .tc main_arg7) := beforeDense_of m ρ c main_arg7 (by decide)
    _ = atLaunch m ρ c (Proc.devRef .tc main_arg7) := afterSpike_of_ne m ρ c main_arg7 (by decide)
    _ = m ((c : Thread nD τ).loc main_arg7) := rfl
theorem atEnd_arg8 (c : Dev nD) : atEnd m ρ c (Proc.devRef .tc main_arg8) = m ((c : Thread nD τ).loc main_arg8) :=
  calc atEnd m ρ c (Proc.devRef .tc main_arg8)
    _ = beforeDense m ρ c (Proc.devRef .tc main_arg8) := atEnd_of_ne m ρ c main_arg8 (by decide)
    _ = afterSpike m ρ c (Proc.devRef .tc main_arg8) := beforeDense_of m ρ c main_arg8 (by decide)
    _ = atLaunch m ρ c (Proc.devRef .tc main_arg8) := afterSpike_of_ne m ρ c main_arg8 (by decide)
    _ = m ((c : Thread nD τ).loc main_arg8) := rfl
theorem atEnd_arg9 (c : Dev nD) : atEnd m ρ c (Proc.devRef .tc main_arg9) = m ((c : Thread nD τ).loc main_arg9) :=
  calc atEnd m ρ c (Proc.devRef .tc main_arg9)
    _ = beforeDense m ρ c (Proc.devRef .tc main_arg9) := atEnd_of_ne m ρ c main_arg9 (by decide)
    _ = afterSpike m ρ c (Proc.devRef .tc main_arg9) := beforeDense_of m ρ c main_arg9 (by decide)
    _ = atLaunch m ρ c (Proc.devRef .tc main_arg9) := afterSpike_of_ne m ρ c main_arg9 (by decide)
    _ = m ((c : Thread nD τ).loc main_arg9) := rfl
theorem atEnd_arg10 (c : Dev nD) : atEnd m ρ c (Proc.devRef .tc main_arg10) = m ((c : Thread nD τ).loc main_arg10) :=
  calc atEnd m ρ c (Proc.devRef .tc main_arg10)
    _ = beforeDense m ρ c (Proc.devRef .tc main_arg10) := atEnd_of_ne m ρ c main_arg10 (by decide)
    _ = afterSpike m ρ c (Proc.devRef .tc main_arg10) := beforeDense_of m ρ c main_arg10 (by decide)
    _ = atLaunch m ρ c (Proc.devRef .tc main_arg10) := afterSpike_of_ne m ρ c main_arg10 (by decide)
    _ = m ((c : Thread nD τ).loc main_arg10) := rfl
theorem atEnd_arg11 (c : Dev nD) : atEnd m ρ c (Proc.devRef .tc main_arg11) = m ((c : Thread nD τ).loc main_arg11) :=
  calc atEnd m ρ c (Proc.devRef .tc main_arg11)
    _ = beforeDense m ρ c (Proc.devRef .tc main_arg11) := atEnd_of_ne m ρ c main_arg11 (by decide)
    _ = afterSpike m ρ c (Proc.devRef .tc main_arg11) := beforeDense_of m ρ c main_arg11 (by decide)
    _ = atLaunch m ρ c (Proc.devRef .tc main_arg11) := afterSpike_of_ne m ρ c main_arg11 (by decide)
    _ = m ((c : Thread nD τ).loc main_arg11) := rfl
theorem atEnd_arg12 (c : Dev nD) : atEnd m ρ c (Proc.devRef .tc main_arg12) = m ((c : Thread nD τ).loc main_arg12) :=
  calc atEnd m ρ c (Proc.devRef .tc main_arg12)
    _ = beforeDense m ρ c (Proc.devRef .tc main_arg12) := atEnd_of_ne m ρ c main_arg12 (by decide)
    _ = afterSpike m ρ c (Proc.devRef .tc main_arg12) := beforeDense_of m ρ c main_arg12 (by decide)
    _ = atLaunch m ρ c (Proc.devRef .tc main_arg12) := afterSpike_of_ne m ρ c main_arg12 (by decide)
    _ = m ((c : Thread nD τ).loc main_arg12) := rfl
theorem atEnd_arg13 (c : Dev nD) : atEnd m ρ c (Proc.devRef .tc main_arg13) = m ((c : Thread nD τ).loc main_arg13) :=
  calc atEnd m ρ c (Proc.devRef .tc main_arg13)
    _ = beforeDense m ρ c (Proc.devRef .tc main_arg13) := atEnd_of_ne m ρ c main_arg13 (by decide)
    _ = afterSpike m ρ c (Proc.devRef .tc main_arg13) := beforeDense_of m ρ c main_arg13 (by decide)
    _ = atLaunch m ρ c (Proc.devRef .tc main_arg13) := afterSpike_of_ne m ρ c main_arg13 (by decide)
    _ = m ((c : Thread nD τ).loc main_arg13) := rfl
theorem atEnd_arg14 (c : Dev nD) : atEnd m ρ c (Proc.devRef .tc main_arg14) = m ((c : Thread nD τ).loc main_arg14) :=
  calc atEnd m ρ c (Proc.devRef .tc main_arg14)
    _ = beforeDense m ρ c (Proc.devRef .tc main_arg14) := atEnd_of_ne m ρ c main_arg14 (by decide)
    _ = afterSpike m ρ c (Proc.devRef .tc main_arg14) := beforeDense_of m ρ c main_arg14 (by decide)
    _ = atLaunch m ρ c (Proc.devRef .tc main_arg14) := afterSpike_of_ne m ρ c main_arg14 (by decide)
    _ = m ((c : Thread nD τ).loc main_arg14) := rfl
theorem atEnd_arg15 (c : Dev nD) : atEnd m ρ c (Proc.devRef .tc main_arg15) = m ((c : Thread nD τ).loc main_arg15) :=
  calc atEnd m ρ c (Proc.devRef .tc main_arg15)
    _ = beforeDense m ρ c (Proc.devRef .tc main_arg15) := atEnd_of_ne m ρ c main_arg15 (by decide)
    _ = afterSpike m ρ c (Proc.devRef .tc main_arg15) := beforeDense_of m ρ c main_arg15 (by decide)
    _ = atLaunch m ρ c (Proc.devRef .tc main_arg15) := afterSpike_of_ne m ρ c main_arg15 (by decide)
    _ = m ((c : Thread nD τ).loc main_arg15) := rfl
theorem atEnd_arg16 (c : Dev nD) : atEnd m ρ c (Proc.devRef .tc main_arg16) = m ((c : Thread nD τ).loc main_arg16) :=
  calc atEnd m ρ c (Proc.devRef .tc main_arg16)
    _ = beforeDense m ρ c (Proc.devRef .tc main_arg16) := atEnd_of_ne m ρ c main_arg16 (by decide)
    _ = afterSpike m ρ c (Proc.devRef .tc main_arg16) := beforeDense_of m ρ c main_arg16 (by decide)
    _ = atLaunch m ρ c (Proc.devRef .tc main_arg16) := afterSpike_of_ne m ρ c main_arg16 (by decide)
    _ = m ((c : Thread nD τ).loc main_arg16) := rfl
theorem atEnd_arg17 (c : Dev nD) : atEnd m ρ c (Proc.devRef .tc main_arg17) = m ((c : Thread nD τ).loc main_arg17) :=
  calc atEnd m ρ c (Proc.devRef .tc main_arg17)
    _ = beforeDense m ρ c (Proc.devRef .tc main_arg17) := atEnd_of_ne m ρ c main_arg17 (by decide)
    _ = afterSpike m ρ c (Proc.devRef .tc main_arg17) := beforeDense_of m ρ c main_arg17 (by decide)
    _ = (Spike.dat (enterSpike m ρ) c).arrAt 0 cfg0.N := afterSpike_arr m ρ c 0
    _ = atLaunch m ρ c (Proc.devRef .tc main_arg17) := ((Spike.dat (enterSpike m ρ) c).arrAt_in 0 rfl _).trans (Spike.dat_A (enterSpike m ρ) c 0)
    _ = m ((c : Thread nD τ).loc main_arg17) := rfl
theorem atEnd_arg18 (c : Dev nD) : atEnd m ρ c (Proc.devRef .tc main_arg18) = m ((c : Thread nD τ).loc main_arg18) :=
  calc atEnd m ρ c (Proc.devRef .tc main_arg18)
    _ = beforeDense m ρ c (Proc.devRef .tc main_arg18) := atEnd_of_ne m ρ c main_arg18 (by decide)
    _ = afterSpike m ρ c (Proc.devRef .tc main_arg18) := beforeDense_of m ρ c main_arg18 (by decide)
    _ = (Spike.dat (enterSpike m ρ) c).arrAt 1 cfg0.N := afterSpike_arr m ρ c 1
    _ = atLaunch m ρ c (Proc.devRef .tc main_arg18) := ((Spike.dat (enterSpike m ρ) c).arrAt_in 1 rfl _).trans (Spike.dat_A (enterSpike m ρ) c 1)
    _ = m ((c : Thread nD τ).loc main_arg18) := rfl
theorem atEnd_arg19 (c : Dev nD) : atEnd m ρ c (Proc.devRef .tc main_arg19) = m ((c : Thread nD τ).loc main_arg19) :=
  calc atEnd m ρ c (Proc.devRef .tc main_arg19)
    _ = beforeDense m ρ c (Proc.devRef .tc main_arg19) := atEnd_of_ne m ρ c main_arg19 (by decide)
    _ = afterSpike m ρ c (Proc.devRef .tc main_arg19) := beforeDense_of m ρ c main_arg19 (by decide)
    _ = (Spike.dat (enterSpike m ρ) c).arrAt 2 cfg0.N := afterSpike_arr m ρ c 2
    _ = atLaunch m ρ c (Proc.devRef .tc main_arg19) := ((Spike.dat (enterSpike m ρ) c).arrAt_in 2 rfl _).trans (Spike.dat_A (enterSpike m ρ) c 2)
    _ = m ((c : Thread nD τ).loc main_arg19) := rfl
theorem atEnd_arg20 (c : Dev nD) : atEnd m ρ c (Proc.devRef .tc main_arg20) = m ((c : Thread nD τ).loc main_arg20) :=
  calc atEnd m ρ c (Proc.devRef .tc main_arg20)
    _ = beforeDense m ρ c (Proc.devRef .tc main_arg20) := atEnd_of_ne m ρ c main_arg20 (by decide)
    _ = afterSpike m ρ c (Proc.devRef .tc main_arg20) := beforeDense_of m ρ c main_arg20 (by decide)
    _ = atLaunch m ρ c (Proc.devRef .tc main_arg20) := afterSpike_of_ne m ρ c main_arg20 (by decide)
    _ = m ((c : Thread nD τ).loc main_arg20) := rfl
theorem atEnd_arg21 (c : Dev nD) : atEnd m ρ c (Proc.devRef .tc main_arg21) = m ((c : Thread nD τ).loc main_arg21) :=
  calc atEnd m ρ c (Proc.devRef .tc main_arg21)
    _ = beforeDense m ρ c (Proc.devRef .tc main_arg21) := atEnd_of_ne m ρ c main_arg21 (by decide)
    _ = afterSpike m ρ c (Proc.devRef .tc main_arg21) := beforeDense_of m ρ c main_arg21 (by decide)
    _ = atLaunch m ρ c (Proc.devRef .tc main_arg21) := afterSpike_of_ne m ρ c main_arg21 (by decide)
    _ = m ((c : Thread nD τ).loc main_arg21) := rfl
theorem atEnd_arg22 (c : Dev nD) : atEnd m ρ c (Proc.devRef .tc main_arg22) = m ((c : Thread nD τ).loc main_arg22) :=
  calc atEnd m ρ c (Proc.devRef .tc main_arg22)
    _ = (Dense.dat (enterDense m ρ) c).arrAt 3 cfg1.N := atEnd_arr m ρ c 3
    _ = beforeDense m ρ c (Proc.devRef .tc main_arg22) := ((Dense.dat (enterDense m ρ) c).arrAt_in 3 rfl _).trans (Dense.dat_A (enterDense m ρ) c 3)
    _ = afterSpike m ρ c (Proc.devRef .tc main_arg22) := beforeDense_of m ρ c main_arg22 (by decide)
    _ = atLaunch m ρ c (Proc.devRef .tc main_arg22) := afterSpike_of_ne m ρ c main_arg22 (by decide)
    _ = m ((c : Thread nD τ).loc main_arg22) := rfl
theorem atEnd_arg23 (c : Dev nD) : atEnd m ρ c (Proc.devRef .tc main_arg23) = m ((c : Thread nD τ).loc main_arg23) :=
  calc atEnd m ρ c (Proc.devRef .tc main_arg23)
    _ = (Dense.dat (enterDense m ρ) c).arrAt 4 cfg1.N := atEnd_arr m ρ c 4
    _ = beforeDense m ρ c (Proc.devRef .tc main_arg23) := ((Dense.dat (enterDense m ρ) c).arrAt_in 4 rfl _).trans (Dense.dat_A (enterDense m ρ) c 4)
    _ = afterSpike m ρ c (Proc.devRef .tc main_arg23) := beforeDense_of m ρ c main_arg23 (by decide)
    _ = atLaunch m ρ c (Proc.devRef .tc main_arg23) := afterSpike_of_ne m ρ c main_arg23 (by decide)
    _ = m ((c : Thread nD τ).loc main_arg23) := rfl
theorem atEnd_arg24 (c : Dev nD) : atEnd m ρ c (Proc.devRef .tc main_arg24) = m ((c : Thread nD τ).loc main_arg24) :=
  calc atEnd m ρ c (Proc.devRef .tc main_arg24)
    _ = (Dense.dat (enterDense m ρ) c).arrAt 5 cfg1.N := atEnd_arr m ρ c 5
    _ = beforeDense m ρ c (Proc.devRef .tc main_arg24) := ((Dense.dat (enterDense m ρ) c).arrAt_in 5 rfl _).trans (Dense.dat_A (enterDense m ρ) c 5)
    _ = afterSpike m ρ c (Proc.devRef .tc main_arg24) := beforeDense_of m ρ c main_arg24 (by decide)
    _ = atLaunch m ρ c (Proc.devRef .tc main_arg24) := afterSpike_of_ne m ρ c main_arg24 (by decide)
    _ = m ((c : Thread nD τ).loc main_arg24) := rfl

/-! ## The proof data family, and what rides beside the buffers -/

abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => Spike.dat (enterSpike m ρ) c
  | ⟨1, _⟩ => fun c => Dense.dat (enterDense m ρ) c
abbrev 𝒱₀ : Variants := Variants.none
abbrev L : GSem nD τ sig → Finset Unit := fun _ => ∅
abbrev lv : GSem nD τ sig → Unit → ℕ := fun _ _ => 0
/-- Beside the buffers through every item: the generator register at some state, and the core owing nothing. -/
abbrev riding (c : Dev nD) : sProp 𝕄 := iprop((∃ r, prngReg c r) ∗ ∃ W, owes (c : Thread nD τ) (0 : CellTallies nD τ sig Unit) W)
/-- The two host operations as a segment from the contents the spike region leaves. -/
abbrev hostItem : Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_allocs_none) op h) (afterSpike m ρ) riding
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owed tallies. -/
abbrev lastState (c : Dev nD) : sProp 𝕄 := iprop(StableHlo.held (c : Thread nD τ) (Pipeline.ucRefs τ sig) (atEnd m ρ c) ∗ ∃ r, prngReg c r)

/-! ## The regions as segments -/

set_option backward.isDefEq.respectTransparency.types false in
/-- Region 0 as a segment: entered with every unscoped buffer at the contents the segment before left,
    left with the region's arrays at what its write-backs leave and every other buffer as entered. Its
    arrays are split out of the unscoped buffers on entry and put back on exit; the generator register
    goes into the region's invariant and comes back; nothing is owed; the kernel has no semaphore of
    its own. -/
def region0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Spike.obligation (enterSpike m ρ) c).loose
  hwaits := Pipeline.hwaits_of_owed_zero _ _ _ _ L lv 0 fun _ _ => rfl
  pre c := iprop(StableHlo.held (c : Thread nD τ) (Pipeline.ucRefs τ sig) (atLaunch m ρ c) ∗ riding c)
  post c := iprop(StableHlo.held (c : Thread nD τ) (Pipeline.ucRefs τ sig) (afterSpike m ρ c) ∗ riding c)
  X c := iprop(∃ r, prngReg c r)
  Y c := iprop(∃ r, prngReg c r)
  Z c := Pipeline.unscopedRest (Ix := Unit) (Name := ℕ) (U := UR sig nD τ) (Lvl := ℕ) spec0 c (enterSpike m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (enterSpike m ρ c) fun _ => rfl
    rw [Pipeline.unscopedBufs_held] at hsplit
    iintro ⟨⟨Hbufs, Hgen, Howes⟩, -, -⟩
    ihave Hs := hsplit $$ Hbufs
    icases Hs with ⟨Harr, Hrest⟩
    imodintro
    isplitl [Harr]; · iexact Harr
    isplitr; · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hgen]; · iexact Hgen
    iexact Hrest
  hin c := by
    rw [show (pdats m ρ 0 c).Φ 0 = Pipeline.ΦA spec0 c from rfl]; unfold Pipeline.ΦA
    iintro ⟨Hgen, -, Hsc⟩
    isplitl [Hsc]; · iexact Hsc
    iexact Hgen
  hout c := by
    rw [Pipeline.ownSems0_none, show (pdats m ρ 0 c).Φ (Fin.last _) = Pipeline.ΦA spec0 c from rfl]; unfold Pipeline.ΦA
    iintro ⟨Hsc, Hgen⟩
    isplitl [Hgen]; · iexact Hgen
    isplitr; · iempintro
    iexact Hsc
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (enterSpike m ρ c) (leaveSpike m ρ c) ((pdats m ρ 0 c).arrAt · cfg0.N) (leaveSpike_arr' m ρ c) (leaveSpike_rest m ρ c)
    rw [Pipeline.unscopedBufs_held] at hjoin
    iintro ⟨Harr, Howes, Hgen, Hrest⟩
    imodintro
    isplitl [Harr Hrest]
    · iapply hjoin; isplitl [Harr] <;> iassumption
    isplitl [Hgen]; · iexact Hgen
    unfold Pipeline.Dat.owesAt Pipeline.owesWithin
    icases Howes with ⟨%W, -, Howes⟩; iexists W; iexact Howes

set_option backward.isDefEq.respectTransparency.types false in
/-- Region 1 as a segment: entered with every unscoped buffer at the contents the segment before left,
    left with the region's arrays at what its write-backs leave and every other buffer as entered. Its
    arrays are split out of the unscoped buffers on entry and put back on exit; the generator register
    goes into the region's invariant and comes back; nothing is owed; the kernel has no semaphore of
    its own. -/
def region1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Dense.obligation (enterDense m ρ) c).loose
  hwaits := Pipeline.hwaits_of_owed_zero _ _ _ _ L lv 1 fun _ _ => rfl
  pre c := iprop(StableHlo.held (c : Thread nD τ) (Pipeline.ucRefs τ sig) (beforeDense m ρ c) ∗ riding c)
  post c := iprop(lastState m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (enterDense m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (enterDense m ρ c) fun _ => rfl
    rw [Pipeline.unscopedBufs_held] at hsplit
    iintro ⟨⟨Hbufs, Hgen, Howes⟩, -, -⟩
    ihave Hs := hsplit $$ Hbufs
    icases Hs with ⟨Harr, Hrest⟩
    imodintro
    isplitl [Harr]; · iexact Harr
    isplitr; · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hgen]; · iexact Hgen
    iexact Hrest
  hin c := by
    rw [show (pdats m ρ 1 c).Φ 0 = Pipeline.ΦA spec1 c from rfl]; unfold Pipeline.ΦA
    iintro ⟨Hgen, -, Hsc⟩
    isplitl [Hsc]; · iexact Hsc
    iexact Hgen
  hout c := by
    rw [Pipeline.ownSems0_none]
    have hback : (Pipeline.ΦA spec1 c : sProp 𝕄) ⊢ iprop((∃ r, prngReg c r) ∗ emp ∗ Pipeline.scopedRest spec1 c) := by
      unfold Pipeline.ΦA
      iintro ⟨Hsc, Hgen⟩
      isplitl [Hgen]; · iexact Hgen
      isplitr; · iempintro
      iexact Hsc
    exact (Dense.inv_out (enterDense m ρ) c).trans hback
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (enterDense m ρ c) (leaveDense m ρ c) ((pdats m ρ 1 c).arrAt · cfg1.N) (leaveDense_arr' m ρ c) (leaveDense_rest m ρ c)
    rw [Pipeline.unscopedBufs_held] at hjoin
    iintro ⟨Harr, Howes, Hgen, Hrest⟩
    imodintro
    isplitl [Harr Hrest Hgen]
    · isplitl [Harr Hrest]
      · iapply hjoin; isplitl [Harr] <;> iassumption
      iexact Hgen
    unfold Pipeline.Dat.owesAt Pipeline.owesWithin
    icases Howes with ⟨%W, -, Howes⟩; iexists W; iexact Howes

/-! ## @main as its items, and the launch -/

abbrev items : List (Pipeline.Seg (pcfgs (F := F)) adm (pdats m ρ) () defs₀ 𝒱₀ L lv) :=
  [ .region (region0 m ρ), .host (hostItem m ρ), .region (region1 m ρ) ]

theorem main_is_items (c : Dev nD) : main (F := F) c = Pipeline.Seg.run (items m ρ) := (main_chain c).trans (by chain_rfl)

set_option backward.isDefEq.respectTransparency.types false in
/-- From any memory with zero counters every weakly fair execution of @main terminates, nothing
    faults, and every unscoped buffer ends at the last boundary's contents. -/
theorem whole_run : θ_run defs (onTc (τ := τ) (main (F := F))) ⟨m, fun _ => 0, ρ⟩ (fun r => ∀ c : Dev nD,
      ∀ b ∈ Pipeline.ucRefs τ sig, r.2.mem (((c : Thread nD τ)).1, b) = atEnd m ρ c b) :=
  Pipeline.θ_run_regions_kit (pcfgs (F := F)) adm (pdats m ρ) () cellOf_inj emb₁ defs₀ 𝒱₀ L lv m ρ main (items m ρ)
    (fun c Q => by rw [main_is_items m ρ c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (atLaunch m ρ c) ∗ riding c)) (Tₙ := lastState m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (atLaunch m ρ c)
        from Pipeline.unscopedBufs_held c (atLaunch m ρ c)]
      iintro ⟨⟨Hbufs, -, Howes, -, Hgen, -⟩, -⟩
      imodintro
      isplitl [Hbufs]; · iexact Hbufs
      isplitl [Hgen]; · iexists _; iexact Hgen
      iexists ∅; iexact Howes)
    (QY := fun c s => ∀ b ∈ Pipeline.ucRefs τ sig, s.mem (((c : Thread nD τ)).1, b) = atEnd m ρ c b)
    (hfin := fun c s' => by
      iintro ⟨⟨Hbufs, -⟩, HSI⟩
      unfold StableHlo.held
      imodintro
      iapply (pointsTo_read_all (Pipeline.ucRefs τ sig) (fun b => (((c : Thread nD τ)).1, b)) (atEnd m ρ c) s')
      isplitl [Hbufs] <;> iassumption)
    (hQ := fun s h => h)

end Cert.KernelIdeal.Run

end
-- ==== Proof.Bits.Bodies.lean ====
/-
  The two kernel bodies as triples over arbitrary whole memrefs, at any float instance.

  The spike body loads its three f32 blocks whole, and stores, whole, the bf16 block
  [0.9·u + 2·i − s > 0]. The dense body carries an accumulator across the last grid axis: at the
  first point of that axis it zeroes the accumulator; at every point it adds the product of its two
  bf16 blocks (contracted along their second axes) to it; at the last point it stores the three
  result blocks. Each access goes through the unit rectangle of the buffer's own sizes at zero
  offsets, so a load reads the whole contents and a store leaves exactly its value; each triple
  therefore states the buffers' final contents as the printed values themselves.
-/
import proofs.«166087_j40707700031715_2_alg».proof.Proof.Gen.Kernel.Launch
import proofs.«166087_j40707700031715_2_alg».proof.Proof.Gen.Kernel.Skeleton
import proofs.«166087_j40707700031715_2_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Whole-buffer accesses

Every access of the two bodies goes through the unit-stride rectangle of the buffer's own sizes at
zero offsets. A load through it reads the buffer's contents; the last store through it leaves its
value, whatever the buffer held and whatever was stored before; and a load after such a store
reads the stored value. -/

section Whole

variable {sig' : RefSig} {κ : Kind} {sp : Space} {S : Shape} {e : EltTy} {Val : EltTy → Type}

/-- The zero offsets of a rank-2 buffer, as the programs spell them. -/
theorem off2_zero : (![0, 0] : Fin 2 → Nat) = fun _ => 0 := by
  funext a; fin_cases a <;> rfl

/-- A load of the whole buffer reads what the buffer holds. -/
theorem readAt_whole (v : View sig' κ sp S e) (f : v.ty.Contents Val) {off : Fin S.rank → Nat} (hz : off = fun _ => 0)
    (inb : ∀ a, off a + S.size a ≤ S.size a) :
    v.readAt Val (Rect.unit off S.size inb).toLoadRect f = v.read Val f :=
  (View.readAt_eq_ld v f (Rect.unit off S.size inb)).trans (View.ld_unit_zero hz inb _)

/-- After a store of the whole buffer it holds the stored value, whatever was stored before. -/
theorem read_store_whole [∀ e, Nonempty (Val e)] (v : View sig' κ sp S e) (f : v.ty.Contents Val) {off : Fin S.rank → Nat}
    (hz : off = fun _ => 0) (inb : ∀ a, off a + S.size a ≤ S.size a) (w : S.Idx → Val e) (L : List (View.Piece Val S e)) :
    v.read Val (v.writes Val f ((⟨Rect.unit off S.size inb, w⟩ : View.Piece Val S e) :: L)) = w :=
  (View.read_writes_eq_canon v f _
      (fun y => ⟨_, List.mem_cons_self, View.mem_set_unit_zero hz inb y⟩)).trans
    (View.canon_cons_unit_zero hz inb w L)

/-- A load of the whole buffer after such a store reads the stored value. -/
theorem readCov_whole [∀ e, Nonempty (Val e)] (v : View sig' κ sp S e) {off : Fin S.rank → Nat}
    (hz : off = fun _ => 0) (inb : ∀ a, off a + S.size a ≤ S.size a) (w : S.Idx → Val e) (L : List (View.Piece Val S e)) :
    v.readCov ((⟨Rect.unit off S.size inb, w⟩ : View.Piece Val S e) :: L) (Rect.unit off S.size inb).toLoadRect = w :=
  (View.readCov_eq_canon_ld v _ (Rect.unit off S.size inb)
      (fun y => ⟨_, List.mem_cons_self, View.mem_set_unit_zero hz inb y⟩)).trans
    ((congrArg (fun X => View.ld X (Rect.unit off S.size inb)) (View.canon_cons_unit_zero hz inb w L)).trans
      (View.ld_unit_zero hz inb w))

end Whole

/-- The spike body: the three inputs at their contents in and out; the output, at anything, ends
    at the printed value of the three inputs. -/
theorem spike_body (c : Dev nD) (E : Set ℕ) (i : grid0.Coords)
    (arg1 : Memref sig .tc .vmem S128x4096 .f32) (h1 : arg1.IsWhole) (arg2 : Memref sig .tc .vmem S128x4096 .f32) (h2 : arg2.IsWhole)
    (arg3 : Memref sig .tc .vmem S128x4096 .f32) (h3 : arg3.IsWhole) (arg4 : Memref sig .tc .vmem S128x4096 .bf16) (h4 : arg4.IsWhole)
    (x0 x1 x2 : Vec F S128x4096 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (k0_pay1 x0 x1 x2)) -∗ K ⟨⟩))
      ⊢ wp frame (wpE (defs₀ (F := F)) Variants.none c none) E (cc0__spike_kernel i arg1 h1 arg2 h2 arg3 h3 arg4 h4) K := by
  simp only [cc0__spike_kernel_eq_skeleton]; unfold cc0__spike_kernel_skel
  unfold owns
  iintro ⟨⟨%f0, %hf0, H0⟩, ⟨%f1, %hf1, H1⟩, ⟨%f2, %hf2, H2⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H4
  ipureintro
  rw [read_store_whole _ _ off2_zero]
  repeat (first | rw [readCov_whole _ off2_zero] | rw [readAt_whole _ _ off2_zero])

/-! ## The dense body's two branch conditions

Both are words computed from the last grid coordinate `k = i 2`, which ranges over four values: the
first holds exactly at `k = 0`, the second exactly at `k = 3`. -/

/-- The condition of the zeroing branch, as the body computes it from the last coordinate. -/
abbrev condFirst (i : grid1.Coords) : Prop :=
  Scalar.cmpi .ne (Scalar.extui (Scalar.cmpi .eq (BitVec.ofNat 32 (i 2).val) 0#32)) 0#32 = 1#1

/-- The condition of the storing branch. -/
abbrev condLast (i : grid1.Coords) : Prop := k1_cond2 i = 1#1

theorem first_word : ∀ k : Fin 4,
    (Scalar.cmpi .ne (Scalar.extui (Scalar.cmpi .eq (BitVec.ofNat 32 k.val) 0#32)) 0#32 = 1#1) ↔ k.val = 0 := by decide

theorem last_word : ∀ k : Fin 4,
    (Scalar.cmpi .ne (Scalar.extui (Scalar.cmpi .eq (BitVec.ofNat 32 k.val) 3#32)) 0#32 = 1#1) ↔ k.val = 3 := by decide

theorem condFirst_iff (i : grid1.Coords) : condFirst i ↔ (i 2).val = 0 := first_word (i 2)

theorem condLast_iff (i : grid1.Coords) : condLast i ↔ (i 2).val = 3 := last_word (i 2)

/-- The dense body at a middle point of the last axis: the accumulator gains the blocks' product;
    nothing else moves. -/
theorem dense_mid (c : Dev nD) (E : Set ℕ) (i : grid1.Coords)
    (arg3 : Memref sig .tc .vmem S512x1024 .bf16) (h3 : arg3.IsWhole) (arg4 : Memref sig .tc .vmem S512x1024 .bf16) (h4 : arg4.IsWhole)
    (arg5 : Memref sig .tc .vmem S1x512 .f32) (h5 : arg5.IsWhole)
    (arg6 : Memref sig .tc .vmem S512x512 .f32) (h6 : arg6.IsWhole) (arg7 : Memref sig .tc .vmem S512x512 .f32) (h7 : arg7.IsWhole)
    (arg8 : Memref sig .tc .vmem S512x512 .f32) (h8 : arg8.IsWhole)
    (arg9 : Memref sig .tc .vmem S512x512 .f32) (h9 : arg9.IsWhole) (arg10 : Memref sig .tc .vmem S512x512 .f32) (h10 : arg10.IsWhole)
    (arg11 : Memref sig .tc .vmem S512x512 .f32) (h11 : arg11.IsWhole) (arg12 : Memref sig .tc .vmem S512x512 .f32) (h12 : arg12.IsWhole)
    (hk0 : (i 2).val ≠ 0) (hk3 : (i 2).val ≠ 3)
    (a w : Vec F S512x1024 .bf16) (b : Vec F S1x512 .f32) (u ii s : Vec F S512x512 .f32) (y9 y10 y11 acc : Vec F S512x512 .f32) (K : PUnit → sProp 𝕄) :
    iprop(owns (c : Thread nD τ) arg3 fullShare a ∗ owns (c : Thread nD τ) arg4 fullShare w ∗ owns (c : Thread nD τ) arg5 fullShare b
        ∗ owns (c : Thread nD τ) arg6 fullShare u ∗ owns (c : Thread nD τ) arg7 fullShare ii ∗ owns (c : Thread nD τ) arg8 fullShare s
        ∗ owns (c : Thread nD τ) arg9 fullShare y9 ∗ owns (c : Thread nD τ) arg10 fullShare y10 ∗ owns (c : Thread nD τ) arg11 fullShare y11
        ∗ owns (c : Thread nD τ) arg12 fullShare acc
        ∗ (iprop(owns (c : Thread nD τ) arg3 fullShare a ∗ owns (c : Thread nD τ) arg4 fullShare w ∗ owns (c : Thread nD τ) arg5 fullShare b
        ∗ owns (c : Thread nD τ) arg6 fullShare u ∗ owns (c : Thread nD τ) arg7 fullShare ii ∗ owns (c : Thread nD τ) arg8 fullShare s
            ∗ owns (c : Thread nD τ) arg9 fullShare y9 ∗ owns (c : Thread nD τ) arg10 fullShare y10 ∗ owns (c : Thread nD τ) arg11 fullShare y11
            ∗ owns (c : Thread nD τ) arg12 fullShare (k1_pay2 a w acc)) -∗ K ⟨⟩))
      ⊢ wp frame (wpE (defs₀ (F := F)) Variants.none c none) E (cc1__dense_kernel i arg3 h3 arg4 h4 arg5 h5 arg6 h6 arg7 h7 arg8 h8 arg9 h9 arg10 h10 arg11 h11 arg12 h12) K := by
  have hc0 : ¬condFirst i := fun h => hk0 ((condFirst_iff i).mp h)
  have hc1 : ¬condLast i := fun h => hk3 ((condLast_iff i).mp h)
  simp only [cc1__dense_kernel_eq_skeleton]; unfold cc1__dense_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  subst hf3; subst hf4; subst hf5; subst hf6; subst hf7; subst hf8; subst hf9; subst hf10; subst hf11; subst hf12
  sl_exec (disch := first | exact hc0 | exact hc1)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  iexists _; isplitr
  swap; · iexact H12
  ipureintro
  rw [read_store_whole _ _ off2_zero]
  repeat (first | rw [readCov_whole _ off2_zero] | rw [readAt_whole _ _ off2_zero])

/-- The dense body at the last point of the last axis: the accumulator gains the blocks' product,
    and the three outputs, at anything, end at their printed values. -/
theorem dense_last (c : Dev nD) (E : Set ℕ) (i : grid1.Coords)
    (arg3 : Memref sig .tc .vmem S512x1024 .bf16) (h3 : arg3.IsWhole) (arg4 : Memref sig .tc .vmem S512x1024 .bf16) (h4 : arg4.IsWhole)
    (arg5 : Memref sig .tc .vmem S1x512 .f32) (h5 : arg5.IsWhole)
    (arg6 : Memref sig .tc .vmem S512x512 .f32) (h6 : arg6.IsWhole) (arg7 : Memref sig .tc .vmem S512x512 .f32) (h7 : arg7.IsWhole)
    (arg8 : Memref sig .tc .vmem S512x512 .f32) (h8 : arg8.IsWhole)
    (arg9 : Memref sig .tc .vmem S512x512 .f32) (h9 : arg9.IsWhole) (arg10 : Memref sig .tc .vmem S512x512 .f32) (h10 : arg10.IsWhole)
    (arg11 : Memref sig .tc .vmem S512x512 .f32) (h11 : arg11.IsWhole) (arg12 : Memref sig .tc .vmem S512x512 .f32) (h12 : arg12.IsWhole)
    (hk : (i 2).val = 3)
    (a w : Vec F S512x1024 .bf16) (b : Vec F S1x512 .f32) (u ii s : Vec F S512x512 .f32) (acc : Vec F S512x512 .f32) (K : PUnit → sProp 𝕄) :
    iprop(owns (c : Thread nD τ) arg3 fullShare a ∗ owns (c : Thread nD τ) arg4 fullShare w ∗ owns (c : Thread nD τ) arg5 fullShare b
        ∗ owns (c : Thread nD τ) arg6 fullShare u ∗ owns (c : Thread nD τ) arg7 fullShare ii ∗ owns (c : Thread nD τ) arg8 fullShare s
        ∗ (∃ d, owns (c : Thread nD τ) arg9 fullShare d) ∗ (∃ d, owns (c : Thread nD τ) arg10 fullShare d) ∗ (∃ d, owns (c : Thread nD τ) arg11 fullShare d)
        ∗ owns (c : Thread nD τ) arg12 fullShare acc
        ∗ (iprop(owns (c : Thread nD τ) arg3 fullShare a ∗ owns (c : Thread nD τ) arg4 fullShare w ∗ owns (c : Thread nD τ) arg5 fullShare b
        ∗ owns (c : Thread nD τ) arg6 fullShare u ∗ owns (c : Thread nD τ) arg7 fullShare ii ∗ owns (c : Thread nD τ) arg8 fullShare s
            ∗ owns (c : Thread nD τ) arg9 fullShare (k1_pay3 u ii s) ∗ owns (c : Thread nD τ) arg10 fullShare (k1_pay4 (k1_pay2 a w acc) b ii) ∗ owns (c : Thread nD τ) arg11 fullShare (k1_pay5 u ii s)
            ∗ owns (c : Thread nD τ) arg12 fullShare (k1_pay2 a w acc)) -∗ K ⟨⟩))
      ⊢ wp frame (wpE (defs₀ (F := F)) Variants.none c none) E (cc1__dense_kernel i arg3 h3 arg4 h4 arg5 h5 arg6 h6 arg7 h7 arg8 h8 arg9 h9 arg10 h10 arg11 h11 arg12 h12) K := by
  have hc0 : ¬condFirst i := fun h => by have := (condFirst_iff i).mp h; omega
  have hc1 : condLast i := (condLast_iff i).mpr hk
  simp only [cc1__dense_kernel_eq_skeleton]; unfold cc1__dense_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%f12, %hf12, H12⟩, Hk⟩
  subst hf3; subst hf4; subst hf5; subst hf6; subst hf7; subst hf8; subst hf12
  sl_exec (disch := first | exact hc0 | exact hc1)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    try sl_unfold_run_names
    rw [read_store_whole _ _ off2_zero]
    repeat (first | rw [readCov_whole _ off2_zero] | rw [readAt_whole _ _ off2_zero])
  isplitl [H10]
  · iexists _; isplitr
    swap; · iexact H10
    ipureintro
    try sl_unfold_run_names
    rw [read_store_whole _ _ off2_zero]
    repeat (first | rw [readCov_whole _ off2_zero] | rw [readAt_whole _ _ off2_zero])
  isplitl [H11]
  · iexists _; isplitr
    swap; · iexact H11
    ipureintro
    try sl_unfold_run_names
    rw [read_store_whole _ _ off2_zero]
    repeat (first | rw [readCov_whole _ off2_zero] | rw [readAt_whole _ _ off2_zero])
  iexists _; isplitr
  swap; · iexact H12
  ipureintro
  try sl_unfold_run_names
  rw [read_store_whole _ _ off2_zero]
  repeat (first | rw [readCov_whole _ off2_zero] | rw [readAt_whole _ _ off2_zero])

/-- The dense body at the first point of the last axis: the accumulator, at anything, is zeroed
    and then gains the blocks' product; nothing else moves. -/
theorem dense_first (c : Dev nD) (E : Set ℕ) (i : grid1.Coords)
    (arg3 : Memref sig .tc .vmem S512x1024 .bf16) (h3 : arg3.IsWhole) (arg4 : Memref sig .tc .vmem S512x1024 .bf16) (h4 : arg4.IsWhole)
    (arg5 : Memref sig .tc .vmem S1x512 .f32) (h5 : arg5.IsWhole)
    (arg6 : Memref sig .tc .vmem S512x512 .f32) (h6 : arg6.IsWhole) (arg7 : Memref sig .tc .vmem S512x512 .f32) (h7 : arg7.IsWhole)
    (arg8 : Memref sig .tc .vmem S512x512 .f32) (h8 : arg8.IsWhole)
    (arg9 : Memref sig .tc .vmem S512x512 .f32) (h9 : arg9.IsWhole) (arg10 : Memref sig .tc .vmem S512x512 .f32) (h10 : arg10.IsWhole)
    (arg11 : Memref sig .tc .vmem S512x512 .f32) (h11 : arg11.IsWhole) (arg12 : Memref sig .tc .vmem S512x512 .f32) (h12 : arg12.IsWhole)
    (hk : (i 2).val = 0)
    (a w : Vec F S512x1024 .bf16) (b : Vec F S1x512 .f32) (u ii s : Vec F S512x512 .f32) (y9 y10 y11 : Vec F S512x512 .f32) (K : PUnit → sProp 𝕄) :
    iprop(owns (c : Thread nD τ) arg3 fullShare a ∗ owns (c : Thread nD τ) arg4 fullShare w ∗ owns (c : Thread nD τ) arg5 fullShare b
        ∗ owns (c : Thread nD τ) arg6 fullShare u ∗ owns (c : Thread nD τ) arg7 fullShare ii ∗ owns (c : Thread nD τ) arg8 fullShare s
        ∗ owns (c : Thread nD τ) arg9 fullShare y9 ∗ owns (c : Thread nD τ) arg10 fullShare y10 ∗ owns (c : Thread nD τ) arg11 fullShare y11
        ∗ (∃ d, owns (c : Thread nD τ) arg12 fullShare d)
        ∗ (iprop(owns (c : Thread nD τ) arg3 fullShare a ∗ owns (c : Thread nD τ) arg4 fullShare w ∗ owns (c : Thread nD τ) arg5 fullShare b
        ∗ owns (c : Thread nD τ) arg6 fullShare u ∗ owns (c : Thread nD τ) arg7 fullShare ii ∗ owns (c : Thread nD τ) arg8 fullShare s
            ∗ owns (c : Thread nD τ) arg9 fullShare y9 ∗ owns (c : Thread nD τ) arg10 fullShare y10 ∗ owns (c : Thread nD τ) arg11 fullShare y11
            ∗ owns (c : Thread nD τ) arg12 fullShare (k1_pay2 a w (k1_pay1 (F := F)))) -∗ K ⟨⟩))
      ⊢ wp frame (wpE (defs₀ (F := F)) Variants.none c none) E (cc1__dense_kernel i arg3 h3 arg4 h4 arg5 h5 arg6 h6 arg7 h7 arg8 h8 arg9 h9 arg10 h10 arg11 h11 arg12 h12) K := by
  have hc0 : condFirst i := (condFirst_iff i).mpr hk
  have hc1 : ¬condLast i := fun h => by have := (condLast_iff i).mp h; omega
  simp only [cc1__dense_kernel_eq_skeleton]; unfold cc1__dense_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, Hk⟩
  subst hf3; subst hf4; subst hf5; subst hf6; subst hf7; subst hf8; subst hf9; subst hf10; subst hf11
  sl_exec (disch := first | exact hc0 | exact hc1)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  iexists _; isplitr
  swap; · iexact H12
  ipureintro
  try sl_unfold_run_names
  rw [read_store_whole _ _ off2_zero]
  repeat (first | rw [readCov_whole _ off2_zero] | rw [readAt_whole _ _ off2_zero])

end Cert.Kernel.Body

end
-- ==== Proof.Bits.SpikeRegion.lean ====
/-
  The first kernel region: the spike kernel on a grid of 32 points, one block of 128 rows of the
  three state arrays per point. At point t the body reads the three blocks and writes the block of
  spikes [0.9·U + 2·I − S > 0]; nothing is carried from one point to the next. This module states
  what each staging buffer holds after the body at each point, as a function of the arrays the region
  finds on entry (a parameter V), and discharges the per-point obligation of the pipeline from the
  body's own triple.
-/
import proofs.«166087_j40707700031715_2_alg».proof.Proof.Gen.Kernel.Launch
import proofs.«166087_j40707700031715_2_alg».proof.Proof.Gen.Kernel.Skeleton
import proofs.«166087_j40707700031715_2_alg».proof.Proof.Gen.Kernel.Points
import proofs.«166087_j40707700031715_2_alg».proof.Proof.Bits.Bodies
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Spike

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Block t of window w's array, as the region finds the array on entry. -/
def blockAt (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

/-- After the body at point t: the three inputs still hold their blocks, the output holds the spikes
    of those three blocks. The invariant is the scoped rest and the generator register, untouched. -/
def dat (c : Dev nD) : Dat τ (Elt F) Unit ℕ (UR sig nD τ) ℕ cfg0 c where
  A w := V c (Pipeline.arrRef spec0 w)
  after w t := match w with
    | ⟨0, _⟩ => blockAt V c 0 t
    | ⟨1, _⟩ => blockAt V c 1 t
    | ⟨2, _⟩ => blockAt V c 2 t
    | ⟨3, _⟩ => k0_pay1 (blockAt V c 0 t) (blockAt V c 1 t) (blockAt V c 2 t)
  Φ _ := Pipeline.ΦA spec0 c
  q _ := fullShare
  owed _ := 0

theorem dat_A (c : Dev nD) (w : Fin cfg0.W) : (dat V c).A w = V c (Pipeline.arrRef spec0 w) := by
  dsimp only [dat]

theorem after_0 (c : Dev nD) (t : Fin cfg0.N) : (dat V c).after 0 t = blockAt V c 0 t := by dsimp only [dat]
theorem after_1 (c : Dev nD) (t : Fin cfg0.N) : (dat V c).after 1 t = blockAt V c 1 t := by dsimp only [dat]
theorem after_2 (c : Dev nD) (t : Fin cfg0.N) : (dat V c).after 2 t = blockAt V c 2 t := by dsimp only [dat]
theorem after_3 (c : Dev nD) (t : Fin cfg0.N) :
    (dat V c).after 3 t = k0_pay1 (blockAt V c 0 t) (blockAt V c 1 t) (blockAt V c 2 t) := by dsimp only [dat]

/-- An input's staging buffer holds the input's block when the body runs: every input is fetched at
    every point and the body leaves it in place. -/
theorem before_0 (c : Dev nD) (t : Fin cfg0.N) (d) : (dat V c).before 0 t d = blockAt V c 0 t :=
  ((dat V c).before_in_eq_fetched 0 rfl (fun _ => rfl) (fun _ _ _ => rfl)
    (fun t => by rw [after_0]; unfold Dat.blockOf blockAt; rw [dat_A]; try rfl) t d).trans
    (by unfold Dat.fetched Dat.blockOf blockAt; rw [dat_A]; try rfl)
theorem before_1 (c : Dev nD) (t : Fin cfg0.N) (d) : (dat V c).before 1 t d = blockAt V c 1 t :=
  ((dat V c).before_in_eq_fetched 1 rfl (fun _ => rfl) (fun _ _ _ => rfl)
    (fun t => by rw [after_1]; unfold Dat.blockOf blockAt; rw [dat_A]; try rfl) t d).trans
    (by unfold Dat.fetched Dat.blockOf blockAt; rw [dat_A]; try rfl)
theorem before_2 (c : Dev nD) (t : Fin cfg0.N) (d) : (dat V c).before 2 t d = blockAt V c 2 t :=
  ((dat V c).before_in_eq_fetched 2 rfl (fun _ => rfl) (fun _ _ _ => rfl)
    (fun t => by rw [after_2]; unfold Dat.blockOf blockAt; rw [dat_A]; try rfl) t d).trans
    (by unfold Dat.fetched Dat.blockOf blockAt; rw [dat_A]; try rfl)

/-- The body at point t, from the staging buffers at what the pipeline hands it to what it must leave. -/
theorem at_point (c : Dev nD) (t : Fin cfg0.N) :
    iprop((dat V c).Φ t.castSucc ∗ (dat V c).owesAt () t.castSucc
      ∗ (∃ d, owns (c : Thread nD τ) (st0_0 t) fullShare ((dat V c).before 0 t d))
      ∗ (∃ d, owns (c : Thread nD τ) (st0_1 t) fullShare ((dat V c).before 1 t d))
      ∗ (∃ d, owns (c : Thread nD τ) (st0_2 t) fullShare ((dat V c).before 2 t d))
      ∗ (∃ d, owns (c : Thread nD τ) (st0_3 t) fullShare ((dat V c).before 3 t d)))
    ⊢ wp frame (wpE (defs₀ (F := F)) Variants.none c none) Set.univ (bodyAt0 t) (fun _ =>
        (iprop((dat V c).Φ t.succ ∗ (dat V c).owesAt () t.succ
          ∗ owns (c : Thread nD τ) (st0_0 t) fullShare ((dat V c).after 0 t)
          ∗ owns (c : Thread nD τ) (st0_1 t) fullShare ((dat V c).after 1 t)
          ∗ owns (c : Thread nD τ) (st0_2 t) fullShare ((dat V c).after 2 t)
          ∗ owns (c : Thread nD τ) (st0_3 t) fullShare ((dat V c).after 3 t)) : sProp 𝕄)) := by
  unfold bodyAt0
  simp only [before_0, before_1, before_2]
  rw [show (dat V c).Φ t.succ = (dat V c).Φ t.castSucc from rfl,
    show (dat V c).owesAt () t.succ = (dat V c).owesAt () t.castSucc from rfl,
    after_0, after_1, after_2, after_3]
  iintro ⟨HΦ, Ho, ⟨%d0, H0⟩, ⟨%d1, H1⟩, ⟨%d2, H2⟩, ⟨%d3, H3⟩⟩
  iapply (Body.spike_body c Set.univ _ _ _ _ _ _ _ _ _ (blockAt V c 0 t) (blockAt V c 1 t) (blockAt V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's per-point obligation for the first region. -/
theorem obligation (c : Dev nD) : BodyObligation (dat (F := F) V c) (defs₀ (F := F)) Variants.none () Set.univ := fun t => by
  rw [bigSep_W0, bigSep_W0]
  exact at_point V c t

end Cert.Kernel.Spike

end
-- ==== Proof.Bits.DenseRegion.lean ====
/-
  The second kernel region: the dense layer on a grid of 8 × 4 × 4 points (row block, column block,
  chunk of the contracted axis). A scratch accumulator is carried along the innermost axis: at chunk 0
  it is reset to zero, at every chunk the product of the point's two blocks is added to it, and at
  chunk 3 the three output blocks are stored — the membrane update of the state blocks, the current
  update of the accumulated product plus the bias row, and the spikes of the new membrane. At the
  other chunks the output buffers are left exactly as found. This module names what the accumulator
  and every staging buffer hold after the body at each point, as a function of the arrays the region
  finds on entry (a parameter V), and discharges the pipeline's per-point obligation from the body's
  three triples (first chunk, middle chunks, last chunk).
-/
import proofs.«166087_j40707700031715_2_alg».proof.Proof.Gen.Kernel.Launch
import proofs.«166087_j40707700031715_2_alg».proof.Proof.Gen.Kernel.Skeleton
import proofs.«166087_j40707700031715_2_alg».proof.Proof.Gen.Kernel.Points
import proofs.«166087_j40707700031715_2_alg».proof.Proof.Bits.Bodies
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Dense

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Block t of window w's array, as the region finds the array on entry. -/
def blockAt (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

/-! ## The schedule: the chunk coordinate of a point, and where the outputs are idle -/

/-- The innermost coordinate of point t is t mod 4. -/
theorem chunk_of : ∀ t : Fin cfg1.N, ((grid1.coords t) 2).val = t.val % 4 :=
  (by decide +kernel : ∀ t : Fin grid1.N, ((grid1.coords t) 2).val = t.val % 4)

theorem idle_6 : ∀ t : Fin cfg1.N, t.val % 4 ≠ 3 → cfg1.idle 6 (grid1.coords t) = true :=
  (by decide +kernel : ∀ t : Fin grid1.N, t.val % 4 ≠ 3 → idle1 6 (grid1.coords t) = true)
theorem idle_7 : ∀ t : Fin cfg1.N, t.val % 4 ≠ 3 → cfg1.idle 7 (grid1.coords t) = true :=
  (by decide +kernel : ∀ t : Fin grid1.N, t.val % 4 ≠ 3 → idle1 7 (grid1.coords t) = true)
theorem idle_8 : ∀ t : Fin cfg1.N, t.val % 4 ≠ 3 → cfg1.idle 8 (grid1.coords t) = true :=
  (by decide +kernel : ∀ t : Fin grid1.N, t.val % 4 ≠ 3 → idle1 8 (grid1.coords t) = true)
theorem live_6 : ∀ t : Fin cfg1.N, t.val % 4 = 3 → cfg1.idle 6 (grid1.coords t) = false :=
  (by decide +kernel : ∀ t : Fin grid1.N, t.val % 4 = 3 → idle1 6 (grid1.coords t) = false)
theorem live_7 : ∀ t : Fin cfg1.N, t.val % 4 = 3 → cfg1.idle 7 (grid1.coords t) = false :=
  (by decide +kernel : ∀ t : Fin grid1.N, t.val % 4 = 3 → idle1 7 (grid1.coords t) = false)
theorem live_8 : ∀ t : Fin cfg1.N, t.val % 4 = 3 → cfg1.idle 8 (grid1.coords t) = false :=
  (by decide +kernel : ∀ t : Fin grid1.N, t.val % 4 = 3 → idle1 8 (grid1.coords t) = false)
theorem keep_6 (t : Fin cfg1.N) (h : t.val % 4 ≠ 3) : (cfg1.win 6).flush t = false :=
  Bool.eq_false_iff.mpr fun e => h ((flush1_6 t).mp e)
theorem keep_7 (t : Fin cfg1.N) (h : t.val % 4 ≠ 3) : (cfg1.win 7).flush t = false :=
  Bool.eq_false_iff.mpr fun e => h ((flush1_7 t).mp e)
theorem keep_8 (t : Fin cfg1.N) (h : t.val % 4 ≠ 3) : (cfg1.win 8).flush t = false :=
  Bool.eq_false_iff.mpr fun e => h ((flush1_8 t).mp e)

/-! ## The accumulator -/

/-- The scratch accumulator as a memref. -/
abbrev accM : Memref sig .tc .vmem S512x512 .f32 := Memref.whole cc1_scratch0

/-- What the accumulator holds after the body at point n: at a first chunk the product of the
    point's blocks added to zero, otherwise added to what the point before left. -/
def accAt (c : Dev nD) : (n : ℕ) → n < cfg1.N → Vec F S512x512 .f32
  | 0, h => k1_pay2 (blockAt V c 0 ⟨0, h⟩) (blockAt V c 1 ⟨0, h⟩) (k1_pay1 (F := F))
  | n + 1, h =>
    if (n + 1) % 4 = 0 then k1_pay2 (blockAt V c 0 ⟨n + 1, h⟩) (blockAt V c 1 ⟨n + 1, h⟩) (k1_pay1 (F := F))
    else k1_pay2 (blockAt V c 0 ⟨n + 1, h⟩) (blockAt V c 1 ⟨n + 1, h⟩) (accAt c n (Nat.lt_of_succ_lt h))

theorem accAt_first (c : Dev nD) (t : Fin cfg1.N) (h : t.val % 4 = 0) :
    accAt V c t.val t.isLt = k1_pay2 (blockAt V c 0 t) (blockAt V c 1 t) (k1_pay1 (F := F)) := by
  obtain ⟨n, hn⟩ := t
  cases n with
  | zero => rfl
  | succ n => exact if_pos h

theorem accAt_next (c : Dev nD) (t : Fin cfg1.N) (h : t.val % 4 ≠ 0) :
    accAt V c t.val t.isLt = k1_pay2 (blockAt V c 0 t) (blockAt V c 1 t)
      (accAt V c (t.val - 1) (Nat.lt_of_le_of_lt (Nat.sub_le _ _) t.isLt)) := by
  obtain ⟨n, hn⟩ := t
  cases n with
  | zero => exact absurd (Nat.zero_mod _) h
  | succ n => exact if_neg h

/-- The scoped buffers the dense kernel never touches (the first region's staging buffers), each whole
    at some contents, beside a statement S about the accumulator. -/
def scopedWith (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ S)

/-- What the region's invariant is before the first point: the scoped rest at anything and the
    generator register at some state. -/
theorem PhiA_eq (c : Dev nD) :
    (Pipeline.ΦA spec1 c : sProp 𝕄) = iprop(scopedWith c iprop(∃ d, owns (c : Thread nD τ) accM fullShare d) ∗ (∃ r, prngReg c r)) := by
  unfold Pipeline.ΦA scopedWith; rw [scopedRest1_eq]; simp only [accM, owns_whole]; try rfl

/-- The invariant before point n: before the first point the scoped rest at anything; afterwards the
    accumulator at what the point before left. -/
def accInv (c : Dev nD) : (n : ℕ) → n ≤ cfg1.N → sProp 𝕄
  | 0, _ => Pipeline.ΦA spec1 c
  | n + 1, hn => iprop(scopedWith c (owns (c : Thread nD τ) accM fullShare (accAt V c n hn)) ∗ (∃ r, prngReg c r))

theorem accInv_zero (c : Dev nD) (n : ℕ) (h : n ≤ cfg1.N) (hz : n = 0) : accInv V c n h = Pipeline.ΦA spec1 c := by
  subst hz; rfl
theorem accInv_succ (c : Dev nD) (n : ℕ) (hn : n < cfg1.N) :
    accInv V c (n + 1) hn = iprop(scopedWith c (owns (c : Thread nD τ) accM fullShare (accAt V c n hn)) ∗ (∃ r, prngReg c r)) := rfl
theorem accInv_pos (c : Dev nD) (n : ℕ) (h : n ≤ cfg1.N) (hz : n ≠ 0) :
    accInv V c n h = iprop(scopedWith c (owns (c : Thread nD τ) accM fullShare (accAt V c (n - 1) (by omega))) ∗ (∃ r, prngReg c r)) := by
  cases n with
  | zero => exact absurd rfl hz
  | succ n => rfl

/-! ## The proof data -/

/-- After the body at point t: the six inputs still hold their blocks; the three outputs hold the
    membrane update, the current update over the accumulator, and the spikes (consulted only at the
    last chunk, where they are stored). -/
def dat (c : Dev nD) : Dat τ (Elt F) Unit ℕ (UR sig nD τ) ℕ cfg1 c where
  A w := V c (Pipeline.arrRef spec1 w)
  after w t := match w with
    | ⟨0, _⟩ => blockAt V c 0 t
    | ⟨1, _⟩ => blockAt V c 1 t
    | ⟨2, _⟩ => blockAt V c 2 t
    | ⟨3, _⟩ => blockAt V c 3 t
    | ⟨4, _⟩ => blockAt V c 4 t
    | ⟨5, _⟩ => blockAt V c 5 t
    | ⟨6, _⟩ => k1_pay3 (blockAt V c 3 t) (blockAt V c 4 t) (blockAt V c 5 t)
    | ⟨7, _⟩ => k1_pay4 (accAt V c t.val t.isLt) (blockAt V c 2 t) (blockAt V c 4 t)
    | ⟨8, _⟩ => k1_pay5 (blockAt V c 3 t) (blockAt V c 4 t) (blockAt V c 5 t)
  Φ t := accInv V c t.val (Nat.le_of_lt_succ t.isLt)
  q _ := fullShare
  owed _ := 0

theorem dat_A (c : Dev nD) (w : Fin cfg1.W) : (dat V c).A w = V c (Pipeline.arrRef spec1 w) := by
  dsimp only [dat]
theorem after_0 (c : Dev nD) (t : Fin cfg1.N) : (dat V c).after 0 t = blockAt V c 0 t := by dsimp only [dat]
theorem after_1 (c : Dev nD) (t : Fin cfg1.N) : (dat V c).after 1 t = blockAt V c 1 t := by dsimp only [dat]
theorem after_2 (c : Dev nD) (t : Fin cfg1.N) : (dat V c).after 2 t = blockAt V c 2 t := by dsimp only [dat]
theorem after_3 (c : Dev nD) (t : Fin cfg1.N) : (dat V c).after 3 t = blockAt V c 3 t := by dsimp only [dat]
theorem after_4 (c : Dev nD) (t : Fin cfg1.N) : (dat V c).after 4 t = blockAt V c 4 t := by dsimp only [dat]
theorem after_5 (c : Dev nD) (t : Fin cfg1.N) : (dat V c).after 5 t = blockAt V c 5 t := by dsimp only [dat]
theorem after_6 (c : Dev nD) (t : Fin cfg1.N) : (dat V c).after 6 t = k1_pay3 (blockAt V c 3 t) (blockAt V c 4 t) (blockAt V c 5 t) := by dsimp only [dat]
theorem after_7 (c : Dev nD) (t : Fin cfg1.N) : (dat V c).after 7 t = k1_pay4 (accAt V c t.val t.isLt) (blockAt V c 2 t) (blockAt V c 4 t) := by dsimp only [dat]
theorem after_8 (c : Dev nD) (t : Fin cfg1.N) : (dat V c).after 8 t = k1_pay5 (blockAt V c 3 t) (blockAt V c 4 t) (blockAt V c 5 t) := by dsimp only [dat]

theorem Phi_castSucc (c : Dev nD) (t : Fin cfg1.N) :
    (dat V c).Φ t.castSucc = accInv V c t.val (Nat.le_of_lt t.isLt) := by
  dsimp only [dat]; simp only [Fin.coe_castSucc]

/-- An input's staging buffer holds the input's block when the body runs, fetched at that point or
    not: where it is not fetched its block index has not moved and the body left it in place. -/
theorem before_0 (c : Dev nD) (t : Fin cfg1.N) (d) : (dat V c).before 0 t d = blockAt V c 0 t :=
  ((dat V c).before_in_eq_fetched 0 rfl (fun _ => rfl) (fun _ _ _ => rfl)
    (fun t => by rw [after_0]; unfold Dat.blockOf blockAt; rw [dat_A]; try rfl) t d).trans
    (by unfold Dat.fetched Dat.blockOf blockAt; rw [dat_A]; try rfl)
theorem before_1 (c : Dev nD) (t : Fin cfg1.N) (d) : (dat V c).before 1 t d = blockAt V c 1 t :=
  ((dat V c).before_in_eq_fetched 1 rfl (fun _ => rfl) (fun _ _ _ => rfl)
    (fun t => by rw [after_1]; unfold Dat.blockOf blockAt; rw [dat_A]; try rfl) t d).trans
    (by unfold Dat.fetched Dat.blockOf blockAt; rw [dat_A]; try rfl)
theorem before_2 (c : Dev nD) (t : Fin cfg1.N) (d) : (dat V c).before 2 t d = blockAt V c 2 t :=
  ((dat V c).before_in_eq_fetched 2 rfl (fun _ => rfl) (fun _ _ _ => rfl)
    (fun t => by rw [after_2]; unfold Dat.blockOf blockAt; rw [dat_A]; try rfl) t d).trans
    (by unfold Dat.fetched Dat.blockOf blockAt; rw [dat_A]; try rfl)
theorem before_3 (c : Dev nD) (t : Fin cfg1.N) (d) : (dat V c).before 3 t d = blockAt V c 3 t :=
  ((dat V c).before_in_eq_fetched 3 rfl (fun _ => rfl) (fun _ _ _ => rfl)
    (fun t => by rw [after_3]; unfold Dat.blockOf blockAt; rw [dat_A]; try rfl) t d).trans
    (by unfold Dat.fetched Dat.blockOf blockAt; rw [dat_A]; try rfl)
theorem before_4 (c : Dev nD) (t : Fin cfg1.N) (d) : (dat V c).before 4 t d = blockAt V c 4 t :=
  ((dat V c).before_in_eq_fetched 4 rfl (fun _ => rfl) (fun _ _ _ => rfl)
    (fun t => by rw [after_4]; unfold Dat.blockOf blockAt; rw [dat_A]; try rfl) t d).trans
    (by unfold Dat.fetched Dat.blockOf blockAt; rw [dat_A]; try rfl)
theorem before_5 (c : Dev nD) (t : Fin cfg1.N) (d) : (dat V c).before 5 t d = blockAt V c 5 t :=
  ((dat V c).before_in_eq_fetched 5 rfl (fun _ => rfl) (fun _ _ _ => rfl)
    (fun t => by rw [after_5]; unfold Dat.blockOf blockAt; rw [dat_A]; try rfl) t d).trans
    (by unfold Dat.fetched Dat.blockOf blockAt; rw [dat_A]; try rfl)

/-! ## The body at a point -/

theorem leaves_0 (c : Dev nD) (t : Fin cfg1.N) :
    (dat V c).leavesExact 0 t = owns (c : Thread nD τ) (st1_0 t) fullShare (blockAt V c 0 t) := by
  unfold Dat.leavesExact; rw [show cfg1.idle 0 (cfg1.grid.coords t) = false from rfl, after_0]
theorem leaves_1 (c : Dev nD) (t : Fin cfg1.N) :
    (dat V c).leavesExact 1 t = owns (c : Thread nD τ) (st1_1 t) fullShare (blockAt V c 1 t) := by
  unfold Dat.leavesExact; rw [show cfg1.idle 1 (cfg1.grid.coords t) = false from rfl, after_1]
theorem leaves_2 (c : Dev nD) (t : Fin cfg1.N) :
    (dat V c).leavesExact 2 t = owns (c : Thread nD τ) (st1_2 t) fullShare (blockAt V c 2 t) := by
  unfold Dat.leavesExact; rw [show cfg1.idle 2 (cfg1.grid.coords t) = false from rfl, after_2]
theorem leaves_3 (c : Dev nD) (t : Fin cfg1.N) :
    (dat V c).leavesExact 3 t = owns (c : Thread nD τ) (st1_3 t) fullShare (blockAt V c 3 t) := by
  unfold Dat.leavesExact; rw [show cfg1.idle 3 (cfg1.grid.coords t) = false from rfl, after_3]
theorem leaves_4 (c : Dev nD) (t : Fin cfg1.N) :
    (dat V c).leavesExact 4 t = owns (c : Thread nD τ) (st1_4 t) fullShare (blockAt V c 4 t) := by
  unfold Dat.leavesExact; rw [show cfg1.idle 4 (cfg1.grid.coords t) = false from rfl, after_4]
theorem leaves_5 (c : Dev nD) (t : Fin cfg1.N) :
    (dat V c).leavesExact 5 t = owns (c : Thread nD τ) (st1_5 t) fullShare (blockAt V c 5 t) := by
  unfold Dat.leavesExact; rw [show cfg1.idle 5 (cfg1.grid.coords t) = false from rfl, after_5]
theorem leaves_6_last (c : Dev nD) (t : Fin cfg1.N) (h3 : t.val % 4 = 3) :
    (dat V c).leavesExact 6 t = owns (c : Thread nD τ) (st1_6 t) fullShare ((dat V c).after 6 t) := by
  unfold Dat.leavesExact; rw [live_6 t h3]
theorem leaves_7_last (c : Dev nD) (t : Fin cfg1.N) (h3 : t.val % 4 = 3) :
    (dat V c).leavesExact 7 t = owns (c : Thread nD τ) (st1_7 t) fullShare ((dat V c).after 7 t) := by
  unfold Dat.leavesExact; rw [live_7 t h3]
theorem leaves_8_last (c : Dev nD) (t : Fin cfg1.N) (h3 : t.val % 4 = 3) :
    (dat V c).leavesExact 8 t = owns (c : Thread nD τ) (st1_8 t) fullShare ((dat V c).after 8 t) := by
  unfold Dat.leavesExact; rw [live_8 t h3]

set_option maxHeartbeats 4000000 in
/-- The body at point t, from what the pipeline hands it to what it must leave: the chunk coordinate
    says which of the body's three triples applies; the invariant hands over the accumulator at what
    the point before left (at anything before the first point) and takes it back at this point's. -/
theorem at_point (c : Dev nD) (t : Fin cfg1.N) :
    iprop((dat V c).Φ t.castSucc ∗ (dat V c).owesAt () t.castSucc
      ∗ (∃ d, owns (c : Thread nD τ) (st1_0 t) fullShare ((dat V c).before 0 t d))
      ∗ (∃ d, owns (c : Thread nD τ) (st1_1 t) fullShare ((dat V c).before 1 t d))
      ∗ (∃ d, owns (c : Thread nD τ) (st1_2 t) fullShare ((dat V c).before 2 t d))
      ∗ (∃ d, owns (c : Thread nD τ) (st1_3 t) fullShare ((dat V c).before 3 t d))
      ∗ (∃ d, owns (c : Thread nD τ) (st1_4 t) fullShare ((dat V c).before 4 t d))
      ∗ (∃ d, owns (c : Thread nD τ) (st1_5 t) fullShare ((dat V c).before 5 t d))
      ∗ (∃ d, owns (c : Thread nD τ) (st1_6 t) fullShare ((dat V c).before 6 t d))
      ∗ (∃ d, owns (c : Thread nD τ) (st1_7 t) fullShare ((dat V c).before 7 t d))
      ∗ (∃ d, owns (c : Thread nD τ) (st1_8 t) fullShare ((dat V c).before 8 t d)))
    ⊢ wp frame (wpE (defs₀ (F := F)) Variants.none c none) Set.univ (bodyAt1 t) (fun _ =>
        (iprop((dat V c).Φ t.succ ∗ (dat V c).owesAt () t.succ
          ∗ (dat V c).leavesExact 0 t
          ∗ (dat V c).leavesExact 1 t
          ∗ (dat V c).leavesExact 2 t
          ∗ (dat V c).leavesExact 3 t
          ∗ (dat V c).leavesExact 4 t
          ∗ (dat V c).leavesExact 5 t
          ∗ (dat V c).leavesExact 6 t
          ∗ (dat V c).leavesExact 7 t
          ∗ (dat V c).leavesExact 8 t) : sProp 𝕄)) := by
  unfold bodyAt1
  simp only [before_0, before_1, before_2, before_3, before_4, before_5]
  rw [show (dat V c).owesAt () t.succ = (dat V c).owesAt () t.castSucc from rfl]
  rw [show (dat V c).Φ t.succ = accInv V c (t.val + 1) t.isLt from rfl, accInv_succ]
  rw [leaves_0, leaves_1, leaves_2, leaves_3, leaves_4, leaves_5]
  have hN : t.val < 128 := lt_of_lt_of_eq t.isLt (show cfg1.N = 128 from N_1)
  have hk := chunk_of t
  by_cases h0 : t.val % 4 = 0
  · have h3 : t.val % 4 ≠ 3 := by omega
    rw [Dat.leavesExact_idle (dat V c) 6 t (idle_6 t h3) (keep_6 t h3), Dat.leavesExact_idle (dat V c) 7 t (idle_7 t h3) (keep_7 t h3), Dat.leavesExact_idle (dat V c) 8 t (idle_8 t h3) (keep_8 t h3)]
    rw [accAt_first V c t h0]
    by_cases hz : t.val = 0
    · rw [Phi_castSucc, accInv_zero V c _ _ hz, PhiA_eq]; unfold scopedWith
      iintro ⟨⟨⟨G0, G1, G2, G3, G4, G5, G6, G7, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (Body.dense_first c Set.univ (grid1.coords t) _ _ _ _ _ _ _ _ _ _ _ _ _ _ _ _ _ _ _ _ (by rw [hk]; exact h0) (blockAt V c 0 t) (blockAt V c 1 t) (blockAt V c 2 t) (blockAt V c 3 t) (blockAt V c 4 t) (blockAt V c 5 t) _ _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS]; · iexact HS
      iintro ⟨H0, H1, H2, H3, H4, H5, H6, H7, H8, HS⟩
      isplitl [G0 G1 G2 G3 G4 G5 G6 G7 HS Hg]
      · isplitl [G0 G1 G2 G3 G4 G5 G6 G7 HS]
        · isplitl [G0]; · iexact G0
          isplitl [G1]; · iexact G1
          isplitl [G2]; · iexact G2
          isplitl [G3]; · iexact G3
          isplitl [G4]; · iexact G4
          isplitl [G5]; · iexact G5
          isplitl [G6]; · iexact G6
          isplitl [G7]; · iexact G7
          iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      iexists _; iexact H8
    · rw [Phi_castSucc, accInv_pos V c _ _ hz]; unfold scopedWith
      iintro ⟨⟨⟨G0, G1, G2, G3, G4, G5, G6, G7, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (Body.dense_first c Set.univ (grid1.coords t) _ _ _ _ _ _ _ _ _ _ _ _ _ _ _ _ _ _ _ _ (by rw [hk]; exact h0) (blockAt V c 0 t) (blockAt V c 1 t) (blockAt V c 2 t) (blockAt V c 3 t) (blockAt V c 4 t) (blockAt V c 5 t) _ _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS]; · iexists _; iexact HS
      iintro ⟨H0, H1, H2, H3, H4, H5, H6, H7, H8, HS⟩
      isplitl [G0 G1 G2 G3 G4 G5 G6 G7 HS Hg]
      · isplitl [G0 G1 G2 G3 G4 G5 G6 G7 HS]
        · isplitl [G0]; · iexact G0
          isplitl [G1]; · iexact G1
          isplitl [G2]; · iexact G2
          isplitl [G3]; · iexact G3
          isplitl [G4]; · iexact G4
          isplitl [G5]; · iexact G5
          isplitl [G6]; · iexact G6
          isplitl [G7]; · iexact G7
          iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      iexists _; iexact H8
  · have hz : t.val ≠ 0 := fun e => h0 (by rw [e])
    by_cases h3 : t.val % 4 = 3
    · rw [leaves_6_last V c t h3, leaves_7_last V c t h3, leaves_8_last V c t h3, after_6, after_7, after_8]
      rw [accAt_next V c t h0]
      rw [Phi_castSucc, accInv_pos V c _ _ hz]; unfold scopedWith
      iintro ⟨⟨⟨G0, G1, G2, G3, G4, G5, G6, G7, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (Body.dense_last c Set.univ (grid1.coords t) _ _ _ _ _ _ _ _ _ _ _ _ _ _ _ _ _ _ _ _ (by rw [hk]; exact h3) (blockAt V c 0 t) (blockAt V c 1 t) (blockAt V c 2 t) (blockAt V c 3 t) (blockAt V c 4 t) (blockAt V c 5 t) (accAt V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [HS]; · iexact HS
      iintro ⟨H0, H1, H2, H3, H4, H5, H6, H7, H8, HS⟩
      isplitl [G0 G1 G2 G3 G4 G5 G6 G7 HS Hg]
      · isplitl [G0 G1 G2 G3 G4 G5 G6 G7 HS]
        · isplitl [G0]; · iexact G0
          isplitl [G1]; · iexact G1
          isplitl [G2]; · iexact G2
          isplitl [G3]; · iexact G3
          isplitl [G4]; · iexact G4
          isplitl [G5]; · iexact G5
          isplitl [G6]; · iexact G6
          isplitl [G7]; · iexact G7
          iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · rw [Dat.leavesExact_idle (dat V c) 6 t (idle_6 t h3) (keep_6 t h3), Dat.leavesExact_idle (dat V c) 7 t (idle_7 t h3) (keep_7 t h3), Dat.leavesExact_idle (dat V c) 8 t (idle_8 t h3) (keep_8 t h3)]
      rw [accAt_next V c t h0]
      rw [Phi_castSucc, accInv_pos V c _ _ hz]; unfold scopedWith
      iintro ⟨⟨⟨G0, G1, G2, G3, G4, G5, G6, G7, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (Body.dense_mid c Set.univ (grid1.coords t) _ _ _ _ _ _ _ _ _ _ _ _ _ _ _ _ _ _ _ _ (by rw [hk]; exact h0) (by rw [hk]; exact h3) (blockAt V c 0 t) (blockAt V c 1 t) (blockAt V c 2 t) (blockAt V c 3 t) (blockAt V c 4 t) (blockAt V c 5 t) _ _ _ (accAt V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS]; · iexact HS
      iintro ⟨H0, H1, H2, H3, H4, H5, H6, H7, H8, HS⟩
      isplitl [G0 G1 G2 G3 G4 G5 G6 G7 HS Hg]
      · isplitl [G0 G1 G2 G3 G4 G5 G6 G7 HS]
        · isplitl [G0]; · iexact G0
          isplitl [G1]; · iexact G1
          isplitl [G2]; · iexact G2
          isplitl [G3]; · iexact G3
          isplitl [G4]; · iexact G4
          isplitl [G5]; · iexact G5
          isplitl [G6]; · iexact G6
          isplitl [G7]; · iexact G7
          iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      iexists _; iexact H8

/-- The pipeline's per-point obligation for the second region. -/
theorem obligation (c : Dev nD) : BodyObligation (dat (F := F) V c) (defs₀ (F := F)) Variants.none () Set.univ := fun t => by
  rw [bigSep_W1, bigSep_W1]
  exact at_point V c t

/-- What the launch hands the region is the invariant before the first point. -/
theorem inv_in (c : Dev nD) : Pipeline.ΦA spec1 c ⊢ (dat V c).Φ 0 := by
  rw [show (dat V c).Φ 0 = accInv V c 0 (Nat.zero_le _) from rfl, accInv_zero V c 0 _ rfl]
  try exact Idealize.SL.BI.Entails.refl _

/-- After the last point the invariant gives the scoped rest back, the accumulator's contents forgotten. -/
theorem inv_out (c : Dev nD) : (dat V c).Φ (Fin.last cfg1.N) ⊢ Pipeline.ΦA spec1 c := by
  rw [show (dat V c).Φ (Fin.last cfg1.N) = accInv V c (Fin.last cfg1.N).val (Nat.le_of_lt_succ (Fin.last cfg1.N).isLt) from rfl,
    accInv_pos V c _ _ (by rw [Fin.val_last]; have : cfg1.N = 128 := N_1; omega), PhiA_eq]
  unfold scopedWith
  iintro ⟨⟨G0, G1, G2, G3, G4, G5, G6, G7, HS⟩, Hg⟩
  isplitl [G0 G1 G2 G3 G4 G5 G6 G7 HS]
  · isplitl [G0]; · iexact G0
    isplitl [G1]; · iexact G1
    isplitl [G2]; · iexact G2
    isplitl [G3]; · iexact G3
    isplitl [G4]; · iexact G4
    isplitl [G5]; · iexact G5
    isplitl [G6]; · iexact G6
    isplitl [G7]; · iexact G7
    iexists _; iexact HS
  iexact Hg

end Cert.Kernel.Dense

end
-- ==== Proof.Bits.MainRun.lean ====
/-
  The kernel's whole run. @main is three items in order: the spike region, two host operations (the
  weights rounded to bf16, the bias reshaped to a row), and the dense region. This module names the
  contents of every unscoped buffer at each boundary between items — the launch memory; then the first
  region's arrays at what its write-backs leave; then the two host operations applied; then the second
  region's arrays at what its write-backs leave —, gives each region as a segment between two such
  boundaries, and launches the list: every weakly fair execution terminates, nothing faults, and every
  unscoped buffer ends at the last boundary's contents. Each argument array is then read back through
  the boundaries to its launch contents: no item writes one.
-/
import proofs.«166087_j40707700031715_2_alg».proof.Proof.Gen.Kernel.Launch
import proofs.«166087_j40707700031715_2_alg».proof.Proof.Gen.Kernel.Skeleton
import proofs.«166087_j40707700031715_2_alg».proof.Proof.Gen.Kernel.Points
import proofs.«166087_j40707700031715_2_alg».proof.Proof.Bits.SpikeRegion
import proofs.«166087_j40707700031715_2_alg».proof.Proof.Bits.DenseRegion
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the boundaries -/

/-- At launch. -/
abbrev atLaunch : Dev nD → Valuation τ sig (Elt F) := fun c b => (s₀ m ρ).mem ((c : Dev nD), b)
/-- The same, read at the TensorCore's references: what the spike region finds. -/
abbrev enterSpike : (c : Dev nD) → (b : Ref sig .tc) → Buf (Elt F) ((c : Thread nD τ).loc b) := fun c b => atLaunch m ρ c b
/-- After the spike region: its arrays at what the pipeline leaves, every other buffer as before. -/
def afterSpike (c : Dev nD) : Valuation τ sig (Elt F) :=
  Pipeline.withArrays spec0 c (atLaunch m ρ c) fun w => (Spike.dat (enterSpike m ρ) c).arrAt w cfg0.N
theorem afterSpike_arr (c : Dev nD) (w : Fin cfg0.W) :
    afterSpike m ρ c (Proc.devRef .tc (Pipeline.arrRef spec0 w)) = (Spike.dat (enterSpike m ρ) c).arrAt w cfg0.N := by
  unfold afterSpike; exact Pipeline.withArrays_arr spec0 launch0.win.arr_inj c _ _ w
theorem afterSpike_of_ne (c : Dev nD) (b : Ref sig .tc) (hb : ∀ w, Pipeline.arrRef spec0 w ≠ b) :
    afterSpike m ρ c (Proc.devRef .tc b) = atLaunch m ρ c (Proc.devRef .tc b) := by
  unfold afterSpike; exact Pipeline.withArrays_of_ne spec0 c _ _ b hb
abbrev leaveSpike : (c : Dev nD) → (b : Ref sig .tc) → Buf (Elt F) ((c : Thread nD τ).loc b) := fun c b => afterSpike m ρ c b
theorem leaveSpike_arr' (c : Dev nD) (w : Fin cfg0.W) :
    (Spike.dat (enterSpike m ρ) c).arrAt w cfg0.N = leaveSpike m ρ c (Pipeline.arrRef spec0 w) := (afterSpike_arr m ρ c w).symm
theorem leaveSpike_rest (c : Dev nD) : ∀ b, b ∉ Finset.univ.image (Pipeline.arrRef spec0) → leaveSpike m ρ c b = enterSpike m ρ c b :=
  fun b hb => afterSpike_of_ne m ρ c b fun w e => hb (Finset.mem_image.mpr ⟨w, Finset.mem_univ _, e⟩)

/-- After the two host operations: what the dense region finds. -/
abbrev beforeDense : Dev nD → Valuation τ sig (Elt F) := fun c => StableHlo.after hostOps1 (afterSpike m ρ c)
abbrev enterDense : (c : Dev nD) → (b : Ref sig .tc) → Buf (Elt F) ((c : Thread nD τ).loc b) := fun c b => beforeDense m ρ c b

theorem hostOps1_allocs_none : (hostOps1 : List (HloOp τ sig (Elt F))).Forall fun op => op.fresh = ∅ := by
  simp only [List.Forall]; repeat' constructor
/-- The two host operations write only their own results. -/
theorem hostOps1_write : (hostOps1 : List (HloOp τ sig (Elt F))).Forall fun op => op.writes ⊆ (([main_v1, main_v2] : List (Ref sig .tc)).map (Proc.devRef (τ := τ) .tc)).toFinset := by
  simp only [List.Forall]
  exact ⟨by simp only [StableHlo.unary_writes, StableHlo.reshape_writes, Finset.singleton_subset_iff, List.mem_toFinset]; exact List.mem_map_of_mem (by decide),
    by simp only [StableHlo.unary_writes, StableHlo.reshape_writes, Finset.singleton_subset_iff, List.mem_toFinset]; exact List.mem_map_of_mem (by decide)⟩
theorem beforeDense_of (c : Dev nD) (r : Ref sig .tc) (h : r ∉ ([main_v1, main_v2] : List (Ref sig .tc))) :
    beforeDense m ρ c (Proc.devRef .tc r) = afterSpike m ρ c (Proc.devRef .tc r) :=
  StableHlo.after_of_writes_sub hostOps1 _ (hostOps1_write) h

/-- After the dense region: its arrays at what the pipeline leaves, every other buffer as before. -/
def atEnd (c : Dev nD) : Valuation τ sig (Elt F) :=
  Pipeline.withArrays spec1 c (beforeDense m ρ c) fun w => (Dense.dat (enterDense m ρ) c).arrAt w cfg1.N
theorem atEnd_arr (c : Dev nD) (w : Fin cfg1.W) :
    atEnd m ρ c (Proc.devRef .tc (Pipeline.arrRef spec1 w)) = (Dense.dat (enterDense m ρ) c).arrAt w cfg1.N := by
  unfold atEnd; exact Pipeline.withArrays_arr spec1 launch1.win.arr_inj c _ _ w
theorem atEnd_of_ne (c : Dev nD) (b : Ref sig .tc) (hb : ∀ w, Pipeline.arrRef spec1 w ≠ b) :
    atEnd m ρ c (Proc.devRef .tc b) = beforeDense m ρ c (Proc.devRef .tc b) := by
  unfold atEnd; exact Pipeline.withArrays_of_ne spec1 c _ _ b hb
abbrev leaveDense : (c : Dev nD) → (b : Ref sig .tc) → Buf (Elt F) ((c : Thread nD τ).loc b) := fun c b => atEnd m ρ c b
theorem leaveDense_arr' (c : Dev nD) (w : Fin cfg1.W) :
    (Dense.dat (enterDense m ρ) c).arrAt w cfg1.N = leaveDense m ρ c (Pipeline.arrRef spec1 w) := (atEnd_arr m ρ c w).symm
theorem leaveDense_rest (c : Dev nD) : ∀ b, b ∉ Finset.univ.image (Pipeline.arrRef spec1) → leaveDense m ρ c b = enterDense m ρ c b :=
  fun b hb => atEnd_of_ne m ρ c b fun w e => hb (Finset.mem_image.mpr ⟨w, Finset.mem_univ _, e⟩)

/-! ## No item writes an argument -/

theorem atEnd_arg0 (c : Dev nD) : atEnd m ρ c (Proc.devRef .tc main_arg0) = m ((c : Thread nD τ).loc main_arg0) :=
  calc atEnd m ρ c (Proc.devRef .tc main_arg0)
    _ = beforeDense m ρ c (Proc.devRef .tc main_arg0) := atEnd_of_ne m ρ c main_arg0 (by decide)
    _ = afterSpike m ρ c (Proc.devRef .tc main_arg0) := beforeDense_of m ρ c main_arg0 (by decide)
    _ = atLaunch m ρ c (Proc.devRef .tc main_arg0) := afterSpike_of_ne m ρ c main_arg0 (by decide)
    _ = m ((c : Thread nD τ).loc main_arg0) := rfl
theorem atEnd_arg1 (c : Dev nD) : atEnd m ρ c (Proc.devRef .tc main_arg1) = m ((c : Thread nD τ).loc main_arg1) :=
  calc atEnd m ρ c (Proc.devRef .tc main_arg1)
    _ = beforeDense m ρ c (Proc.devRef .tc main_arg1) := atEnd_of_ne m ρ c main_arg1 (by decide)
    _ = afterSpike m ρ c (Proc.devRef .tc main_arg1) := beforeDense_of m ρ c main_arg1 (by decide)
    _ = atLaunch m ρ c (Proc.devRef .tc main_arg1) := afterSpike_of_ne m ρ c main_arg1 (by decide)
    _ = m ((c : Thread nD τ).loc main_arg1) := rfl
theorem atEnd_arg2 (c : Dev nD) : atEnd m ρ c (Proc.devRef .tc main_arg2) = m ((c : Thread nD τ).loc main_arg2) :=
  calc atEnd m ρ c (Proc.devRef .tc main_arg2)
    _ = beforeDense m ρ c (Proc.devRef .tc main_arg2) := atEnd_of_ne m ρ c main_arg2 (by decide)
    _ = afterSpike m ρ c (Proc.devRef .tc main_arg2) := beforeDense_of m ρ c main_arg2 (by decide)
    _ = atLaunch m ρ c (Proc.devRef .tc main_arg2) := afterSpike_of_ne m ρ c main_arg2 (by decide)
    _ = m ((c : Thread nD τ).loc main_arg2) := rfl
theorem atEnd_arg3 (c : Dev nD) : atEnd m ρ c (Proc.devRef .tc main_arg3) = m ((c : Thread nD τ).loc main_arg3) :=
  calc atEnd m ρ c (Proc.devRef .tc main_arg3)
    _ = beforeDense m ρ c (Proc.devRef .tc main_arg3) := atEnd_of_ne m ρ c main_arg3 (by decide)
    _ = afterSpike m ρ c (Proc.devRef .tc main_arg3) := beforeDense_of m ρ c main_arg3 (by decide)
    _ = atLaunch m ρ c (Proc.devRef .tc main_arg3) := afterSpike_of_ne m ρ c main_arg3 (by decide)
    _ = m ((c : Thread nD τ).loc main_arg3) := rfl
theorem atEnd_arg4 (c : Dev nD) : atEnd m ρ c (Proc.devRef .tc main_arg4) = m ((c : Thread nD τ).loc main_arg4) :=
  calc atEnd m ρ c (Proc.devRef .tc main_arg4)
    _ = beforeDense m ρ c (Proc.devRef .tc main_arg4) := atEnd_of_ne m ρ c main_arg4 (by decide)
    _ = afterSpike m ρ c (Proc.devRef .tc main_arg4) := beforeDense_of m ρ c main_arg4 (by decide)
    _ = atLaunch m ρ c (Proc.devRef .tc main_arg4) := afterSpike_of_ne m ρ c main_arg4 (by decide)
    _ = m ((c : Thread nD τ).loc main_arg4) := rfl
theorem atEnd_arg5 (c : Dev nD) : atEnd m ρ c (Proc.devRef .tc main_arg5) = m ((c : Thread nD τ).loc main_arg5) :=
  calc atEnd m ρ c (Proc.devRef .tc main_arg5)
    _ = beforeDense m ρ c (Proc.devRef .tc main_arg5) := atEnd_of_ne m ρ c main_arg5 (by decide)
    _ = afterSpike m ρ c (Proc.devRef .tc main_arg5) := beforeDense_of m ρ c main_arg5 (by decide)
    _ = atLaunch m ρ c (Proc.devRef .tc main_arg5) := afterSpike_of_ne m ρ c main_arg5 (by decide)
    _ = m ((c : Thread nD τ).loc main_arg5) := rfl
theorem atEnd_arg6 (c : Dev nD) : atEnd m ρ c (Proc.devRef .tc main_arg6) = m ((c : Thread nD τ).loc main_arg6) :=
  calc atEnd m ρ c (Proc.devRef .tc main_arg6)
    _ = beforeDense m ρ c (Proc.devRef .tc main_arg6) := atEnd_of_ne m ρ c main_arg6 (by decide)
    _ = afterSpike m ρ c (Proc.devRef .tc main_arg6) := beforeDense_of m ρ c main_arg6 (by decide)
    _ = atLaunch m ρ c (Proc.devRef .tc main_arg6) := afterSpike_of_ne m ρ c main_arg6 (by decide)
    _ = m ((c : Thread nD τ).loc main_arg6) := rfl
theorem atEnd_arg7 (c : Dev nD) : atEnd m ρ c (Proc.devRef .tc main_arg7) = m ((c : Thread nD τ).loc main_arg7) :=
  calc atEnd m ρ c (Proc.devRef .tc main_arg7)
    _ = beforeDense m ρ c (Proc.devRef .tc main_arg7) := atEnd_of_ne m ρ c main_arg7 (by decide)
    _ = afterSpike m ρ c (Proc.devRef .tc main_arg7) := beforeDense_of m ρ c main_arg7 (by decide)
    _ = atLaunch m ρ c (Proc.devRef .tc main_arg7) := afterSpike_of_ne m ρ c main_arg7 (by decide)
    _ = m ((c : Thread nD τ).loc main_arg7) := rfl
theorem atEnd_arg8 (c : Dev nD) : atEnd m ρ c (Proc.devRef .tc main_arg8) = m ((c : Thread nD τ).loc main_arg8) :=
  calc atEnd m ρ c (Proc.devRef .tc main_arg8)
    _ = beforeDense m ρ c (Proc.devRef .tc main_arg8) := atEnd_of_ne m ρ c main_arg8 (by decide)
    _ = afterSpike m ρ c (Proc.devRef .tc main_arg8) := beforeDense_of m ρ c main_arg8 (by decide)
    _ = atLaunch m ρ c (Proc.devRef .tc main_arg8) := afterSpike_of_ne m ρ c main_arg8 (by decide)
    _ = m ((c : Thread nD τ).loc main_arg8) := rfl
theorem atEnd_arg9 (c : Dev nD) : atEnd m ρ c (Proc.devRef .tc main_arg9) = m ((c : Thread nD τ).loc main_arg9) :=
  calc atEnd m ρ c (Proc.devRef .tc main_arg9)
    _ = beforeDense m ρ c (Proc.devRef .tc main_arg9) := atEnd_of_ne m ρ c main_arg9 (by decide)
    _ = afterSpike m ρ c (Proc.devRef .tc main_arg9) := beforeDense_of m ρ c main_arg9 (by decide)
    _ = atLaunch m ρ c (Proc.devRef .tc main_arg9) := afterSpike_of_ne m ρ c main_arg9 (by decide)
    _ = m ((c : Thread nD τ).loc main_arg9) := rfl
theorem atEnd_arg10 (c : Dev nD) : atEnd m ρ c (Proc.devRef .tc main_arg10) = m ((c : Thread nD τ).loc main_arg10) :=
  calc atEnd m ρ c (Proc.devRef .tc main_arg10)
    _ = beforeDense m ρ c (Proc.devRef .tc main_arg10) := atEnd_of_ne m ρ c main_arg10 (by decide)
    _ = afterSpike m ρ c (Proc.devRef .tc main_arg10) := beforeDense_of m ρ c main_arg10 (by decide)
    _ = atLaunch m ρ c (Proc.devRef .tc main_arg10) := afterSpike_of_ne m ρ c main_arg10 (by decide)
    _ = m ((c : Thread nD τ).loc main_arg10) := rfl
theorem atEnd_arg11 (c : Dev nD) : atEnd m ρ c (Proc.devRef .tc main_arg11) = m ((c : Thread nD τ).loc main_arg11) :=
  calc atEnd m ρ c (Proc.devRef .tc main_arg11)
    _ = beforeDense m ρ c (Proc.devRef .tc main_arg11) := atEnd_of_ne m ρ c main_arg11 (by decide)
    _ = afterSpike m ρ c (Proc.devRef .tc main_arg11) := beforeDense_of m ρ c main_arg11 (by decide)
    _ = atLaunch m ρ c (Proc.devRef .tc main_arg11) := afterSpike_of_ne m ρ c main_arg11 (by decide)
    _ = m ((c : Thread nD τ).loc main_arg11) := rfl
theorem atEnd_arg12 (c : Dev nD) : atEnd m ρ c (Proc.devRef .tc main_arg12) = m ((c : Thread nD τ).loc main_arg12) :=
  calc atEnd m ρ c (Proc.devRef .tc main_arg12)
    _ = beforeDense m ρ c (Proc.devRef .tc main_arg12) := atEnd_of_ne m ρ c main_arg12 (by decide)
    _ = afterSpike m ρ c (Proc.devRef .tc main_arg12) := beforeDense_of m ρ c main_arg12 (by decide)
    _ = atLaunch m ρ c (Proc.devRef .tc main_arg12) := afterSpike_of_ne m ρ c main_arg12 (by decide)
    _ = m ((c : Thread nD τ).loc main_arg12) := rfl
theorem atEnd_arg13 (c : Dev nD) : atEnd m ρ c (Proc.devRef .tc main_arg13) = m ((c : Thread nD τ).loc main_arg13) :=
  calc atEnd m ρ c (Proc.devRef .tc main_arg13)
    _ = beforeDense m ρ c (Proc.devRef .tc main_arg13) := atEnd_of_ne m ρ c main_arg13 (by decide)
    _ = afterSpike m ρ c (Proc.devRef .tc main_arg13) := beforeDense_of m ρ c main_arg13 (by decide)
    _ = atLaunch m ρ c (Proc.devRef .tc main_arg13) := afterSpike_of_ne m ρ c main_arg13 (by decide)
    _ = m ((c : Thread nD τ).loc main_arg13) := rfl
theorem atEnd_arg14 (c : Dev nD) : atEnd m ρ c (Proc.devRef .tc main_arg14) = m ((c : Thread nD τ).loc main_arg14) :=
  calc atEnd m ρ c (Proc.devRef .tc main_arg14)
    _ = beforeDense m ρ c (Proc.devRef .tc main_arg14) := atEnd_of_ne m ρ c main_arg14 (by decide)
    _ = afterSpike m ρ c (Proc.devRef .tc main_arg14) := beforeDense_of m ρ c main_arg14 (by decide)
    _ = atLaunch m ρ c (Proc.devRef .tc main_arg14) := afterSpike_of_ne m ρ c main_arg14 (by decide)
    _ = m ((c : Thread nD τ).loc main_arg14) := rfl
theorem atEnd_arg15 (c : Dev nD) : atEnd m ρ c (Proc.devRef .tc main_arg15) = m ((c : Thread nD τ).loc main_arg15) :=
  calc atEnd m ρ c (Proc.devRef .tc main_arg15)
    _ = beforeDense m ρ c (Proc.devRef .tc main_arg15) := atEnd_of_ne m ρ c main_arg15 (by decide)
    _ = afterSpike m ρ c (Proc.devRef .tc main_arg15) := beforeDense_of m ρ c main_arg15 (by decide)
    _ = atLaunch m ρ c (Proc.devRef .tc main_arg15) := afterSpike_of_ne m ρ c main_arg15 (by decide)
    _ = m ((c : Thread nD τ).loc main_arg15) := rfl
theorem atEnd_arg16 (c : Dev nD) : atEnd m ρ c (Proc.devRef .tc main_arg16) = m ((c : Thread nD τ).loc main_arg16) :=
  calc atEnd m ρ c (Proc.devRef .tc main_arg16)
    _ = beforeDense m ρ c (Proc.devRef .tc main_arg16) := atEnd_of_ne m ρ c main_arg16 (by decide)
    _ = afterSpike m ρ c (Proc.devRef .tc main_arg16) := beforeDense_of m ρ c main_arg16 (by decide)
    _ = atLaunch m ρ c (Proc.devRef .tc main_arg16) := afterSpike_of_ne m ρ c main_arg16 (by decide)
    _ = m ((c : Thread nD τ).loc main_arg16) := rfl
theorem atEnd_arg17 (c : Dev nD) : atEnd m ρ c (Proc.devRef .tc main_arg17) = m ((c : Thread nD τ).loc main_arg17) :=
  calc atEnd m ρ c (Proc.devRef .tc main_arg17)
    _ = beforeDense m ρ c (Proc.devRef .tc main_arg17) := atEnd_of_ne m ρ c main_arg17 (by decide)
    _ = afterSpike m ρ c (Proc.devRef .tc main_arg17) := beforeDense_of m ρ c main_arg17 (by decide)
    _ = (Spike.dat (enterSpike m ρ) c).arrAt 0 cfg0.N := afterSpike_arr m ρ c 0
    _ = atLaunch m ρ c (Proc.devRef .tc main_arg17) := ((Spike.dat (enterSpike m ρ) c).arrAt_in 0 rfl _).trans (Spike.dat_A (enterSpike m ρ) c 0)
    _ = m ((c : Thread nD τ).loc main_arg17) := rfl
theorem atEnd_arg18 (c : Dev nD) : atEnd m ρ c (Proc.devRef .tc main_arg18) = m ((c : Thread nD τ).loc main_arg18) :=
  calc atEnd m ρ c (Proc.devRef .tc main_arg18)
    _ = beforeDense m ρ c (Proc.devRef .tc main_arg18) := atEnd_of_ne m ρ c main_arg18 (by decide)
    _ = afterSpike m ρ c (Proc.devRef .tc main_arg18) := beforeDense_of m ρ c main_arg18 (by decide)
    _ = (Spike.dat (enterSpike m ρ) c).arrAt 1 cfg0.N := afterSpike_arr m ρ c 1
    _ = atLaunch m ρ c (Proc.devRef .tc main_arg18) := ((Spike.dat (enterSpike m ρ) c).arrAt_in 1 rfl _).trans (Spike.dat_A (enterSpike m ρ) c 1)
    _ = m ((c : Thread nD τ).loc main_arg18) := rfl
theorem atEnd_arg19 (c : Dev nD) : atEnd m ρ c (Proc.devRef .tc main_arg19) = m ((c : Thread nD τ).loc main_arg19) :=
  calc atEnd m ρ c (Proc.devRef .tc main_arg19)
    _ = beforeDense m ρ c (Proc.devRef .tc main_arg19) := atEnd_of_ne m ρ c main_arg19 (by decide)
    _ = afterSpike m ρ c (Proc.devRef .tc main_arg19) := beforeDense_of m ρ c main_arg19 (by decide)
    _ = (Spike.dat (enterSpike m ρ) c).arrAt 2 cfg0.N := afterSpike_arr m ρ c 2
    _ = atLaunch m ρ c (Proc.devRef .tc main_arg19) := ((Spike.dat (enterSpike m ρ) c).arrAt_in 2 rfl _).trans (Spike.dat_A (enterSpike m ρ) c 2)
    _ = m ((c : Thread nD τ).loc main_arg19) := rfl
theorem atEnd_arg20 (c : Dev nD) : atEnd m ρ c (Proc.devRef .tc main_arg20) = m ((c : Thread nD τ).loc main_arg20) :=
  calc atEnd m ρ c (Proc.devRef .tc main_arg20)
    _ = beforeDense m ρ c (Proc.devRef .tc main_arg20) := atEnd_of_ne m ρ c main_arg20 (by decide)
    _ = afterSpike m ρ c (Proc.devRef .tc main_arg20) := beforeDense_of m ρ c main_arg20 (by decide)
    _ = atLaunch m ρ c (Proc.devRef .tc main_arg20) := afterSpike_of_ne m ρ c main_arg20 (by decide)
    _ = m ((c : Thread nD τ).loc main_arg20) := rfl
theorem atEnd_arg21 (c : Dev nD) : atEnd m ρ c (Proc.devRef .tc main_arg21) = m ((c : Thread nD τ).loc main_arg21) :=
  calc atEnd m ρ c (Proc.devRef .tc main_arg21)
    _ = beforeDense m ρ c (Proc.devRef .tc main_arg21) := atEnd_of_ne m ρ c main_arg21 (by decide)
    _ = afterSpike m ρ c (Proc.devRef .tc main_arg21) := beforeDense_of m ρ c main_arg21 (by decide)
    _ = atLaunch m ρ c (Proc.devRef .tc main_arg21) := afterSpike_of_ne m ρ c main_arg21 (by decide)
    _ = m ((c : Thread nD τ).loc main_arg21) := rfl
theorem atEnd_arg22 (c : Dev nD) : atEnd m ρ c (Proc.devRef .tc main_arg22) = m ((c : Thread nD τ).loc main_arg22) :=
  calc atEnd m ρ c (Proc.devRef .tc main_arg22)
    _ = (Dense.dat (enterDense m ρ) c).arrAt 3 cfg1.N := atEnd_arr m ρ c 3
    _ = beforeDense m ρ c (Proc.devRef .tc main_arg22) := ((Dense.dat (enterDense m ρ) c).arrAt_in 3 rfl _).trans (Dense.dat_A (enterDense m ρ) c 3)
    _ = afterSpike m ρ c (Proc.devRef .tc main_arg22) := beforeDense_of m ρ c main_arg22 (by decide)
    _ = atLaunch m ρ c (Proc.devRef .tc main_arg22) := afterSpike_of_ne m ρ c main_arg22 (by decide)
    _ = m ((c : Thread nD τ).loc main_arg22) := rfl
theorem atEnd_arg23 (c : Dev nD) : atEnd m ρ c (Proc.devRef .tc main_arg23) = m ((c : Thread nD τ).loc main_arg23) :=
  calc atEnd m ρ c (Proc.devRef .tc main_arg23)
    _ = (Dense.dat (enterDense m ρ) c).arrAt 4 cfg1.N := atEnd_arr m ρ c 4
    _ = beforeDense m ρ c (Proc.devRef .tc main_arg23) := ((Dense.dat (enterDense m ρ) c).arrAt_in 4 rfl _).trans (Dense.dat_A (enterDense m ρ) c 4)
    _ = afterSpike m ρ c (Proc.devRef .tc main_arg23) := beforeDense_of m ρ c main_arg23 (by decide)
    _ = atLaunch m ρ c (Proc.devRef .tc main_arg23) := afterSpike_of_ne m ρ c main_arg23 (by decide)
    _ = m ((c : Thread nD τ).loc main_arg23) := rfl
theorem atEnd_arg24 (c : Dev nD) : atEnd m ρ c (Proc.devRef .tc main_arg24) = m ((c : Thread nD τ).loc main_arg24) :=
  calc atEnd m ρ c (Proc.devRef .tc main_arg24)
    _ = (Dense.dat (enterDense m ρ) c).arrAt 5 cfg1.N := atEnd_arr m ρ c 5
    _ = beforeDense m ρ c (Proc.devRef .tc main_arg24) := ((Dense.dat (enterDense m ρ) c).arrAt_in 5 rfl _).trans (Dense.dat_A (enterDense m ρ) c 5)
    _ = afterSpike m ρ c (Proc.devRef .tc main_arg24) := beforeDense_of m ρ c main_arg24 (by decide)
    _ = atLaunch m ρ c (Proc.devRef .tc main_arg24) := afterSpike_of_ne m ρ c main_arg24 (by decide)
    _ = m ((c : Thread nD τ).loc main_arg24) := rfl

/-! ## The proof data family, and what rides beside the buffers -/

abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => Spike.dat (enterSpike m ρ) c
  | ⟨1, _⟩ => fun c => Dense.dat (enterDense m ρ) c
abbrev 𝒱₀ : Variants := Variants.none
abbrev L : GSem nD τ sig → Finset Unit := fun _ => ∅
abbrev lv : GSem nD τ sig → Unit → ℕ := fun _ _ => 0
/-- Beside the buffers through every item: the generator register at some state, and the core owing nothing. -/
abbrev riding (c : Dev nD) : sProp 𝕄 := iprop((∃ r, prngReg c r) ∗ ∃ W, owes (c : Thread nD τ) (0 : CellTallies nD τ sig Unit) W)
/-- The two host operations as a segment from the contents the spike region leaves. -/
abbrev hostItem : Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_allocs_none) op h) (afterSpike m ρ) riding
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owed tallies. -/
abbrev lastState (c : Dev nD) : sProp 𝕄 := iprop(StableHlo.held (c : Thread nD τ) (Pipeline.ucRefs τ sig) (atEnd m ρ c) ∗ ∃ r, prngReg c r)

/-! ## The regions as segments -/

set_option backward.isDefEq.respectTransparency.types false in
/-- Region 0 as a segment: entered with every unscoped buffer at the contents the segment before left,
    left with the region's arrays at what its write-backs leave and every other buffer as entered. Its
    arrays are split out of the unscoped buffers on entry and put back on exit; the generator register
    goes into the region's invariant and comes back; nothing is owed; the kernel has no semaphore of
    its own. -/
def region0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Spike.obligation (enterSpike m ρ) c).loose
  hwaits := Pipeline.hwaits_of_owed_zero _ _ _ _ L lv 0 fun _ _ => rfl
  pre c := iprop(StableHlo.held (c : Thread nD τ) (Pipeline.ucRefs τ sig) (atLaunch m ρ c) ∗ riding c)
  post c := iprop(StableHlo.held (c : Thread nD τ) (Pipeline.ucRefs τ sig) (afterSpike m ρ c) ∗ riding c)
  X c := iprop(∃ r, prngReg c r)
  Y c := iprop(∃ r, prngReg c r)
  Z c := Pipeline.unscopedRest (Ix := Unit) (Name := ℕ) (U := UR sig nD τ) (Lvl := ℕ) spec0 c (enterSpike m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (enterSpike m ρ c) fun _ => rfl
    rw [Pipeline.unscopedBufs_held] at hsplit
    iintro ⟨⟨Hbufs, Hgen, Howes⟩, -, -⟩
    ihave Hs := hsplit $$ Hbufs
    icases Hs with ⟨Harr, Hrest⟩
    imodintro
    isplitl [Harr]; · iexact Harr
    isplitr; · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hgen]; · iexact Hgen
    iexact Hrest
  hin c := by
    rw [show (pdats m ρ 0 c).Φ 0 = Pipeline.ΦA spec0 c from rfl]; unfold Pipeline.ΦA
    iintro ⟨Hgen, -, Hsc⟩
    isplitl [Hsc]; · iexact Hsc
    iexact Hgen
  hout c := by
    rw [Pipeline.ownSems0_none, show (pdats m ρ 0 c).Φ (Fin.last _) = Pipeline.ΦA spec0 c from rfl]; unfold Pipeline.ΦA
    iintro ⟨Hsc, Hgen⟩
    isplitl [Hgen]; · iexact Hgen
    isplitr; · iempintro
    iexact Hsc
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (enterSpike m ρ c) (leaveSpike m ρ c) ((pdats m ρ 0 c).arrAt · cfg0.N) (leaveSpike_arr' m ρ c) (leaveSpike_rest m ρ c)
    rw [Pipeline.unscopedBufs_held] at hjoin
    iintro ⟨Harr, Howes, Hgen, Hrest⟩
    imodintro
    isplitl [Harr Hrest]
    · iapply hjoin; isplitl [Harr] <;> iassumption
    isplitl [Hgen]; · iexact Hgen
    unfold Pipeline.Dat.owesAt Pipeline.owesWithin
    icases Howes with ⟨%W, -, Howes⟩; iexists W; iexact Howes

set_option backward.isDefEq.respectTransparency.types false in
/-- Region 1 as a segment: entered with every unscoped buffer at the contents the segment before left,
    left with the region's arrays at what its write-backs leave and every other buffer as entered. Its
    arrays are split out of the unscoped buffers on entry and put back on exit; the generator register
    goes into the region's invariant and comes back; nothing is owed; the kernel has no semaphore of
    its own. -/
def region1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Dense.obligation (enterDense m ρ) c).loose
  hwaits := Pipeline.hwaits_of_owed_zero _ _ _ _ L lv 1 fun _ _ => rfl
  pre c := iprop(StableHlo.held (c : Thread nD τ) (Pipeline.ucRefs τ sig) (beforeDense m ρ c) ∗ riding c)
  post c := iprop(lastState m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (enterDense m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (enterDense m ρ c) fun _ => rfl
    rw [Pipeline.unscopedBufs_held] at hsplit
    iintro ⟨⟨Hbufs, Hgen, Howes⟩, -, -⟩
    ihave Hs := hsplit $$ Hbufs
    icases Hs with ⟨Harr, Hrest⟩
    imodintro
    isplitl [Harr]; · iexact Harr
    isplitr; · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hgen]; · iexact Hgen
    iexact Hrest
  hin c := by
    rw [show (pdats m ρ 1 c).Φ 0 = Pipeline.ΦA spec1 c from rfl]; unfold Pipeline.ΦA
    iintro ⟨Hgen, -, Hsc⟩
    isplitl [Hsc]; · iexact Hsc
    iexact Hgen
  hout c := by
    rw [Pipeline.ownSems0_none]
    have hback : (Pipeline.ΦA spec1 c : sProp 𝕄) ⊢ iprop((∃ r, prngReg c r) ∗ emp ∗ Pipeline.scopedRest spec1 c) := by
      unfold Pipeline.ΦA
      iintro ⟨Hsc, Hgen⟩
      isplitl [Hgen]; · iexact Hgen
      isplitr; · iempintro
      iexact Hsc
    exact (Dense.inv_out (enterDense m ρ) c).trans hback
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (enterDense m ρ c) (leaveDense m ρ c) ((pdats m ρ 1 c).arrAt · cfg1.N) (leaveDense_arr' m ρ c) (leaveDense_rest m ρ c)
    rw [Pipeline.unscopedBufs_held] at hjoin
    iintro ⟨Harr, Howes, Hgen, Hrest⟩
    imodintro
    isplitl [Harr Hrest Hgen]
    · isplitl [Harr Hrest]
      · iapply hjoin; isplitl [Harr] <;> iassumption
      iexact Hgen
    unfold Pipeline.Dat.owesAt Pipeline.owesWithin
    icases Howes with ⟨%W, -, Howes⟩; iexists W; iexact Howes

/-! ## @main as its items, and the launch -/

abbrev items : List (Pipeline.Seg (pcfgs (F := F)) adm (pdats m ρ) () defs₀ 𝒱₀ L lv) :=
  [ .region (region0 m ρ), .host (hostItem m ρ), .region (region1 m ρ) ]

theorem main_is_items (c : Dev nD) : main (F := F) c = Pipeline.Seg.run (items m ρ) := (main_chain c).trans (by chain_rfl)

set_option backward.isDefEq.respectTransparency.types false in
/-- From any memory with zero counters every weakly fair execution of @main terminates, nothing
    faults, and every unscoped buffer ends at the last boundary's contents. -/
theorem whole_run : θ_run defs (onTc (τ := τ) (main (F := F))) ⟨m, fun _ => 0, ρ⟩ (fun r => ∀ c : Dev nD,
      ∀ b ∈ Pipeline.ucRefs τ sig, r.2.mem (((c : Thread nD τ)).1, b) = atEnd m ρ c b) :=
  Pipeline.θ_run_regions_kit (pcfgs (F := F)) adm (pdats m ρ) () cellOf_inj emb₁ defs₀ 𝒱₀ L lv m ρ main (items m ρ)
    (fun c Q => by rw [main_is_items m ρ c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (atLaunch m ρ c) ∗ riding c)) (Tₙ := lastState m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (atLaunch m ρ c)
        from Pipeline.unscopedBufs_held c (atLaunch m ρ c)]
      iintro ⟨⟨Hbufs, -, Howes, -, Hgen, -⟩, -⟩
      imodintro
      isplitl [Hbufs]; · iexact Hbufs
      isplitl [Hgen]; · iexists _; iexact Hgen
      iexists ∅; iexact Howes)
    (QY := fun c s => ∀ b ∈ Pipeline.ucRefs τ sig, s.mem (((c : Thread nD τ)).1, b) = atEnd m ρ c b)
    (hfin := fun c s' => by
      iintro ⟨⟨Hbufs, -⟩, HSI⟩
      unfold StableHlo.held
      imodintro
      iapply (pointsTo_read_all (Pipeline.ucRefs τ sig) (fun b => (((c : Thread nD τ)).1, b)) (atEnd m ρ c) s')
      isplitl [Hbufs] <;> iassumption)
    (hQ := fun s h => h)

end Cert.Kernel.Run

end
-- ==== Proof.PayAt.lean ====
/-
  Each stored value of the two kernels, read at one index, at the ideal instance.

  The spike kernel's stored value is the spike of the three loaded values (the narrowing of the
  float format is the identity on extended reals, and the signed reading of the zero-extended
  comparison bit is the bit). The dense kernel's accumulator starts at zero, gains at every step the
  1024-term product sum of a row of the left block with a row of the right block, and at the last
  step the three results are the membrane value, the current of the accumulated sum plus the bias,
  and the spike.
-/
import proofs.«166087_j40707700031715_2_alg».proof.Proof.Gen.KernelIdeal.Skeleton
import proofs.«166087_j40707700031715_2_alg».proof.Proof.Spec
import Idealize.ShloMosaic.Lib.Pipeline.Value
import Idealize.ShloMosaic.Lib.ValueLayout
import Idealize.ShloMosaic.Lib.ValueIdx
import Idealize.ShloMosaic.PureOps.Ideal.Laws

noncomputable section

open scoped BigOperators

namespace Cert.Lif

open Idealize.ShloMosaic Idealize.ShloMosaic.ValueIdx Cert.KernelIdeal Cert.KernelIdeal.Gen

/-! ## The spike kernel -/

/-- The spike kernel stores the spike of the three values it loaded: every operation is pointwise, the format
    change is the identity, and the signed reading of the widened comparison bit is the bit. -/
theorem k0_pay1_at (x0 x1 x2 : Vec Ideal S128x4096 .f32) (p : Fin 128) (q : Fin 4096) :
    k0_pay1 (F := Ideal) x0 x1 x2 (ix2 p q) = spk (x0 (ix2 p q)) (x1 (ix2 p q)) (x2 (ix2 p q)) := by
  unfold k0_pay1
  exact bit01_signed (Ideal.cmp .ogt (memb (x0 (ix2 p q)) (x1 (ix2 p q)) (x2 (ix2 p q))) (Ideal.ofBits .f32 0x00000000#32))

/-! ## The dense kernel -/

/-- The accumulator's first value is zero. -/
theorem k1_pay1_at (r j : Fin 512) : k1_pay1 (F := Ideal) (ix2 r j) = 0 := by
  unfold k1_pay1
  rw [shapeCast_self]
  exact Ideal.ofBits_zero_f32

/-- The left operand's row coordinate is the result's row. -/
theorem mm_lhs0 (i : S512x512.Idx) (q : dot_S512x1024_S512x1024_S512x512_1_1_0_0_n_n.contr.Idx) :
    (dot_S512x1024_S512x1024_S512x512_1_1_0_0_n_n.lhsIdx i q 0).val = (i 0).val := by
  unfold DotDims.lhsIdx
  rw [dif_neg (show ¬(0 : Fin S512x1024.rank) ∈ dot_S512x1024_S512x1024_S512x512_1_1_0_0_n_n.lhsBatch by decide),
    dif_pos (show (0 : Fin S512x1024.rank) ∈ dot_S512x1024_S512x1024_S512x512_1_1_0_0_n_n.lhsNonContracting by decide)]
  rfl

/-- The left operand's column coordinate is the contraction position. -/
theorem mm_lhs1 (i : S512x512.Idx) (q : dot_S512x1024_S512x1024_S512x512_1_1_0_0_n_n.contr.Idx) :
    (dot_S512x1024_S512x1024_S512x512_1_1_0_0_n_n.lhsIdx i q 1).val = (q ⟨0, by decide⟩).val :=
  dot_S512x1024_S512x1024_S512x512_1_1_0_0_n_n.lhsIdx_val_of_single rfl i q

/-- The right operand's row coordinate is the result's column (both operands are contracted along their second axis). -/
theorem mm_rhs0 (i : S512x512.Idx) (q : dot_S512x1024_S512x1024_S512x512_1_1_0_0_n_n.contr.Idx) :
    (dot_S512x1024_S512x1024_S512x512_1_1_0_0_n_n.rhsIdx i q 0).val = (i 1).val := by
  unfold DotDims.rhsIdx
  rw [dif_neg (show ¬(0 : Fin S512x1024.rank) ∈ dot_S512x1024_S512x1024_S512x512_1_1_0_0_n_n.rhsBatch by decide),
    dif_pos (show (0 : Fin S512x1024.rank) ∈ dot_S512x1024_S512x1024_S512x512_1_1_0_0_n_n.rhsNonContracting by decide)]
  rfl

/-- The right operand's column coordinate is the contraction position. -/
theorem mm_rhs1 (i : S512x512.Idx) (q : dot_S512x1024_S512x1024_S512x512_1_1_0_0_n_n.contr.Idx) :
    (dot_S512x1024_S512x1024_S512x512_1_1_0_0_n_n.rhsIdx i q 1).val = (q ⟨0, by decide⟩).val :=
  dot_S512x1024_S512x1024_S512x512_1_1_0_0_n_n.rhsIdx_val_of_single rfl i q

/-- The block product into a zero accumulator, read at row `r` and column `j`: the sum over the 1024 contraction
    positions of the left block's row `r` times the right block's row `j`. -/
theorem mm_at (a w : FVec Ideal S512x1024 .bf16) (r j : Fin 512) :
    FloatOps.matmul dot_S512x1024_S512x1024_S512x512_1_1_0_0_n_n none a w (constant S512x512 .f32 0x00000000#32) (ix2 r j)
      = ∑ k : Fin 1024, a (ix2 r k) * w (ix2 j k) := by
  rw [Ideal.matmul_constant_zero_apply,
    ← Equiv.sum_comp (contrEquiv1 dot_S512x1024_S512x1024_S512x512_1_1_0_0_n_n 1024 rfl rfl).symm]
  refine Finset.sum_congr rfl fun k _ => ?_
  have hk := contrEquiv1_symm_val dot_S512x1024_S512x1024_S512x512_1_1_0_0_n_n 1024 rfl rfl k
  have el : dot_S512x1024_S512x1024_S512x512_1_1_0_0_n_n.lhsIdx (ix2 r j)
      ((contrEquiv1 dot_S512x1024_S512x1024_S512x512_1_1_0_0_n_n 1024 rfl rfl).symm k) = ix2 r k :=
    funext fun b => Fin.ext (by
      match b with
      | ⟨0, _⟩ => exact mm_lhs0 _ _
      | ⟨1, _⟩ => exact (mm_lhs1 _ _).trans hk)
  have er : dot_S512x1024_S512x1024_S512x512_1_1_0_0_n_n.rhsIdx (ix2 r j)
      ((contrEquiv1 dot_S512x1024_S512x1024_S512x512_1_1_0_0_n_n 1024 rfl rfl).symm k) = ix2 j k :=
    funext fun b => Fin.ext (by
      match b with
      | ⟨0, _⟩ => exact mm_rhs0 _ _
      | ⟨1, _⟩ => exact (mm_rhs1 _ _).trans hk)
  rw [el, er]

/-- One accumulation step: the accumulator gains the 1024-term sum of products of row `r` of the left block with
    row `j` of the right block. -/
theorem k1_pay2_at (a w : Vec Ideal S512x1024 .bf16) (acc : Vec Ideal S512x512 .f32) (r j : Fin 512) :
    k1_pay2 (F := Ideal) a w acc (ix2 r j) = acc (ix2 r j) + ∑ k : Fin 1024, a (ix2 r k) * w (ix2 j k) := by
  unfold k1_pay2
  simp only [shapeCast_self]
  rw [addf_apply]
  exact congrArg (acc (ix2 r j) + ·) (mm_at a w r j)

/-- The membrane result. -/
theorem k1_pay3_at (u i s : Vec Ideal S512x512 .f32) (r j : Fin 512) :
    k1_pay3 (F := Ideal) u i s (ix2 r j) = memb (u (ix2 r j)) (i (ix2 r j)) (s (ix2 r j)) := by
  unfold k1_pay3
  rfl

/-- The bias row broadcast down the rows, read at an index: the bias of the column. -/
theorem bias_at (b : Vec Ideal S1x512 .f32) (r j : Fin 512) :
    broadcastTo S512x512 (shapeCast S1x512 b shapeCasts_S1x512_S1x512) broadcasts_S1x512_S512x512 (ix2 r j)
      = b (ix2 (0 : Fin 1) j) := by
  rw [shapeCast_self]
  exact broadcastTo_apply b broadcasts_S1x512_S512x512 (ix2 r j) (ix2 (0 : Fin 1) j) (fun a => by
    match a with
    | ⟨0, _⟩ => show 0 = if (1 : Nat) = 1 then 0 else _; rw [if_pos rfl]
    | ⟨1, _⟩ => show j.val = if (512 : Nat) = 1 then 0 else j.val; rw [if_neg (by decide)])

/-- The current result: the accumulated sum plus the bias of the column, mixed with the old current. -/
theorem k1_pay4_at (acc : Vec Ideal S512x512 .f32) (b : Vec Ideal S1x512 .f32) (i : Vec Ideal S512x512 .f32) (r j : Fin 512) :
    k1_pay4 (F := Ideal) acc b i (ix2 r j) = cur (i (ix2 r j)) (acc (ix2 r j) + b (ix2 (0 : Fin 1) j)) := by
  unfold k1_pay4
  rw [addf_apply, mulf_apply, mulf_apply, addf_apply, bias_at]
  rfl

/-- The spike result. -/
theorem k1_pay5_at (u i s : Vec Ideal S512x512 .f32) (r j : Fin 512) :
    k1_pay5 (F := Ideal) u i s (ix2 r j) = spk (u (ix2 r j)) (i (ix2 r j)) (s (ix2 r j)) := by
  unfold k1_pay5
  rw [sitofp_apply, extui_apply, cmpf_apply, k1_pay3_at]
  exact bit01_signed (Ideal.cmp .ogt (memb (u (ix2 r j)) (i (ix2 r j)) (s (ix2 r j))) (Ideal.ofBits .f32 0x00000000#32))

end Cert.Lif

end
-- ==== Proof.SpikeValue.lean ====
/-
  From blocks to the array, for the spike region, at the ideal instance.

  Point `t` of the 32-point grid works on rows `128·t … 128·t + 127` of the three state arrays and writes
  the same rows of the spike array; the 32 row blocks tile the 4096 rows. So after the region the spike
  array is, index by index, the spike of the three state arrays.
-/
import proofs.«166087_j40707700031715_2_alg».proof.Proof.SpikeRegion
import proofs.«166087_j40707700031715_2_alg».proof.Proof.Spec
import proofs.«166087_j40707700031715_2_alg».proof.Proof.PayAt
import Idealize.ShloMosaic.Lib.Pipeline.Value
import Idealize.ShloMosaic.Lib.ValueIdx

set_option maxRecDepth 16384

noncomputable section

open scoped BigOperators

namespace Cert.KernelIdeal.SpikeValue

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Lif

variable (V : (c : Dev nD) → (b : Ref sig .tc) → Buf (Elt Ideal) ((c : Thread nD τ).loc b))

/-- The printed index maps of the region, decided over the grid: every window moves with the row block. -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- An element of the membrane state's block at point `t`. -/
theorem blk0_at (c : Dev nD) (t : Fin cfg0.N) (p : Fin 128) (q : Fin 4096) (i : S4096x4096.Idx)
    (h0 : (i 0).val = t.val * 128 + p.val) (h1 : (i 1).val = q.val) :
    Spike.blockAt V c 0 t (ix2 p q) = V c main_arg17 i := by
  obtain ⟨e0, e1, -⟩ := idx0 t
  unfold Spike.blockAt
  rw [View.read_apply]
  show V c main_arg17 _ = V c main_arg17 _
  congr 1
  funext a
  apply Fin.ext
  match a with
  | ⟨0, _⟩ => show win0_0.index t (0 : Fin 2) * 128 + 1 * p.val = (i 0).val; rw [e0, h0]; omega
  | ⟨1, _⟩ => show win0_0.index t (1 : Fin 2) * 4096 + 1 * q.val = (i 1).val; rw [e1, h1]; omega

/-- An element of the current state's block at point `t`. -/
theorem blk1_at (c : Dev nD) (t : Fin cfg0.N) (p : Fin 128) (q : Fin 4096) (i : S4096x4096.Idx)
    (h0 : (i 0).val = t.val * 128 + p.val) (h1 : (i 1).val = q.val) :
    Spike.blockAt V c 1 t (ix2 p q) = V c main_arg18 i := by
  obtain ⟨-, -, e0, e1, -⟩ := idx0 t
  unfold Spike.blockAt
  rw [View.read_apply]
  show V c main_arg18 _ = V c main_arg18 _
  congr 1
  funext a
  apply Fin.ext
  match a with
  | ⟨0, _⟩ => show win0_1.index t (0 : Fin 2) * 128 + 1 * p.val = (i 0).val; rw [e0, h0]; omega
  | ⟨1, _⟩ => show win0_1.index t (1 : Fin 2) * 4096 + 1 * q.val = (i 1).val; rw [e1, h1]; omega

/-- An element of the spike state's block at point `t`. -/
theorem blk2_at (c : Dev nD) (t : Fin cfg0.N) (p : Fin 128) (q : Fin 4096) (i : S4096x4096.Idx)
    (h0 : (i 0).val = t.val * 128 + p.val) (h1 : (i 1).val = q.val) :
    Spike.blockAt V c 2 t (ix2 p q) = V c main_arg19 i := by
  obtain ⟨-, -, -, -, e0, e1, -⟩ := idx0 t
  unfold Spike.blockAt
  rw [View.read_apply]
  show V c main_arg19 _ = V c main_arg19 _
  congr 1
  funext a
  apply Fin.ext
  match a with
  | ⟨0, _⟩ => show win0_2.index t (0 : Fin 2) * 128 + 1 * p.val = (i 0).val; rw [e0, h0]; omega
  | ⟨1, _⟩ => show win0_2.index t (1 : Fin 2) * 4096 + 1 * q.val = (i 1).val; rw [e1, h1]; omega

/-- What a point writes back of the spike array is its block of the spikes of the three state arrays. -/
theorem flushed3_eq (c : Dev nD) (t : Fin cfg0.N) :
    (Spike.dat V c).flushed 3 t
      = ((cfg0.win 3).blk t).view.read (Elt Ideal)
          (fun i => spk (V c main_arg17 i) (V c main_arg18 i) (V c main_arg19 i)) := by
  show (cfg0.win 3).cut (grid0.coords t) ((Spike.dat V c).after 3 t) = _
  rw [Spike.after_3]
  obtain ⟨-, -, -, -, -, -, e0, e1⟩ := idx0 t
  funext y
  have hy0 : (y 0).val < 128 := (y 0).isLt
  have hy1 : (y 1).val < 4096 := (y 1).isLt
  have ht : t.val < 32 := t.isLt
  rw [View.read_apply]
  have ey : (cfg0.win 3).xinj (grid0.coords t) y = ix2 (⟨(y 0).val, hy0⟩ : Fin 128) (⟨(y 1).val, hy1⟩ : Fin 4096) :=
    funext fun a => by match a with | ⟨0, _⟩ => rfl | ⟨1, _⟩ => rfl
  show k0_pay1 (F := Ideal) (Spike.blockAt V c 0 t) (Spike.blockAt V c 1 t) (Spike.blockAt V c 2 t)
      ((cfg0.win 3).xinj (grid0.coords t) y)
    = spk (V c main_arg17 (((cfg0.win 3).blk t).view.emb y)) (V c main_arg18 (((cfg0.win 3).blk t).view.emb y))
        (V c main_arg19 (((cfg0.win 3).blk t).view.emb y))
  have hR : t.val * 128 + (y 0).val < 4096 := by omega
  have ei : ((cfg0.win 3).blk t).view.emb y
      = ix2 (⟨t.val * 128 + (y 0).val, hR⟩ : Fin 4096) (⟨(y 1).val, hy1⟩ : Fin 4096) := by
    funext a
    apply Fin.ext
    match a with
    | ⟨0, _⟩ => show win0_3.index t (0 : Fin 2) * 128 + 1 * (y 0).val = t.val * 128 + (y 0).val; rw [e0]; omega
    | ⟨1, _⟩ => show win0_3.index t (1 : Fin 2) * 4096 + 1 * (y 1).val = (y 1).val; rw [e1]; omega
  rw [ey, ei]
  refine (k0_pay1_at _ _ _ _ _).trans ?_
  rw [blk0_at V c t ⟨(y 0).val, hy0⟩ ⟨(y 1).val, hy1⟩ (ix2 ⟨_, hR⟩ ⟨_, hy1⟩) rfl rfl,
    blk1_at V c t ⟨(y 0).val, hy0⟩ ⟨(y 1).val, hy1⟩ (ix2 ⟨_, hR⟩ ⟨_, hy1⟩) rfl rfl,
    blk2_at V c t ⟨(y 0).val, hy0⟩ ⟨(y 1).val, hy1⟩ (ix2 ⟨_, hR⟩ ⟨_, hy1⟩) rfl rfl]

/-- An index of the spike array is in point `t`'s block iff each coordinate is in the block's range. -/
theorem mem_blk3 (t : Fin cfg0.N) (i : S4096x4096.Idx) :
    i ∈ ((cfg0.win 3).blk t).view.set ↔ ∀ a : Fin 2, win0_3.index t a * S128x4096.size a ≤ (i a).val
      ∧ (i a).val < win0_3.index t a * S128x4096.size a + S128x4096.size a := by
  show i ∈ ((View.whole main_v0).slice (win0_3.rect t)).set ↔ _
  rw [View.set_slice_whole, Rect.mem_set_unit]
  exact Iff.rfl

/-- Every index of the spike array is in the block of the point of its row block. -/
theorem cover3 (i : S4096x4096.Idx) :
    ∃ t : Fin cfg0.N, (cfg0.win 3).flush t = true ∧ i ∈ ((cfg0.win 3).blk t).view.set := by
  have hi0 : (i 0).val < 4096 := (i 0).isLt
  have hi1 : (i 1).val < 4096 := (i 1).isLt
  refine ⟨⟨(i 0).val / 128, by show _ < 32; omega⟩, flush0_3 _, ?_⟩
  obtain ⟨-, -, -, -, -, -, e0, e1⟩ := idx0 ⟨(i 0).val / 128, by show _ < 32; omega⟩
  rw [mem_blk3]
  intro a
  match a with
  | ⟨0, _⟩ =>
    show win0_3.index _ (0 : Fin 2) * 128 ≤ (i 0).val ∧ (i 0).val < win0_3.index _ (0 : Fin 2) * 128 + 128
    rw [e0]
    show (i 0).val / 128 * 128 ≤ (i 0).val ∧ (i 0).val < (i 0).val / 128 * 128 + 128
    omega
  | ⟨1, _⟩ =>
    show win0_3.index _ (1 : Fin 2) * 4096 ≤ (i 1).val ∧ (i 1).val < win0_3.index _ (1 : Fin 2) * 4096 + 4096
    rw [e1]
    omega

/-- THE SPIKE ARRAY after the region: index by index the spike of the three state arrays as the region found them. -/
theorem spikes_array (c : Dev nD) :
    (Spike.dat V c).arrAt 3 cfg0.N = fun i => spk (V c main_arg17 i) (V c main_arg18 i) (V c main_arg19 i) :=
  (Spike.dat V c).arrAt_eq_of_cover 3 _ (fun t _ => flushed3_eq V c t) cover3

end Cert.KernelIdeal.SpikeValue

end
-- ==== Proof.DenseValue.lean ====
/-
  From blocks to the arrays, for the dense region, at the ideal instance.

  Point `t` of the 8 × 4 × 4 grid has row block `t / 16`, column block `(t / 4) % 4` and chunk `t % 4`. An
  element of a window's block at `t` is the array's element at block index times block size plus the
  coordinate inside the block. The three outputs are written back at the points of chunk 3 only, and
  those points' blocks tile the 4096 × 2048 arrays. The membrane and the spikes are pointwise in the
  state blocks. The current reads the accumulator, which at a point of chunk 3 holds the four 1024-term
  partial products of the points of chunks 0, 1, 2, 3 of the same row and column block, added from zero
  in that order: the sum over all 4096 contraction positions.
-/
import proofs.«166087_j40707700031715_2_alg».proof.Proof.DenseRegion
import proofs.«166087_j40707700031715_2_alg».proof.Proof.Spec
import proofs.«166087_j40707700031715_2_alg».proof.Proof.PayAt
import Idealize.ShloMosaic.Lib.Pipeline.Value
import Idealize.ShloMosaic.Lib.ValueIdx

set_option maxRecDepth 16384

noncomputable section

open scoped BigOperators

namespace Cert.KernelIdeal.DenseValue

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Lif

variable (V : (c : Dev nD) → (b : Ref sig .tc) → Buf (Elt Ideal) ((c : Thread nD τ).loc b))

/-! ## Where a block sits -/

/-- The printed index maps of the region, decided over the grid: the two operands of the product move with
    (row block, chunk) and (column block, chunk), the bias with the column block, the state blocks and the
    outputs with (row block, column block). -/
theorem idx1 : ∀ t : Fin cfg1.N,
    win1_0.index t (0 : Fin 2) = t.val / 16 ∧ win1_0.index t (1 : Fin 2) = t.val % 4
    ∧ win1_1.index t (0 : Fin 2) = (t.val / 4) % 4 ∧ win1_1.index t (1 : Fin 2) = t.val % 4
    ∧ win1_2.index t (0 : Fin 2) = 0 ∧ win1_2.index t (1 : Fin 2) = (t.val / 4) % 4
    ∧ win1_3.index t (0 : Fin 2) = t.val / 16 ∧ win1_3.index t (1 : Fin 2) = (t.val / 4) % 4
    ∧ win1_4.index t (0 : Fin 2) = t.val / 16 ∧ win1_4.index t (1 : Fin 2) = (t.val / 4) % 4
    ∧ win1_5.index t (0 : Fin 2) = t.val / 16 ∧ win1_5.index t (1 : Fin 2) = (t.val / 4) % 4
    ∧ win1_6.index t (0 : Fin 2) = t.val / 16 ∧ win1_6.index t (1 : Fin 2) = (t.val / 4) % 4
    ∧ win1_7.index t (0 : Fin 2) = t.val / 16 ∧ win1_7.index t (1 : Fin 2) = (t.val / 4) % 4
    ∧ win1_8.index t (0 : Fin 2) = t.val / 16 ∧ win1_8.index t (1 : Fin 2) = (t.val / 4) % 4 :=
  (by decide +kernel : ∀ t : Fin grid1.N, _)

/-- An element of the left operand's block at point `t`. -/
theorem blk0_at (c : Dev nD) (t : Fin cfg1.N) (r : Fin 512) (k : Fin 1024) (i : S4096x4096.Idx)
    (h0 : (i 0).val = t.val / 16 * 512 + r.val) (h1 : (i 1).val = t.val % 4 * 1024 + k.val) :
    Dense.blockAt V c 0 t (ix2 r k) = V c main_v0 i := by
  obtain ⟨e0, e1, -⟩ := idx1 t
  unfold Dense.blockAt
  rw [View.read_apply]
  show V c main_v0 _ = V c main_v0 _
  congr 1
  funext a
  apply Fin.ext
  match a with
  | ⟨0, _⟩ => show win1_0.index t (0 : Fin 2) * 512 + 1 * r.val = (i 0).val; rw [e0, h0]; omega
  | ⟨1, _⟩ => show win1_0.index t (1 : Fin 2) * 1024 + 1 * k.val = (i 1).val; rw [e1, h1]; omega

/-- An element of the right operand's block at point `t`. -/
theorem blk1_at (c : Dev nD) (t : Fin cfg1.N) (j : Fin 512) (k : Fin 1024) (i : S2048x4096.Idx)
    (h0 : (i 0).val = t.val / 4 % 4 * 512 + j.val) (h1 : (i 1).val = t.val % 4 * 1024 + k.val) :
    Dense.blockAt V c 1 t (ix2 j k) = V c main_v1 i := by
  obtain ⟨-, -, e0, e1, -⟩ := idx1 t
  unfold Dense.blockAt
  rw [View.read_apply]
  show V c main_v1 _ = V c main_v1 _
  congr 1
  funext a
  apply Fin.ext
  match a with
  | ⟨0, _⟩ => show win1_1.index t (0 : Fin 2) * 512 + 1 * j.val = (i 0).val; rw [e0, h0]; omega
  | ⟨1, _⟩ => show win1_1.index t (1 : Fin 2) * 1024 + 1 * k.val = (i 1).val; rw [e1, h1]; omega

/-- An element of the bias row's block at point `t`. -/
theorem blk2_at (c : Dev nD) (t : Fin cfg1.N) (j : Fin 512) (i : S1x2048.Idx)
    (h0 : (i 0).val = 0) (h1 : (i 1).val = t.val / 4 % 4 * 512 + j.val) :
    Dense.blockAt V c 2 t (ix2 (0 : Fin 1) j) = V c main_v2 i := by
  obtain ⟨-, -, -, -, e0, e1, -⟩ := idx1 t
  unfold Dense.blockAt
  rw [View.read_apply]
  show V c main_v2 _ = V c main_v2 _
  congr 1
  funext a
  apply Fin.ext
  match a with
  | ⟨0, _⟩ => show win1_2.index t (0 : Fin 2) * 1 + 1 * 0 = (i 0).val; rw [e0, h0]
  | ⟨1, _⟩ => show win1_2.index t (1 : Fin 2) * 512 + 1 * j.val = (i 1).val; rw [e1, h1]; omega

/-- An element of the membrane state's block at point `t`. -/
theorem blk3_at (c : Dev nD) (t : Fin cfg1.N) (r j : Fin 512) (i : S4096x2048.Idx)
    (h0 : (i 0).val = t.val / 16 * 512 + r.val) (h1 : (i 1).val = t.val / 4 % 4 * 512 + j.val) :
    Dense.blockAt V c 3 t (ix2 r j) = V c main_arg22 i := by
  obtain ⟨-, -, -, -, -, -, e0, e1, -⟩ := idx1 t
  unfold Dense.blockAt
  rw [View.read_apply]
  show V c main_arg22 _ = V c main_arg22 _
  congr 1
  funext a
  apply Fin.ext
  match a with
  | ⟨0, _⟩ => show win1_3.index t (0 : Fin 2) * 512 + 1 * r.val = (i 0).val; rw [e0, h0]; omega
  | ⟨1, _⟩ => show win1_3.index t (1 : Fin 2) * 512 + 1 * j.val = (i 1).val; rw [e1, h1]; omega

/-- An element of the current state's block at point `t`. -/
theorem blk4_at (c : Dev nD) (t : Fin cfg1.N) (r j : Fin 512) (i : S4096x2048.Idx)
    (h0 : (i 0).val = t.val / 16 * 512 + r.val) (h1 : (i 1).val = t.val / 4 % 4 * 512 + j.val) :
    Dense.blockAt V c 4 t (ix2 r j) = V c main_arg23 i := by
  obtain ⟨-, -, -, -, -, -, -, -, e0, e1, -⟩ := idx1 t
  unfold Dense.blockAt
  rw [View.read_apply]
  show V c main_arg23 _ = V c main_arg23 _
  congr 1
  funext a
  apply Fin.ext
  match a with
  | ⟨0, _⟩ => show win1_4.index t (0 : Fin 2) * 512 + 1 * r.val = (i 0).val; rw [e0, h0]; omega
  | ⟨1, _⟩ => show win1_4.index t (1 : Fin 2) * 512 + 1 * j.val = (i 1).val; rw [e1, h1]; omega

/-- An element of the spike state's block at point `t`. -/
theorem blk5_at (c : Dev nD) (t : Fin cfg1.N) (r j : Fin 512) (i : S4096x2048.Idx)
    (h0 : (i 0).val = t.val / 16 * 512 + r.val) (h1 : (i 1).val = t.val / 4 % 4 * 512 + j.val) :
    Dense.blockAt V c 5 t (ix2 r j) = V c main_arg24 i := by
  obtain ⟨-, -, -, -, -, -, -, -, -, -, e0, e1, -⟩ := idx1 t
  unfold Dense.blockAt
  rw [View.read_apply]
  show V c main_arg24 _ = V c main_arg24 _
  congr 1
  funext a
  apply Fin.ext
  match a with
  | ⟨0, _⟩ => show win1_5.index t (0 : Fin 2) * 512 + 1 * r.val = (i 0).val; rw [e0, h0]; omega
  | ⟨1, _⟩ => show win1_5.index t (1 : Fin 2) * 512 + 1 * j.val = (i 1).val; rw [e1, h1]; omega

/-! ## The membrane output -/

/-- What a point writes back of the membrane output is its block of `GU` of the three state arrays. -/
theorem flushed6_eq (c : Dev nD) (t : Fin cfg1.N) :
    (Dense.dat V c).flushed 6 t
      = ((cfg1.win 6).blk t).view.read (Elt Ideal) (GU (V c main_arg22) (V c main_arg23) (V c main_arg24)) := by
  show (cfg1.win 6).cut (grid1.coords t) ((Dense.dat V c).after 6 t) = _
  rw [Dense.after_6]
  obtain ⟨-, -, -, -, -, -, -, -, -, -, -, -, e0, e1, -⟩ := idx1 t
  funext y
  have hy0 : (y 0).val < 512 := (y 0).isLt
  have hy1 : (y 1).val < 512 := (y 1).isLt
  have ht : t.val < 128 := t.isLt
  rw [View.read_apply]
  have ey : (cfg1.win 6).xinj (grid1.coords t) y = ix2 (⟨(y 0).val, hy0⟩ : Fin 512) (⟨(y 1).val, hy1⟩ : Fin 512) :=
    funext fun a => by match a with | ⟨0, _⟩ => rfl | ⟨1, _⟩ => rfl
  show k1_pay3 (F := Ideal) (Dense.blockAt V c 3 t) (Dense.blockAt V c 4 t) (Dense.blockAt V c 5 t)
      ((cfg1.win 6).xinj (grid1.coords t) y)
    = GU (V c main_arg22) (V c main_arg23) (V c main_arg24) (((cfg1.win 6).blk t).view.emb y)
  have hR : t.val / 16 * 512 + (y 0).val < 4096 := by omega
  have hJ : t.val / 4 % 4 * 512 + (y 1).val < 2048 := by omega
  have ei : ((cfg1.win 6).blk t).view.emb y
      = ix2 (⟨t.val / 16 * 512 + (y 0).val, hR⟩ : Fin 4096) (⟨t.val / 4 % 4 * 512 + (y 1).val, hJ⟩ : Fin 2048) := by
    funext a
    apply Fin.ext
    match a with
    | ⟨0, _⟩ => show win1_6.index t (0 : Fin 2) * 512 + 1 * (y 0).val = t.val / 16 * 512 + (y 0).val; rw [e0]; omega
    | ⟨1, _⟩ => show win1_6.index t (1 : Fin 2) * 512 + 1 * (y 1).val = t.val / 4 % 4 * 512 + (y 1).val; rw [e1]; omega
  rw [ey, ei]
  refine (k1_pay3_at _ _ _ _ _).trans ?_
  rw [blk3_at V c t ⟨(y 0).val, hy0⟩ ⟨(y 1).val, hy1⟩ (ix2 ⟨_, hR⟩ ⟨_, hJ⟩) rfl rfl,
    blk4_at V c t ⟨(y 0).val, hy0⟩ ⟨(y 1).val, hy1⟩ (ix2 ⟨_, hR⟩ ⟨_, hJ⟩) rfl rfl,
    blk5_at V c t ⟨(y 0).val, hy0⟩ ⟨(y 1).val, hy1⟩ (ix2 ⟨_, hR⟩ ⟨_, hJ⟩) rfl rfl]
  rfl

/-- An index of the membrane output is in point `t`'s block iff each coordinate is in the block's range. -/
theorem mem_blk6 (t : Fin cfg1.N) (i : S4096x2048.Idx) :
    i ∈ ((cfg1.win 6).blk t).view.set ↔ ∀ a : Fin 2, win1_6.index t a * S512x512.size a ≤ (i a).val
      ∧ (i a).val < win1_6.index t a * S512x512.size a + S512x512.size a := by
  show i ∈ ((View.whole main_v3_0).slice (win1_6.rect t)).set ↔ _
  rw [View.set_slice_whole, Rect.mem_set_unit]
  exact Iff.rfl

/-- Every index of the membrane output is in the block of a point that writes back: the point of chunk 3 of its
    row block and column block. -/
theorem cover6 (i : S4096x2048.Idx) :
    ∃ t : Fin cfg1.N, (cfg1.win 6).flush t = true ∧ i ∈ ((cfg1.win 6).blk t).view.set := by
  have hi0 : (i 0).val < 4096 := (i 0).isLt
  have hi1 : (i 1).val < 2048 := (i 1).isLt
  refine ⟨⟨(i 0).val / 512 * 16 + (i 1).val / 512 * 4 + 3, by show _ < 128; omega⟩, ?_, ?_⟩
  · exact (flush1_6 _).mpr (by show ((i 0).val / 512 * 16 + (i 1).val / 512 * 4 + 3) % 4 = 3; omega)
  · obtain ⟨-, -, -, -, -, -, -, -, -, -, -, -, e0, e1, -⟩ :=
      idx1 ⟨(i 0).val / 512 * 16 + (i 1).val / 512 * 4 + 3, by show _ < 128; omega⟩
    rw [mem_blk6]
    intro a
    match a with
    | ⟨0, _⟩ =>
      show win1_6.index _ (0 : Fin 2) * 512 ≤ (i 0).val ∧ (i 0).val < win1_6.index _ (0 : Fin 2) * 512 + 512
      rw [e0]
      show ((i 0).val / 512 * 16 + (i 1).val / 512 * 4 + 3) / 16 * 512 ≤ (i 0).val
        ∧ (i 0).val < ((i 0).val / 512 * 16 + (i 1).val / 512 * 4 + 3) / 16 * 512 + 512
      omega
    | ⟨1, _⟩ =>
      show win1_6.index _ (1 : Fin 2) * 512 ≤ (i 1).val ∧ (i 1).val < win1_6.index _ (1 : Fin 2) * 512 + 512
      rw [e1]
      show ((i 0).val / 512 * 16 + (i 1).val / 512 * 4 + 3) / 4 % 4 * 512 ≤ (i 1).val
        ∧ (i 1).val < ((i 0).val / 512 * 16 + (i 1).val / 512 * 4 + 3) / 4 % 4 * 512 + 512
      omega

/-- THE MEMBRANE ARRAY after the region: `GU` of the three state arrays as the region found them. -/
theorem membrane_array (c : Dev nD) :
    (Dense.dat V c).arrAt 6 cfg1.N = GU (V c main_arg22) (V c main_arg23) (V c main_arg24) :=
  (Dense.dat V c).arrAt_eq_of_cover 6 _ (fun t _ => flushed6_eq V c t) cover6

/-! ## The spike output -/

/-- What a point writes back of the spike output is its block of `GS` of the three state arrays. -/
theorem flushed8_eq (c : Dev nD) (t : Fin cfg1.N) :
    (Dense.dat V c).flushed 8 t
      = ((cfg1.win 8).blk t).view.read (Elt Ideal) (GS (V c main_arg22) (V c main_arg23) (V c main_arg24)) := by
  show (cfg1.win 8).cut (grid1.coords t) ((Dense.dat V c).after 8 t) = _
  rw [Dense.after_8]
  obtain ⟨-, -, -, -, -, -, -, -, -, -, -, -, -, -, -, -, e0, e1⟩ := idx1 t
  funext y
  have hy0 : (y 0).val < 512 := (y 0).isLt
  have hy1 : (y 1).val < 512 := (y 1).isLt
  have ht : t.val < 128 := t.isLt
  rw [View.read_apply]
  have ey : (cfg1.win 8).xinj (grid1.coords t) y = ix2 (⟨(y 0).val, hy0⟩ : Fin 512) (⟨(y 1).val, hy1⟩ : Fin 512) :=
    funext fun a => by match a with | ⟨0, _⟩ => rfl | ⟨1, _⟩ => rfl
  show k1_pay5 (F := Ideal) (Dense.blockAt V c 3 t) (Dense.blockAt V c 4 t) (Dense.blockAt V c 5 t)
      ((cfg1.win 8).xinj (grid1.coords t) y)
    = GS (V c main_arg22) (V c main_arg23) (V c main_arg24) (((cfg1.win 8).blk t).view.emb y)
  have hR : t.val / 16 * 512 + (y 0).val < 4096 := by omega
  have hJ : t.val / 4 % 4 * 512 + (y 1).val < 2048 := by omega
  have ei : ((cfg1.win 8).blk t).view.emb y
      = ix2 (⟨t.val / 16 * 512 + (y 0).val, hR⟩ : Fin 4096) (⟨t.val / 4 % 4 * 512 + (y 1).val, hJ⟩ : Fin 2048) := by
    funext a
    apply Fin.ext
    match a with
    | ⟨0, _⟩ => show win1_8.index t (0 : Fin 2) * 512 + 1 * (y 0).val = t.val / 16 * 512 + (y 0).val; rw [e0]; omega
    | ⟨1, _⟩ => show win1_8.index t (1 : Fin 2) * 512 + 1 * (y 1).val = t.val / 4 % 4 * 512 + (y 1).val; rw [e1]; omega
  rw [ey, ei]
  refine (k1_pay5_at _ _ _ _ _).trans ?_
  rw [blk3_at V c t ⟨(y 0).val, hy0⟩ ⟨(y 1).val, hy1⟩ (ix2 ⟨_, hR⟩ ⟨_, hJ⟩) rfl rfl,
    blk4_at V c t ⟨(y 0).val, hy0⟩ ⟨(y 1).val, hy1⟩ (ix2 ⟨_, hR⟩ ⟨_, hJ⟩) rfl rfl,
    blk5_at V c t ⟨(y 0).val, hy0⟩ ⟨(y 1).val, hy1⟩ (ix2 ⟨_, hR⟩ ⟨_, hJ⟩) rfl rfl]
  rfl

/-- An index of the spike output is in point `t`'s block iff each coordinate is in the block's range. -/
theorem mem_blk8 (t : Fin cfg1.N) (i : S4096x2048.Idx) :
    i ∈ ((cfg1.win 8).blk t).view.set ↔ ∀ a : Fin 2, win1_8.index t a * S512x512.size a ≤ (i a).val
      ∧ (i a).val < win1_8.index t a * S512x512.size a + S512x512.size a := by
  show i ∈ ((View.whole main_v3_2).slice (win1_8.rect t)).set ↔ _
  rw [View.set_slice_whole, Rect.mem_set_unit]
  exact Iff.rfl

/-- Every index of the spike output is in the block of a point that writes back: the point of chunk 3 of its
    row block and column block. -/
theorem cover8 (i : S4096x2048.Idx) :
    ∃ t : Fin cfg1.N, (cfg1.win 8).flush t = true ∧ i ∈ ((cfg1.win 8).blk t).view.set := by
  have hi0 : (i 0).val < 4096 := (i 0).isLt
  have hi1 : (i 1).val < 2048 := (i 1).isLt
  refine ⟨⟨(i 0).val / 512 * 16 + (i 1).val / 512 * 4 + 3, by show _ < 128; omega⟩, ?_, ?_⟩
  · exact (flush1_8 _).mpr (by show ((i 0).val / 512 * 16 + (i 1).val / 512 * 4 + 3) % 4 = 3; omega)
  · obtain ⟨-, -, -, -, -, -, -, -, -, -, -, -, -, -, -, -, e0, e1⟩ :=
      idx1 ⟨(i 0).val / 512 * 16 + (i 1).val / 512 * 4 + 3, by show _ < 128; omega⟩
    rw [mem_blk8]
    intro a
    match a with
    | ⟨0, _⟩ =>
      show win1_8.index _ (0 : Fin 2) * 512 ≤ (i 0).val ∧ (i 0).val < win1_8.index _ (0 : Fin 2) * 512 + 512
      rw [e0]
      show ((i 0).val / 512 * 16 + (i 1).val / 512 * 4 + 3) / 16 * 512 ≤ (i 0).val
        ∧ (i 0).val < ((i 0).val / 512 * 16 + (i 1).val / 512 * 4 + 3) / 16 * 512 + 512
      omega
    | ⟨1, _⟩ =>
      show win1_8.index _ (1 : Fin 2) * 512 ≤ (i 1).val ∧ (i 1).val < win1_8.index _ (1 : Fin 2) * 512 + 512
      rw [e1]
      show ((i 0).val / 512 * 16 + (i 1).val / 512 * 4 + 3) / 4 % 4 * 512 ≤ (i 1).val
        ∧ (i 1).val < ((i 0).val / 512 * 16 + (i 1).val / 512 * 4 + 3) / 4 % 4 * 512 + 512
      omega

/-- THE SPIKE ARRAY after the region: `GS` of the three state arrays as the region found them. -/
theorem spike_array (c : Dev nD) :
    (Dense.dat V c).arrAt 8 cfg1.N = GS (V c main_arg22) (V c main_arg23) (V c main_arg24) :=
  (Dense.dat V c).arrAt_eq_of_cover 8 _ (fun t _ => flushed8_eq V c t) cover8

/-! ## The accumulator at a point of the last chunk -/

/-- The 1024-term sum of products of row `r` of a left block with row `j` of a right block. -/
def rowProd (a w : Vec Ideal S512x1024 .bf16) (r j : Fin 512) : EReal :=
  ∑ k : Fin 1024, a (ix2 r k) * w (ix2 j k)

/-- One point's partial product: that sum for its two blocks. -/
def part (c : Dev nD) (n : ℕ) (h : n < cfg1.N) (r j : Fin 512) : EReal :=
  rowProd (Dense.blockAt V c 0 ⟨n, h⟩) (Dense.blockAt V c 1 ⟨n, h⟩) r j

/-- At a point of chunk 0 the accumulator is zero plus the point's partial product. -/
theorem acc_first (c : Dev nD) (n : ℕ) (h : n < cfg1.N) (h0 : n % 4 = 0) (r j : Fin 512) :
    Dense.accAt V c n h (ix2 r j) = 0 + part V c n h r j := by
  refine (congrFun (Dense.accAt_first V c ⟨n, h⟩ h0) (ix2 r j)).trans ?_
  refine (k1_pay2_at _ _ _ r j).trans ?_
  rw [k1_pay1_at]
  rfl

/-- At a point of a later chunk the accumulator is what the point before left plus the point's partial product. -/
theorem acc_next (c : Dev nD) (n : ℕ) (h : n + 1 < cfg1.N) (hne : (n + 1) % 4 ≠ 0) (r j : Fin 512) :
    Dense.accAt V c (n + 1) h (ix2 r j)
      = Dense.accAt V c n (Nat.lt_of_succ_lt h) (ix2 r j) + part V c (n + 1) h r j := by
  refine (congrFun (Dense.accAt_next V c ⟨n + 1, h⟩ hne) (ix2 r j)).trans ?_
  exact k1_pay2_at _ _ _ r j

/-- At a point of chunk 3 the accumulator is the four partial products of its chunk group, added from zero in
    point order. -/
theorem acc_last (c : Dev nD) (m : ℕ) (h : m + 1 + 1 + 1 < cfg1.N) (hm : m % 4 = 0) (r j : Fin 512) :
    Dense.accAt V c (m + 1 + 1 + 1) h (ix2 r j)
      = (((0 + part V c m (by omega) r j) + part V c (m + 1) (by omega) r j)
          + part V c (m + 1 + 1) (by omega) r j) + part V c (m + 1 + 1 + 1) h r j := by
  rw [acc_next V c (m + 1 + 1) h (by omega), acc_next V c (m + 1) (by omega) (by omega),
    acc_next V c m (by omega) (by omega), acc_first V c m (by omega) hm]

/-- Row `R` of the left array times row `J` of the right array, term by term along the contracted axis. -/
def prodRow (A : S4096x4096.Idx → EReal) (W : S2048x4096.Idx → EReal) (R : Fin 4096) (J : Fin 2048) (k : Fin 4096) :
    EReal :=
  A (ix2 R k) * W (ix2 J k)

/-- A point's partial product is the run of 1024 terms of the row product that starts at its chunk's offset. -/
theorem part_eq (c : Dev nD) (n : ℕ) (h : n < cfg1.N) (r j : Fin 512) (R : Fin 4096) (J : Fin 2048)
    (hR : R.val = n / 16 * 512 + r.val) (hJ : J.val = n / 4 % 4 * 512 + j.val)
    (κ : Fin 1024 → Fin 4096) (hκ : ∀ k, (κ k).val = n % 4 * 1024 + k.val) :
    part V c n h r j = ∑ k : Fin 1024, prodRow (V c main_v0) (V c main_v1) R J (κ k) := by
  unfold part rowProd prodRow
  refine Finset.sum_congr rfl fun k _ => ?_
  rw [blk0_at V c ⟨n, h⟩ r k (ix2 R (κ k)) hR (hκ k), blk1_at V c ⟨n, h⟩ j k (ix2 J (κ k)) hJ (hκ k)]

/-- So at a point of chunk 3 the accumulator holds the whole row product: the sum over all 4096 positions. -/
theorem acc_at_last (c : Dev nD) (t : Fin cfg1.N) (h3 : t.val % 4 = 3) (r j : Fin 512) (R : Fin 4096) (J : Fin 2048)
    (hR : R.val = t.val / 16 * 512 + r.val) (hJ : J.val = t.val / 4 % 4 * 512 + j.val) :
    Dense.accAt V c t.val t.isLt (ix2 r j) = ∑ k : Fin 4096, prodRow (V c main_v0) (V c main_v1) R J k := by
  obtain ⟨n, hn⟩ := t
  have h3' : n % 4 = 3 := h3
  obtain ⟨m, rfl⟩ : ∃ m, n = m + 1 + 1 + 1 := ⟨n - 3, by omega⟩
  have hm : m % 4 = 0 := by omega
  have hN : m + 1 + 1 + 1 < 128 := hn
  have hR' : R.val = (m + 1 + 1 + 1) / 16 * 512 + r.val := hR
  have hJ' : J.val = (m + 1 + 1 + 1) / 4 % 4 * 512 + j.val := hJ
  show Dense.accAt V c (m + 1 + 1 + 1) hn (ix2 r j) = _
  rw [acc_last V c m hn hm r j,
    part_eq V c m _ r j R J (by omega) (by omega) (fun k => ⟨k.val, by have := k.isLt; omega⟩)
      (fun k => by show k.val = m % 4 * 1024 + k.val; omega),
    part_eq V c (m + 1) _ r j R J (by omega) (by omega) (fun k => ⟨1024 + k.val, by have := k.isLt; omega⟩)
      (fun k => by show 1024 + k.val = (m + 1) % 4 * 1024 + k.val; omega),
    part_eq V c (m + 1 + 1) _ r j R J (by omega) (by omega) (fun k => ⟨2048 + k.val, by have := k.isLt; omega⟩)
      (fun k => by show 2048 + k.val = (m + 1 + 1) % 4 * 1024 + k.val; omega),
    part_eq V c (m + 1 + 1 + 1) hn r j R J (by omega) (by omega) (fun k => ⟨3072 + k.val, by have := k.isLt; omega⟩)
      (fun k => by show 3072 + k.val = (m + 1 + 1 + 1) % 4 * 1024 + k.val; omega)]
  exact chunk4 (prodRow (V c main_v0) (V c main_v1) R J)

/-! ## The current output -/

/-- What the current output holds: the old current mixed with the product, over all 4096 positions, of a row of the
    left array with a row of the right array, plus the bias of the column. -/
def currentOf (A : S4096x4096.Idx → EReal) (W : S2048x4096.Idx → EReal) (B : S1x2048.Idx → EReal)
    (I3 : S4096x2048.Idx → EReal) : S4096x2048.Idx → EReal :=
  fun i => cur (I3 i)
    ((∑ k : Fin 4096, A (ix2 (⟨(i 0).val, idx2_lt0 i⟩ : Fin 4096) k) * W (ix2 (⟨(i 1).val, idx2_lt1 i⟩ : Fin 2048) k))
      + B (ix2 (0 : Fin 1) (⟨(i 1).val, idx2_lt1 i⟩ : Fin 2048)))

/-- When the left array is the previous layer's spikes and the bias row is the bias vector, that is `GI`. -/
theorem currentOf_spec (U2 I2 S2 : S4096x4096.Idx → EReal) (W3 : S2048x4096.Idx → EReal) (b3 : S2048.Idx → EReal)
    (I3 : S4096x2048.Idx → EReal) (B : S1x2048.Idx → EReal) (hB : ∀ j : Fin 2048, B (ix2 (0 : Fin 1) j) = b3 (ix1 j)) :
    currentOf (fun i => spk (U2 i) (I2 i) (S2 i)) W3 B I3 = GI U2 I2 S2 W3 b3 I3 := by
  funext i
  unfold currentOf GI lin
  rw [hB]

/-- What a point of the last chunk writes back of the current output is its block of `currentOf` of the arrays. -/
theorem flushed7_eq (c : Dev nD) (t : Fin cfg1.N) (hf : (cfg1.win 7).flush t = true) :
    (Dense.dat V c).flushed 7 t
      = ((cfg1.win 7).blk t).view.read (Elt Ideal)
          (currentOf (V c main_v0) (V c main_v1) (V c main_v2) (V c main_arg23)) := by
  have h3 : t.val % 4 = 3 := (flush1_7 t).mp hf
  show (cfg1.win 7).cut (grid1.coords t) ((Dense.dat V c).after 7 t) = _
  rw [Dense.after_7]
  obtain ⟨-, -, -, -, -, -, -, -, -, -, -, -, -, -, e0, e1, -⟩ := idx1 t
  funext y
  have hy0 : (y 0).val < 512 := (y 0).isLt
  have hy1 : (y 1).val < 512 := (y 1).isLt
  have ht : t.val < 128 := t.isLt
  rw [View.read_apply]
  have ey : (cfg1.win 7).xinj (grid1.coords t) y = ix2 (⟨(y 0).val, hy0⟩ : Fin 512) (⟨(y 1).val, hy1⟩ : Fin 512) :=
    funext fun a => by match a with | ⟨0, _⟩ => rfl | ⟨1, _⟩ => rfl
  show k1_pay4 (F := Ideal) (Dense.accAt V c t.val t.isLt) (Dense.blockAt V c 2 t) (Dense.blockAt V c 4 t)
      ((cfg1.win 7).xinj (grid1.coords t) y)
    = currentOf (V c main_v0) (V c main_v1) (V c main_v2) (V c main_arg23) (((cfg1.win 7).blk t).view.emb y)
  have hR : t.val / 16 * 512 + (y 0).val < 4096 := by omega
  have hJ : t.val / 4 % 4 * 512 + (y 1).val < 2048 := by omega
  have ei : ((cfg1.win 7).blk t).view.emb y
      = ix2 (⟨t.val / 16 * 512 + (y 0).val, hR⟩ : Fin 4096) (⟨t.val / 4 % 4 * 512 + (y 1).val, hJ⟩ : Fin 2048) := by
    funext a
    apply Fin.ext
    match a with
    | ⟨0, _⟩ => show win1_7.index t (0 : Fin 2) * 512 + 1 * (y 0).val = t.val / 16 * 512 + (y 0).val; rw [e0]; omega
    | ⟨1, _⟩ => show win1_7.index t (1 : Fin 2) * 512 + 1 * (y 1).val = t.val / 4 % 4 * 512 + (y 1).val; rw [e1]; omega
  rw [ey, ei]
  refine (k1_pay4_at _ _ _ _ _).trans ?_
  rw [blk4_at V c t ⟨(y 0).val, hy0⟩ ⟨(y 1).val, hy1⟩ (ix2 ⟨_, hR⟩ ⟨_, hJ⟩) rfl rfl,
    blk2_at V c t ⟨(y 1).val, hy1⟩ (ix2 (0 : Fin 1) ⟨_, hJ⟩) rfl rfl,
    acc_at_last V c t h3 ⟨(y 0).val, hy0⟩ ⟨(y 1).val, hy1⟩ ⟨_, hR⟩ ⟨_, hJ⟩ rfl rfl]
  rfl

/-- An index of the current output is in point `t`'s block iff each coordinate is in the block's range. -/
theorem mem_blk7 (t : Fin cfg1.N) (i : S4096x2048.Idx) :
    i ∈ ((cfg1.win 7).blk t).view.set ↔ ∀ a : Fin 2, win1_7.index t a * S512x512.size a ≤ (i a).val
      ∧ (i a).val < win1_7.index t a * S512x512.size a + S512x512.size a := by
  show i ∈ ((View.whole main_v3_1).slice (win1_7.rect t)).set ↔ _
  rw [View.set_slice_whole, Rect.mem_set_unit]
  exact Iff.rfl

/-- Every index of the current output is in the block of a point that writes back: the point of chunk 3 of its
    row block and column block. -/
theorem cover7 (i : S4096x2048.Idx) :
    ∃ t : Fin cfg1.N, (cfg1.win 7).flush t = true ∧ i ∈ ((cfg1.win 7).blk t).view.set := by
  have hi0 : (i 0).val < 4096 := (i 0).isLt
  have hi1 : (i 1).val < 2048 := (i 1).isLt
  refine ⟨⟨(i 0).val / 512 * 16 + (i 1).val / 512 * 4 + 3, by show _ < 128; omega⟩, ?_, ?_⟩
  · exact (flush1_7 _).mpr (by show ((i 0).val / 512 * 16 + (i 1).val / 512 * 4 + 3) % 4 = 3; omega)
  · obtain ⟨-, -, -, -, -, -, -, -, -, -, -, -, -, -, e0, e1, -⟩ :=
      idx1 ⟨(i 0).val / 512 * 16 + (i 1).val / 512 * 4 + 3, by show _ < 128; omega⟩
    rw [mem_blk7]
    intro a
    match a with
    | ⟨0, _⟩ =>
      show win1_7.index _ (0 : Fin 2) * 512 ≤ (i 0).val ∧ (i 0).val < win1_7.index _ (0 : Fin 2) * 512 + 512
      rw [e0]
      show ((i 0).val / 512 * 16 + (i 1).val / 512 * 4 + 3) / 16 * 512 ≤ (i 0).val
        ∧ (i 0).val < ((i 0).val / 512 * 16 + (i 1).val / 512 * 4 + 3) / 16 * 512 + 512
      omega
    | ⟨1, _⟩ =>
      show win1_7.index _ (1 : Fin 2) * 512 ≤ (i 1).val ∧ (i 1).val < win1_7.index _ (1 : Fin 2) * 512 + 512
      rw [e1]
      show ((i 0).val / 512 * 16 + (i 1).val / 512 * 4 + 3) / 4 % 4 * 512 ≤ (i 1).val
        ∧ (i 1).val < ((i 0).val / 512 * 16 + (i 1).val / 512 * 4 + 3) / 4 % 4 * 512 + 512
      omega

/-- THE CURRENT ARRAY after the region: `currentOf` of the two product operands, the bias row and the old current,
    as the region found them. -/
theorem current_array (c : Dev nD) :
    (Dense.dat V c).arrAt 7 cfg1.N = currentOf (V c main_v0) (V c main_v1) (V c main_v2) (V c main_arg23) :=
  (Dense.dat V c).arrAt_eq_of_cover 7 _ (fun t hf => flushed7_eq V c t hf) cover7

end Cert.KernelIdeal.DenseValue

end
-- ==== Proof.Bridge.lean ====
/-
  From the run's boundary contents to the three results as functions of the launch memory.

  The dense region finds, on entry: its three state arrays as launched (nothing before it writes
  them); the previous layer's spikes as the spike region left them; the weights as launched (their
  rounding to bf16 is the identity on the extended reals); and the bias as launched, laid out as a
  row. Its three result arrays, as functions of what it finds, are the membrane values, the
  currents and the spikes of the layer; substituting what it finds gives them as functions of the
  launch memory alone.
-/
import proofs.«166087_j40707700031715_2_alg».proof.Proof.MainRun
import proofs.«166087_j40707700031715_2_alg».proof.Proof.Spec
import proofs.«166087_j40707700031715_2_alg».proof.Proof.SpikeValue
import proofs.«166087_j40707700031715_2_alg».proof.Proof.DenseValue
import Idealize.ShloMosaic.Lib.Pipeline.Value
import Idealize.ShloMosaic.Lib.ValueIdx
import Idealize.ShloMosaic.Lib.StableHlo.Run

set_option maxRecDepth 16384

noncomputable section

open scoped BigOperators

namespace Cert.KernelIdeal.Bridge

open Cert.KernelIdeal Cert.KernelIdeal.Gen Cert.Lif
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg)

/-! ## The two host operations, read through the fold -/

/-- After the two host operations the rounded weights are the weights: rounding to bf16 is the identity on the
    extended reals. -/
theorem weights_read (W : Valuation τ sig (Elt Ideal)) (i : S2048x4096.Idx) :
    (StableHlo.after (hostOps1 (F := Ideal)) W (Proc.devRef .tc main_v1) : S2048x4096.Idx → EReal) i
      = (W (Proc.devRef .tc main_arg20) : S2048x4096.Idx → EReal) i := by
  have e : (StableHlo.after (hostOps1 (F := Ideal)) W (Proc.devRef .tc main_v1) : S2048x4096.Idx → EReal)
      = (W (Proc.devRef .tc main_arg20) : S2048x4096.Idx → EReal) := by
    after_results
    rfl
  exact congrFun e i

/-- After the two host operations the bias row is the bias, one leading unit axis added: its element in column
    `j` is the bias's element `j`. -/
theorem bias_read (W : Valuation τ sig (Elt Ideal)) (j : Fin 2048) :
    (StableHlo.after (hostOps1 (F := Ideal)) W (Proc.devRef .tc main_v2) : S1x2048.Idx → EReal) (ix2 (0 : Fin 1) j)
      = (W (Proc.devRef .tc main_arg21) : S2048.Idx → EReal) (ix1 j) := by
  have e : (StableHlo.after (hostOps1 (F := Ideal)) W (Proc.devRef .tc main_v2) : S1x2048.Idx → EReal)
      = shapeCast S1x2048 (W (Proc.devRef .tc main_arg21) : S2048.Idx → EReal) shapeCasts_S2048_S1x2048 := by
    after_results
    rfl
  rw [e]
  refine (shapeCast_addUnit_apply ![2048] _ shapeCasts_S2048_S1x2048 (ix2 (0 : Fin 1) j)).trans ?_
  exact congrArg _ (funext fun a => by match a with | ⟨0, _⟩ => rfl)

/-! ## What the dense region finds -/

/-- The layer's old membrane values, currents and spikes reach the dense region as launched: neither the spike
    region nor the host operations write them. -/
theorem enter_arg22 (c : Dev nD) : Run.enterDense m ρ c main_arg22 = m ((c : Thread nD τ).loc main_arg22) :=
  (Run.beforeDense_of m ρ c main_arg22 (by decide)).trans (Run.afterSpike_of_ne m ρ c main_arg22 (by decide))
theorem enter_arg23 (c : Dev nD) : Run.enterDense m ρ c main_arg23 = m ((c : Thread nD τ).loc main_arg23) :=
  (Run.beforeDense_of m ρ c main_arg23 (by decide)).trans (Run.afterSpike_of_ne m ρ c main_arg23 (by decide))
theorem enter_arg24 (c : Dev nD) : Run.enterDense m ρ c main_arg24 = m ((c : Thread nD τ).loc main_arg24) :=
  (Run.beforeDense_of m ρ c main_arg24 (by decide)).trans (Run.afterSpike_of_ne m ρ c main_arg24 (by decide))

/-- The spike region finds its three arrays as launched. -/
theorem enterSpike_arg17 (c : Dev nD) : Run.enterSpike m ρ c main_arg17 = m ((c : Thread nD τ).loc main_arg17) := rfl
theorem enterSpike_arg18 (c : Dev nD) : Run.enterSpike m ρ c main_arg18 = m ((c : Thread nD τ).loc main_arg18) := rfl
theorem enterSpike_arg19 (c : Dev nD) : Run.enterSpike m ρ c main_arg19 = m ((c : Thread nD τ).loc main_arg19) := rfl

/-- The previous layer's spikes reach the dense region as the spike region left them: the host operations do
    not write them. -/
theorem enter_spikes (c : Dev nD) :
    Run.enterDense m ρ c main_v0 = (Spike.dat (Run.enterSpike m ρ) c).arrAt 3 cfg0.N :=
  (Run.beforeDense_of m ρ c main_v0 (by decide)).trans (Run.afterSpike_arr m ρ c 3)

/-- The weights reach the dense region as launched. -/
theorem enter_weights (c : Dev nD) (i : S2048x4096.Idx) :
    (Run.enterDense m ρ c main_v1 : S2048x4096.Idx → EReal) i = (m ((c : Thread nD τ).loc main_arg20) : S2048x4096.Idx → EReal) i :=
  (weights_read (Run.afterSpike m ρ c) i).trans
    (congrFun (Run.afterSpike_of_ne m ρ c main_arg20 (by decide)) i)

/-- The bias reaches the dense region as launched, laid out as one row. -/
theorem enter_bias (c : Dev nD) (j : Fin 2048) :
    (Run.enterDense m ρ c main_v2 : S1x2048.Idx → EReal) (ix2 (0 : Fin 1) j) = (m ((c : Thread nD τ).loc main_arg21) : S2048.Idx → EReal) (ix1 j) :=
  (bias_read (Run.afterSpike m ρ c) j).trans
    (congrFun (Run.afterSpike_of_ne m ρ c main_arg21 (by decide)) (ix1 j))

/-- The previous layer's spikes, as the dense region finds them, are the spike function of the launched arrays. -/
theorem enter_spikes_fn (c : Dev nD) :
    (Run.enterDense m ρ c main_v0 : S4096x4096.Idx → EReal)
      = fun i => spk ((m ((c : Thread nD τ).loc main_arg17) : S4096x4096.Idx → EReal) i) ((m ((c : Thread nD τ).loc main_arg18) : S4096x4096.Idx → EReal) i) ((m ((c : Thread nD τ).loc main_arg19) : S4096x4096.Idx → EReal) i) :=
  (enter_spikes m ρ c).trans (SpikeValue.spikes_array (Run.enterSpike m ρ) c)

/-- The weights as the dense region finds them are the launched weights, as one array. -/
theorem enter_weights_fn (c : Dev nD) :
    (Run.enterDense m ρ c main_v1 : S2048x4096.Idx → EReal) = (m ((c : Thread nD τ).loc main_arg20) : S2048x4096.Idx → EReal) :=
  funext (enter_weights m ρ c)
/-! ## The three results -/

/-- The new membrane values. -/
theorem membrane_result (c : Dev nD) :
    Run.atEnd m ρ c (Proc.devRef .tc main_v3_0) = GU (m ((c : Thread nD τ).loc main_arg22)) (m ((c : Thread nD τ).loc main_arg23)) (m ((c : Thread nD τ).loc main_arg24)) := by
  refine (Run.atEnd_arr m ρ c 6).trans ((DenseValue.membrane_array (Run.enterDense m ρ) c).trans ?_)
  rw [enter_arg22, enter_arg23, enter_arg24]

/-- The new spikes. -/
theorem spike_result (c : Dev nD) :
    Run.atEnd m ρ c (Proc.devRef .tc main_v3_2) = GS (m ((c : Thread nD τ).loc main_arg22)) (m ((c : Thread nD τ).loc main_arg23)) (m ((c : Thread nD τ).loc main_arg24)) := by
  refine (Run.atEnd_arr m ρ c 8).trans ((DenseValue.spike_array (Run.enterDense m ρ) c).trans ?_)
  rw [enter_arg22, enter_arg23, enter_arg24]

/-- The new currents: the product over all 4096 inputs of the previous layer's spikes with the weights, plus the
    bias, mixed with the old current. -/
theorem current_result (c : Dev nD) :
    Run.atEnd m ρ c (Proc.devRef .tc main_v3_1)
      = GI (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg23)) := by
  refine (Run.atEnd_arr m ρ c 7).trans ((DenseValue.current_array (Run.enterDense m ρ) c).trans ?_)
  rw [enter_arg23, enter_spikes_fn, enter_weights_fn]
  exact DenseValue.currentOf_spec _ _ _ _ _ _ _ (enter_bias m ρ c)

end Cert.KernelIdeal.Bridge

end
-- ==== Proof.lean ====
/-
  The certificate's five claims, assembled.

  The kernel's frame, at the word-level instance and at the extended reals, is its whole run read
  at the argument arrays: no item of the program writes one. The reference's frame is its run read
  at the same arrays. The ideal pass rewrote no operation, so there is nothing to preserve. For the
  comparison, both programs' results are the same three functions of the argument arrays: the
  layer's new membrane values, currents and spikes. The kernel's run ends at them by the bridge
  from its boundary contents; the reference's run ends at its composed term, which is those
  functions index by index; and the two memories agree on the arguments.
-/
import proofs.«166087_j40707700031715_2_alg».proof.Defs
import proofs.«166087_j40707700031715_2_alg».proof.Proof.Gen.Kernel
import proofs.«166087_j40707700031715_2_alg».proof.Proof.Gen.KernelIdeal
import proofs.«166087_j40707700031715_2_alg».proof.Proof.Gen.ReferenceIdeal
import proofs.«166087_j40707700031715_2_alg».proof.Proof.Gen.Pre_finite_inputs
import proofs.«166087_j40707700031715_2_alg».proof.Proof.Gen.ReferenceIdeal.Run
import proofs.«166087_j40707700031715_2_alg».proof.Proof.Gen.ReferenceIdeal.Read
import proofs.«166087_j40707700031715_2_alg».proof.Proof.RefSpec
import proofs.«166087_j40707700031715_2_alg».proof.Proof.MainRun
import proofs.«166087_j40707700031715_2_alg».proof.Proof.Bits.MainRun
import proofs.«166087_j40707700031715_2_alg».proof.Proof.Bridge

noncomputable section

namespace Cert.Proof

open Idealize.ShloMosaic Idealize.ShloMosaic.TcCoe Idealize.SL.Sem

/-- The kernel as printed runs and leaves its arguments as launched: its whole run, read at the argument arrays, none of which any item of the program writes. -/
theorem frame_kernel : Cert.frame_Kernel := fun m ρ _ =>
  (θ_run Cert.Kernel.defs _ _).mono (fun r h c =>
    ⟨(h c _ (Cert.Kernel.Run.mem_uc Cert.Kernel.main_arg0 (by decide))).trans (Cert.Kernel.Run.atEnd_arg0 m ρ c),
      (h c _ (Cert.Kernel.Run.mem_uc Cert.Kernel.main_arg1 (by decide))).trans (Cert.Kernel.Run.atEnd_arg1 m ρ c),
      (h c _ (Cert.Kernel.Run.mem_uc Cert.Kernel.main_arg2 (by decide))).trans (Cert.Kernel.Run.atEnd_arg2 m ρ c),
      (h c _ (Cert.Kernel.Run.mem_uc Cert.Kernel.main_arg3 (by decide))).trans (Cert.Kernel.Run.atEnd_arg3 m ρ c),
      (h c _ (Cert.Kernel.Run.mem_uc Cert.Kernel.main_arg4 (by decide))).trans (Cert.Kernel.Run.atEnd_arg4 m ρ c),
      (h c _ (Cert.Kernel.Run.mem_uc Cert.Kernel.main_arg5 (by decide))).trans (Cert.Kernel.Run.atEnd_arg5 m ρ c),
      (h c _ (Cert.Kernel.Run.mem_uc Cert.Kernel.main_arg6 (by decide))).trans (Cert.Kernel.Run.atEnd_arg6 m ρ c),
      (h c _ (Cert.Kernel.Run.mem_uc Cert.Kernel.main_arg7 (by decide))).trans (Cert.Kernel.Run.atEnd_arg7 m ρ c),
      (h c _ (Cert.Kernel.Run.mem_uc Cert.Kernel.main_arg8 (by decide))).trans (Cert.Kernel.Run.atEnd_arg8 m ρ c),
      (h c _ (Cert.Kernel.Run.mem_uc Cert.Kernel.main_arg9 (by decide))).trans (Cert.Kernel.Run.atEnd_arg9 m ρ c),
      (h c _ (Cert.Kernel.Run.mem_uc Cert.Kernel.main_arg10 (by decide))).trans (Cert.Kernel.Run.atEnd_arg10 m ρ c),
      (h c _ (Cert.Kernel.Run.mem_uc Cert.Kernel.main_arg11 (by decide))).trans (Cert.Kernel.Run.atEnd_arg11 m ρ c),
      (h c _ (Cert.Kernel.Run.mem_uc Cert.Kernel.main_arg12 (by decide))).trans (Cert.Kernel.Run.atEnd_arg12 m ρ c),
      (h c _ (Cert.Kernel.Run.mem_uc Cert.Kernel.main_arg13 (by decide))).trans (Cert.Kernel.Run.atEnd_arg13 m ρ c),
      (h c _ (Cert.Kernel.Run.mem_uc Cert.Kernel.main_arg14 (by decide))).trans (Cert.Kernel.Run.atEnd_arg14 m ρ c),
      (h c _ (Cert.Kernel.Run.mem_uc Cert.Kernel.main_arg15 (by decide))).trans (Cert.Kernel.Run.atEnd_arg15 m ρ c),
      (h c _ (Cert.Kernel.Run.mem_uc Cert.Kernel.main_arg16 (by decide))).trans (Cert.Kernel.Run.atEnd_arg16 m ρ c),
      (h c _ (Cert.Kernel.Run.mem_uc Cert.Kernel.main_arg17 (by decide))).trans (Cert.Kernel.Run.atEnd_arg17 m ρ c),
      (h c _ (Cert.Kernel.Run.mem_uc Cert.Kernel.main_arg18 (by decide))).trans (Cert.Kernel.Run.atEnd_arg18 m ρ c),
      (h c _ (Cert.Kernel.Run.mem_uc Cert.Kernel.main_arg19 (by decide))).trans (Cert.Kernel.Run.atEnd_arg19 m ρ c),
      (h c _ (Cert.Kernel.Run.mem_uc Cert.Kernel.main_arg20 (by decide))).trans (Cert.Kernel.Run.atEnd_arg20 m ρ c),
      (h c _ (Cert.Kernel.Run.mem_uc Cert.Kernel.main_arg21 (by decide))).trans (Cert.Kernel.Run.atEnd_arg21 m ρ c),
      (h c _ (Cert.Kernel.Run.mem_uc Cert.Kernel.main_arg22 (by decide))).trans (Cert.Kernel.Run.atEnd_arg22 m ρ c),
      (h c _ (Cert.Kernel.Run.mem_uc Cert.Kernel.main_arg23 (by decide))).trans (Cert.Kernel.Run.atEnd_arg23 m ρ c),
      (h c _ (Cert.Kernel.Run.mem_uc Cert.Kernel.main_arg24 (by decide))).trans (Cert.Kernel.Run.atEnd_arg24 m ρ c)⟩)
    (Cert.Kernel.Run.whole_run (F := Bits) m ρ)

/-- The same at the extended reals. -/
theorem frame_kernel_ideal : Cert.frame_KernelIdeal := fun m ρ _ =>
  (θ_run Cert.KernelIdeal.defs _ _).mono (fun r h c =>
    ⟨(h c _ (Cert.KernelIdeal.Run.mem_uc Cert.KernelIdeal.main_arg0 (by decide))).trans (Cert.KernelIdeal.Run.atEnd_arg0 m ρ c),
      (h c _ (Cert.KernelIdeal.Run.mem_uc Cert.KernelIdeal.main_arg1 (by decide))).trans (Cert.KernelIdeal.Run.atEnd_arg1 m ρ c),
      (h c _ (Cert.KernelIdeal.Run.mem_uc Cert.KernelIdeal.main_arg2 (by decide))).trans (Cert.KernelIdeal.Run.atEnd_arg2 m ρ c),
      (h c _ (Cert.KernelIdeal.Run.mem_uc Cert.KernelIdeal.main_arg3 (by decide))).trans (Cert.KernelIdeal.Run.atEnd_arg3 m ρ c),
      (h c _ (Cert.KernelIdeal.Run.mem_uc Cert.KernelIdeal.main_arg4 (by decide))).trans (Cert.KernelIdeal.Run.atEnd_arg4 m ρ c),
      (h c _ (Cert.KernelIdeal.Run.mem_uc Cert.KernelIdeal.main_arg5 (by decide))).trans (Cert.KernelIdeal.Run.atEnd_arg5 m ρ c),
      (h c _ (Cert.KernelIdeal.Run.mem_uc Cert.KernelIdeal.main_arg6 (by decide))).trans (Cert.KernelIdeal.Run.atEnd_arg6 m ρ c),
      (h c _ (Cert.KernelIdeal.Run.mem_uc Cert.KernelIdeal.main_arg7 (by decide))).trans (Cert.KernelIdeal.Run.atEnd_arg7 m ρ c),
      (h c _ (Cert.KernelIdeal.Run.mem_uc Cert.KernelIdeal.main_arg8 (by decide))).trans (Cert.KernelIdeal.Run.atEnd_arg8 m ρ c),
      (h c _ (Cert.KernelIdeal.Run.mem_uc Cert.KernelIdeal.main_arg9 (by decide))).trans (Cert.KernelIdeal.Run.atEnd_arg9 m ρ c),
      (h c _ (Cert.KernelIdeal.Run.mem_uc Cert.KernelIdeal.main_arg10 (by decide))).trans (Cert.KernelIdeal.Run.atEnd_arg10 m ρ c),
      (h c _ (Cert.KernelIdeal.Run.mem_uc Cert.KernelIdeal.main_arg11 (by decide))).trans (Cert.KernelIdeal.Run.atEnd_arg11 m ρ c),
      (h c _ (Cert.KernelIdeal.Run.mem_uc Cert.KernelIdeal.main_arg12 (by decide))).trans (Cert.KernelIdeal.Run.atEnd_arg12 m ρ c),
      (h c _ (Cert.KernelIdeal.Run.mem_uc Cert.KernelIdeal.main_arg13 (by decide))).trans (Cert.KernelIdeal.Run.atEnd_arg13 m ρ c),
      (h c _ (Cert.KernelIdeal.Run.mem_uc Cert.KernelIdeal.main_arg14 (by decide))).trans (Cert.KernelIdeal.Run.atEnd_arg14 m ρ c),
      (h c _ (Cert.KernelIdeal.Run.mem_uc Cert.KernelIdeal.main_arg15 (by decide))).trans (Cert.KernelIdeal.Run.atEnd_arg15 m ρ c),
      (h c _ (Cert.KernelIdeal.Run.mem_uc Cert.KernelIdeal.main_arg16 (by decide))).trans (Cert.KernelIdeal.Run.atEnd_arg16 m ρ c),
      (h c _ (Cert.KernelIdeal.Run.mem_uc Cert.KernelIdeal.main_arg17 (by decide))).trans (Cert.KernelIdeal.Run.atEnd_arg17 m ρ c),
      (h c _ (Cert.KernelIdeal.Run.mem_uc Cert.KernelIdeal.main_arg18 (by decide))).trans (Cert.KernelIdeal.Run.atEnd_arg18 m ρ c),
      (h c _ (Cert.KernelIdeal.Run.mem_uc Cert.KernelIdeal.main_arg19 (by decide))).trans (Cert.KernelIdeal.Run.atEnd_arg19 m ρ c),
      (h c _ (Cert.KernelIdeal.Run.mem_uc Cert.KernelIdeal.main_arg20 (by decide))).trans (Cert.KernelIdeal.Run.atEnd_arg20 m ρ c),
      (h c _ (Cert.KernelIdeal.Run.mem_uc Cert.KernelIdeal.main_arg21 (by decide))).trans (Cert.KernelIdeal.Run.atEnd_arg21 m ρ c),
      (h c _ (Cert.KernelIdeal.Run.mem_uc Cert.KernelIdeal.main_arg22 (by decide))).trans (Cert.KernelIdeal.Run.atEnd_arg22 m ρ c),
      (h c _ (Cert.KernelIdeal.Run.mem_uc Cert.KernelIdeal.main_arg23 (by decide))).trans (Cert.KernelIdeal.Run.atEnd_arg23 m ρ c),
      (h c _ (Cert.KernelIdeal.Run.mem_uc Cert.KernelIdeal.main_arg24 (by decide))).trans (Cert.KernelIdeal.Run.atEnd_arg24 m ρ c)⟩)
    (Cert.KernelIdeal.Run.whole_run (F := Ideal) m ρ)

/-- The reference runs and leaves its arguments as launched. -/
theorem frame_reference : Cert.frame_ReferenceIdeal := fun m ρ _ =>
  (θ_run Cert.ReferenceIdeal.defs _ _).mono (fun _ h c => (h c).2.2.2) (Cert.ReferenceIdeal.Value.run (F := Ideal) m ρ)

/-- At the extended reals the two programs, from memories that agree on the arguments, both run and
    end with the same three results: the specification's functions of the argument arrays. -/
theorem algebraic : Cert.algebraic_KernelIdeal_ReferenceIdeal := by
  intro m ρ m' ρ' _ hagree
  refine ⟨fun c => Cert.Lif.GU (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)),
    fun c => Cert.Lif.GI (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg23)),
    fun c => Cert.Lif.GS (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)), ?kernel, ?reference⟩
  case kernel =>
    exact (θ_run Cert.KernelIdeal.defs _ _).mono (fun r h c =>
      ⟨(h c _ (Cert.KernelIdeal.Run.mem_uc Cert.KernelIdeal.main_v3_0 (by decide))).trans (Cert.KernelIdeal.Bridge.membrane_result m ρ c),
      (h c _ (Cert.KernelIdeal.Run.mem_uc Cert.KernelIdeal.main_v3_1 (by decide))).trans (Cert.KernelIdeal.Bridge.current_result m ρ c),
      (h c _ (Cert.KernelIdeal.Run.mem_uc Cert.KernelIdeal.main_v3_2 (by decide))).trans (Cert.KernelIdeal.Bridge.spike_result m ρ c),
      (h c _ (Cert.KernelIdeal.Run.mem_uc Cert.KernelIdeal.main_arg0 (by decide))).trans (Cert.KernelIdeal.Run.atEnd_arg0 m ρ c),
      (h c _ (Cert.KernelIdeal.Run.mem_uc Cert.KernelIdeal.main_arg1 (by decide))).trans (Cert.KernelIdeal.Run.atEnd_arg1 m ρ c),
      (h c _ (Cert.KernelIdeal.Run.mem_uc Cert.KernelIdeal.main_arg2 (by decide))).trans (Cert.KernelIdeal.Run.atEnd_arg2 m ρ c),
      (h c _ (Cert.KernelIdeal.Run.mem_uc Cert.KernelIdeal.main_arg3 (by decide))).trans (Cert.KernelIdeal.Run.atEnd_arg3 m ρ c),
      (h c _ (Cert.KernelIdeal.Run.mem_uc Cert.KernelIdeal.main_arg4 (by decide))).trans (Cert.KernelIdeal.Run.atEnd_arg4 m ρ c),
      (h c _ (Cert.KernelIdeal.Run.mem_uc Cert.KernelIdeal.main_arg5 (by decide))).trans (Cert.KernelIdeal.Run.atEnd_arg5 m ρ c),
      (h c _ (Cert.KernelIdeal.Run.mem_uc Cert.KernelIdeal.main_arg6 (by decide))).trans (Cert.KernelIdeal.Run.atEnd_arg6 m ρ c),
      (h c _ (Cert.KernelIdeal.Run.mem_uc Cert.KernelIdeal.main_arg7 (by decide))).trans (Cert.KernelIdeal.Run.atEnd_arg7 m ρ c),
      (h c _ (Cert.KernelIdeal.Run.mem_uc Cert.KernelIdeal.main_arg8 (by decide))).trans (Cert.KernelIdeal.Run.atEnd_arg8 m ρ c),
      (h c _ (Cert.KernelIdeal.Run.mem_uc Cert.KernelIdeal.main_arg9 (by decide))).trans (Cert.KernelIdeal.Run.atEnd_arg9 m ρ c),
      (h c _ (Cert.KernelIdeal.Run.mem_uc Cert.KernelIdeal.main_arg10 (by decide))).trans (Cert.KernelIdeal.Run.atEnd_arg10 m ρ c),
      (h c _ (Cert.KernelIdeal.Run.mem_uc Cert.KernelIdeal.main_arg11 (by decide))).trans (Cert.KernelIdeal.Run.atEnd_arg11 m ρ c),
      (h c _ (Cert.KernelIdeal.Run.mem_uc Cert.KernelIdeal.main_arg12 (by decide))).trans (Cert.KernelIdeal.Run.atEnd_arg12 m ρ c),
      (h c _ (Cert.KernelIdeal.Run.mem_uc Cert.KernelIdeal.main_arg13 (by decide))).trans (Cert.KernelIdeal.Run.atEnd_arg13 m ρ c),
      (h c _ (Cert.KernelIdeal.Run.mem_uc Cert.KernelIdeal.main_arg14 (by decide))).trans (Cert.KernelIdeal.Run.atEnd_arg14 m ρ c),
      (h c _ (Cert.KernelIdeal.Run.mem_uc Cert.KernelIdeal.main_arg15 (by decide))).trans (Cert.KernelIdeal.Run.atEnd_arg15 m ρ c),
      (h c _ (Cert.KernelIdeal.Run.mem_uc Cert.KernelIdeal.main_arg16 (by decide))).trans (Cert.KernelIdeal.Run.atEnd_arg16 m ρ c),
      (h c _ (Cert.KernelIdeal.Run.mem_uc Cert.KernelIdeal.main_arg17 (by decide))).trans (Cert.KernelIdeal.Run.atEnd_arg17 m ρ c),
      (h c _ (Cert.KernelIdeal.Run.mem_uc Cert.KernelIdeal.main_arg18 (by decide))).trans (Cert.KernelIdeal.Run.atEnd_arg18 m ρ c),
      (h c _ (Cert.KernelIdeal.Run.mem_uc Cert.KernelIdeal.main_arg19 (by decide))).trans (Cert.KernelIdeal.Run.atEnd_arg19 m ρ c),
      (h c _ (Cert.KernelIdeal.Run.mem_uc Cert.KernelIdeal.main_arg20 (by decide))).trans (Cert.KernelIdeal.Run.atEnd_arg20 m ρ c),
      (h c _ (Cert.KernelIdeal.Run.mem_uc Cert.KernelIdeal.main_arg21 (by decide))).trans (Cert.KernelIdeal.Run.atEnd_arg21 m ρ c),
      (h c _ (Cert.KernelIdeal.Run.mem_uc Cert.KernelIdeal.main_arg22 (by decide))).trans (Cert.KernelIdeal.Run.atEnd_arg22 m ρ c),
      (h c _ (Cert.KernelIdeal.Run.mem_uc Cert.KernelIdeal.main_arg23 (by decide))).trans (Cert.KernelIdeal.Run.atEnd_arg23 m ρ c),
      (h c _ (Cert.KernelIdeal.Run.mem_uc Cert.KernelIdeal.main_arg24 (by decide))).trans (Cert.KernelIdeal.Run.atEnd_arg24 m ρ c)⟩)
      (Cert.KernelIdeal.Run.whole_run (F := Ideal) m ρ)
  case reference =>
    refine (θ_run Cert.ReferenceIdeal.defs _ _).mono (fun r h c => ?_) (Cert.ReferenceIdeal.Value.run (F := Ideal) m' ρ')
    obtain ⟨a0, a1, a2, a3, a4, a5, a6, a7, a8, a9, a10, a11, a12, a13, a14, a15, a16, a17, a18, a19, a20, a21, a22, a23, a24⟩ := hagree c
    obtain ⟨h74, h84, h87, hargs⟩ := h c
    refine ⟨?_, ?_, ?_, hargs⟩
    · rw [h74, Cert.ReferenceIdeal.Read.val_main_v74_eq, Cert.Lif.ref_membrane, a22, a23, a24]
    · rw [h84, Cert.ReferenceIdeal.Read.val_main_v84_eq, Cert.Lif.ref_current, a17, a18, a19, a20, a21, a23]
    · rw [h87, Cert.ReferenceIdeal.Read.val_main_v87_eq, Cert.Lif.ref_spike, a22, a23, a24]

/-- The five claims, under the programs' stated side conditions as the generated modules prove them. The ideal pass
    rewrote no operation, so the fourth claim is the true proposition. -/
theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
